-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 2048]⟩ ⟨2, ![2048, 2048]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 256]⟩ ⟨2, ![2048, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x2048 : Shape := ⟨2, ![256, 2048]⟩
abbrev S2048x2048 : Shape := ⟨2, ![2048, 2048]⟩
abbrev S_ : Shape := ⟨0, ![]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S256x2048 .f32) (main_arg1 : FVec F S2048x2048 .f32) : IVec S_ 1 :=
  let main_v0 : FVec F S256x2048 .f32 := Host.absf main_arg0
  let main_cst : FVec F S_ .f32 := constant S_ .f32 0x7F800000#32
  let main_v1 : FVec F S256x2048 .f32 := broadcastInDim S256x2048 ![] bcast_S_S256x2048 main_cst
  let main_v2 : IVec S256x2048 1 := cmpf .olt main_v0 main_v1
  let main_c : IVec S_ 1 := constantI S_ 1 1#1
  let main_v3 : IVec S_ 1 := (fun x v => Host.reduce IntOp.andi x v reducesTo_S256x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Pre_finite_inputs_ReferenceIdeal.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel

variable [Facts]

def fn {F : FTy → Type} [FloatOps F] (main_arg0 : FVec F S2048x2048 .f32) (main_arg1 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S256x2048 : Shape := ⟨2, ![256, 2048]⟩
abbrev S2048x2048 : Shape := ⟨2, ![2048, 2048]⟩
abbrev S2048x256 : Shape := ⟨2, ![2048, 256]⟩
abbrev S8x256x256 : Shape := ⟨3, ![8, 256, 256]⟩
abbrev S8 : Shape := ⟨1, ![8]⟩
abbrev S_ : Shape := ⟨0, ![]⟩
abbrev S256x256 : Shape := ⟨2, ![256, 256]⟩
abbrev S1x256x256 : Shape := ⟨3, ![1, 256, 256]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S2048x2048, .f32⟩
  | .hbm, ⟨2, _⟩ => ⟨S2048x256, .f32⟩
  | .local _ .vmem, ⟨0, _⟩ => ⟨S256x2048, .f32⟩
  | .local _ .vmem, ⟨1, _⟩ => ⟨S2048x2048, .f32⟩
  | .local _ .vmem, ⟨2, _⟩ => ⟨S2048x256, .f32⟩
  | .local _ .vmem, ⟨3, _⟩ => ⟨S8x256x256, .bf16⟩
  | .local _ .vmem, ⟨4, _⟩ => ⟨S8x256x256, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  { ofTc nBuf bufTy 1 19 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_49 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v77 : BitVec 32 := Scalar.addi v2 c1_i32_49
  let c8_i32_50 : BitVec 32 := 8#32
  let v78 : BitVec 32 := Scalar.remsi v77 c8_i32_50
  ![v78.toNat]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_53 : BitVec 32 := 0#32
  let c0_i32_54 : BitVec 32 := 0#32
  ![v2.toNat, 0, 0]
def k0_off4 (d0 : Dev nD) (c1_i32_49 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v77 : BitVec 32 := Scalar.addi v2 c1_i32_49
  let c8_i32_50 : BitVec 32 := 8#32
  let v78 : BitVec 32 := Scalar.remsi v77 c8_i32_50
  let c0_i32_55 : BitVec 32 := 0#32
  let c0_i32_56 : BitVec 32 := 0#32
  ![v78.toNat, 0, 0]
def k0_dev8 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_49 : BitVec 32 := 1#32
  let v77 : BitVec 32 := Scalar.addi v2 c1_i32_49
  let c8_i32_50 : BitVec 32 := 8#32
  let v78 : BitVec 32 := Scalar.remsi v77 c8_i32_50
  let c1_i32_51 : BitVec 32 := 1#32
  let v79 : BitVec 32 := Scalar.muli v78 c1_i32_51
  let v80 : BitVec 32 := Scalar.addi c0_i32_52 v79
  v80.toNat
def k0_dev9 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_57 : BitVec 32 := 2#32
  let v89 : BitVec 32 := Scalar.addi v2 c2_i32_57
  let c8_i32_58 : BitVec 32 := 8#32
  let v90 : BitVec 32 := Scalar.remsi v89 c8_i32_58
  let c1_i32_59 : BitVec 32 := 1#32
  let v91 : BitVec 32 := Scalar.muli v90 c1_i32_59
  let v92 : BitVec 32 := Scalar.addi c0_i32_60 v91
  v92.toNat
def k0_dev10 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_65 : BitVec 32 := 3#32
  let v101 : BitVec 32 := Scalar.addi v2 c3_i32_65
  let c8_i32_66 : BitVec 32 := 8#32
  let v102 : BitVec 32 := Scalar.remsi v101 c8_i32_66
  let c1_i32_67 : BitVec 32 := 1#32
  let v103 : BitVec 32 := Scalar.muli v102 c1_i32_67
  let v104 : BitVec 32 := Scalar.addi c0_i32_68 v103
  v104.toNat
def k0_dev11 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_73 : BitVec 32 := 4#32
  let v113 : BitVec 32 := Scalar.addi v2 c4_i32_73
  let c8_i32_74 : BitVec 32 := 8#32
  let v114 : BitVec 32 := Scalar.remsi v113 c8_i32_74
  let c1_i32_75 : BitVec 32 := 1#32
  let v115 : BitVec 32 := Scalar.muli v114 c1_i32_75
  let v116 : BitVec 32 := Scalar.addi c0_i32_76 v115
  v116.toNat
def k0_dev12 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_81 : BitVec 32 := 5#32
  let v125 : BitVec 32 := Scalar.addi v2 c5_i32_81
  let c8_i32_82 : BitVec 32 := 8#32
  let v126 : BitVec 32 := Scalar.remsi v125 c8_i32_82
  let c1_i32_83 : BitVec 32 := 1#32
  let v127 : BitVec 32 := Scalar.muli v126 c1_i32_83
  let v128 : BitVec 32 := Scalar.addi c0_i32_84 v127
  v128.toNat
def k0_dev13 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_89 : BitVec 32 := 6#32
  let v137 : BitVec 32 := Scalar.addi v2 c6_i32_89
  let c8_i32_90 : BitVec 32 := 8#32
  let v138 : BitVec 32 := Scalar.remsi v137 c8_i32_90
  let c1_i32_91 : BitVec 32 := 1#32
  let v139 : BitVec 32 := Scalar.muli v138 c1_i32_91
  let v140 : BitVec 32 := Scalar.addi c0_i32_92 v139
  v140.toNat
def k0_dev14 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_97 : BitVec 32 := 7#32
  let v149 : BitVec 32 := Scalar.addi v2 c7_i32_97
  let c8_i32_98 : BitVec 32 := 8#32
  let v150 : BitVec 32 := Scalar.remsi v149 c8_i32_98
  let c1_i32_99 : BitVec 32 := 1#32
  let v151 : BitVec 32 := Scalar.muli v150 c1_i32_99
  let v152 : BitVec 32 := Scalar.addi c0_i32_100 v151
  v152.toNat
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v161 : Index := Scalar.indexCast v2
  let c0_105 : Index := 0#32
  let c0_106 : Index := 0#32
  ![v161.toNat, 0, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v178 : BitVec 32 := Scalar.muli v2 c256_i32
  let v179 : Index := Scalar.indexCast v178
  let c0_111 : Index := 0#32
  ![v179.toNat, 0]
def k0_off7 (d0 : Dev nD) (c1_i32_113 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_112 : BitVec 32 := 8#32
  let v181 : BitVec 32 := Scalar.addi v2 c8_i32_112
  let v182 : BitVec 32 := Scalar.subi v181 c1_i32_113
  let c8_i32_114 : BitVec 32 := 8#32
  let v183 : BitVec 32 := Scalar.remsi v182 c8_i32_114
  ![v183.toNat]
def k0_off8 (d0 : Dev nD) (c1_i32_113 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_112 : BitVec 32 := 8#32
  let v181 : BitVec 32 := Scalar.addi v2 c8_i32_112
  let v182 : BitVec 32 := Scalar.subi v181 c1_i32_113
  let c8_i32_114 : BitVec 32 := 8#32
  let v183 : BitVec 32 := Scalar.remsi v182 c8_i32_114
  let c0_i32_117 : BitVec 32 := 0#32
  let c0_i32_118 : BitVec 32 := 0#32
  ![v183.toNat, 0, 0]
def k0_off9 (d0 : Dev nD) (c1_i32_113 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_112 : BitVec 32 := 8#32
  let v181 : BitVec 32 := Scalar.addi v2 c8_i32_112
  let v182 : BitVec 32 := Scalar.subi v181 c1_i32_113
  let c8_i32_114 : BitVec 32 := 8#32
  let v183 : BitVec 32 := Scalar.remsi v182 c8_i32_114
  let v192 : Index := Scalar.indexCast v183
  let c0_121 : Index := 0#32
  let c0_122 : Index := 0#32
  ![v192.toNat, 0, 0]
def k0_off10 (d0 : Dev nD) (c1_i32_113 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_112 : BitVec 32 := 8#32
  let v181 : BitVec 32 := Scalar.addi v2 c8_i32_112
  let v182 : BitVec 32 := Scalar.subi v181 c1_i32_113
  let c8_i32_114 : BitVec 32 := 8#32
  let v183 : BitVec 32 := Scalar.remsi v182 c8_i32_114
  let c256_i32_127 : BitVec 32 := 256#32
  let v209 : BitVec 32 := Scalar.muli v183 c256_i32_127
  let v210 : Index := Scalar.indexCast v209
  let c0_128 : Index := 0#32
  ![v210.toNat, 0]
abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  slices_S256x2048_o0_0_S256x256 : S256x2048.Slices ![0, 0] S256x256
  bitsLt_bf16_f32 : FTy.bits .bf16 < FTy.bits .f32
  inb_S8x256x256_S1x256x256_0_0_0 : ∀ a, (![0, 0, 0] : Fin 3 → Nat) a + S1x256x256.size a ≤ S8x256x256.size a
  h_S1x256x256 : 0 < S1x256x256.numel
  shapeCasts_S1x256x256_S256x256 : S1x256x256.ShapeCasts S256x256
  shapeCasts_S256x256_S1x256x256 : S256x256.ShapeCasts S1x256x256
  packedbf16_S8x256x256_S1x256x256_0_0_0 : (Rect.unit (s := S8x256x256) ![0, 0, 0] S1x256x256.size inb_S8x256x256_S1x256x256_0_0_0).PackedRows (EltTy.packing .bf16)
  slices_S256x2048_o0_256_S256x256 : S256x2048.Slices ![0, 256] S256x256
  inb_S8x256x256_S1x256x256_1_0_0 : ∀ a, (![1, 0, 0] : Fin 3 → Nat) a + S1x256x256.size a ≤ S8x256x256.size a
  packedbf16_S8x256x256_S1x256x256_1_0_0 : (Rect.unit (s := S8x256x256) ![1, 0, 0] S1x256x256.size inb_S8x256x256_S1x256x256_1_0_0).PackedRows (EltTy.packing .bf16)
  slices_S256x2048_o0_512_S256x256 : S256x2048.Slices ![0, 512] S256x256
  inb_S8x256x256_S1x256x256_2_0_0 : ∀ a, (![2, 0, 0] : Fin 3 → Nat) a + S1x256x256.size a ≤ S8x256x256.size a
  packedbf16_S8x256x256_S1x256x256_2_0_0 : (Rect.unit (s := S8x256x256) ![2, 0, 0] S1x256x256.size inb_S8x256x256_S1x256x256_2_0_0).PackedRows (EltTy.packing .bf16)
  slices_S256x2048_o0_768_S256x256 : S256x2048.Slices ![0, 768] S256x256
  inb_S8x256x256_S1x256x256_3_0_0 : ∀ a, (![3, 0, 0] : Fin 3 → Nat) a + S1x256x256.size a ≤ S8x256x256.size a
  packedbf16_S8x256x256_S1x256x256_3_0_0 : (Rect.unit (s := S8x256x256) ![3, 0, 0] S1x256x256.size inb_S8x256x256_S1x256x256_3_0_0).PackedRows (EltTy.packing .bf16)
  slices_S256x2048_o0_1024_S256x256 : S256x2048.Slices ![0, 1024] S256x256
  inb_S8x256x256_S1x256x256_4_0_0 : ∀ a, (![4, 0, 0] : Fin 3 → Nat) a + S1x256x256.size a ≤ S8x256x256.size a
  packedbf16_S8x256x256_S1x256x256_4_0_0 : (Rect.unit (s := S8x256x256) ![4, 0, 0] S1x256x256.size inb_S8x256x256_S1x256x256_4_0_0).PackedRows (EltTy.packing .bf16)
  slices_S256x2048_o0_1280_S256x256 : S256x2048.Slices ![0, 1280] S256x256
  inb_S8x256x256_S1x256x256_5_0_0 : ∀ a, (![5, 0, 0] : Fin 3 → Nat) a + S1x256x256.size a ≤ S8x256x256.size a
  packedbf16_S8x256x256_S1x256x256_5_0_0 : (Rect.unit (s := S8x256x256) ![5, 0, 0] S1x256x256.size inb_S8x256x256_S1x256x256_5_0_0).PackedRows (EltTy.packing .bf16)
  slices_S256x2048_o0_1536_S256x256 : S256x2048.Slices ![0, 1536] S256x256
  inb_S8x256x256_S1x256x256_6_0_0 : ∀ a, (![6, 0, 0] : Fin 3 → Nat) a + S1x256x256.size a ≤ S8x256x256.size a
  packedbf16_S8x256x256_S1x256x256_6_0_0 : (Rect.unit (s := S8x256x256) ![6, 0, 0] S1x256x256.size inb_S8x256x256_S1x256x256_6_0_0).PackedRows (EltTy.packing .bf16)
  slices_S256x2048_o0_1792_S256x256 : S256x2048.Slices ![0, 1792] S256x256
  inb_S8x256x256_S1x256x256_7_0_0 : ∀ a, (![7, 0, 0] : Fin 3 → Nat) a + S1x256x256.size a ≤ S8x256x256.size a
  packedbf16_S8x256x256_S1x256x256_7_0_0 : (Rect.unit (s := S8x256x256) ![7, 0, 0] S1x256x256.size inb_S8x256x256_S1x256x256_7_0_0).PackedRows (EltTy.packing .bf16)
  hamt_7 : (7#32 : BitVec 32).msb = false
  squeezes_S1_S_ : S1.Squeezes S_
  squeezes_S1x256x256_S256x256 : S1x256x256.Squeezes S256x256
  h_S256x256 : 0 < S256x256.numel
  dot_S256x2048_S2048x2048_S256x2048_1_0_0_1_n_n_wf : DotDims.WF S256x2048 S2048x2048 S256x2048 [1] [0] [0] [1] [] []
  hcc0_scratch2 : 3 + S8.numel ≤ 19
  hcc0_scratch3 : 11 + S8.numel ≤ 19
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off1_inb : ∀ d0 : Dev nD, ∀ (r : Fin 7), ∀ a, (k0_off1 d0 (BitVec.ofNat 32 (1 + r.val))) a + S1.size a ≤ S8.size a
  k0_off2_inb : ∀ d0 : Dev nD, ∀ a, (k0_off2 d0) a + S1.size a ≤ S8.size a
  k0_off3_inb : ∀ d0 : Dev nD, ∀ a, (k0_off3 d0) a + S1x256x256.size a ≤ S8x256x256.size a
  k0_off4_inb : ∀ d0 : Dev nD, ∀ (r : Fin 7), ∀ a, (k0_off4 d0 (BitVec.ofNat 32 (1 + r.val))) a + S1x256x256.size a ≤ S8x256x256.size a
  k0_off4_wordsbf16 : ∀ d0 : Dev nD, ∀ (r : Fin 7), (Rect.unit (s := S8x256x256) (k0_off4 d0 (BitVec.ofNat 32 (1 + r.val))) S1x256x256.size (k0_off4_inb d0 r)).WholeWords (EltTy.packing .bf16)
  k0_off3_wordsbf16 : ∀ d0 : Dev nD, (Rect.unit (s := S8x256x256) (k0_off3 d0) S1x256x256.size (k0_off3_inb d0)).WholeWords (EltTy.packing .bf16)
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_off5_inb : ∀ d0 : Dev nD, ∀ a, (k0_off5 d0) a + S1x256x256.size a ≤ S8x256x256.size a
  k0_off6_inb : ∀ d0 : Dev nD, ∀ a, (k0_off6 d0) a + S256x256.size a ≤ S2048x256.size a
  k0_off7_inb : ∀ d0 : Dev nD, ∀ (r : Fin 7), ∀ a, (k0_off7 d0 (BitVec.ofNat 32 (1 + r.val))) a + S1.size a ≤ S8.size a
  k0_off8_inb : ∀ d0 : Dev nD, ∀ (r : Fin 7), ∀ a, (k0_off8 d0 (BitVec.ofNat 32 (1 + r.val))) a + S1x256x256.size a ≤ S8x256x256.size a
  k0_off8_wordsbf16 : ∀ d0 : Dev nD, ∀ (r : Fin 7), (Rect.unit (s := S8x256x256) (k0_off8 d0 (BitVec.ofNat 32 (1 + r.val))) S1x256x256.size (k0_off8_inb d0 r)).WholeWords (EltTy.packing .bf16)
  k0_off9_inb : ∀ d0 : Dev nD, ∀ (r : Fin 7), ∀ a, (k0_off9 d0 (BitVec.ofNat 32 (1 + r.val))) a + S1x256x256.size a ≤ S8x256x256.size a
  k0_off10_inb : ∀ d0 : Dev nD, ∀ (r : Fin 7), ∀ a, (k0_off10 d0 (BitVec.ofNat 32 (1 + r.val))) a + S256x256.size a ≤ S2048x256.size a
  hstage0_0 : ∀ j, (stage0_0 j).IsWhole
  hstage0_1 : ∀ j, (stage0_1 j).IsWhole
  hstage0_2 : ∀ j, (stage0_2 j).IsWhole

variable [Facts₀]

abbrev cc0_scratch2 : DmaSems sig S8 := SemArray.consecutive 3 S8 hcc0_scratch2
abbrev cc0_scratch3 : DmaSems sig S8 := SemArray.consecutive 11 S8 hcc0_scratch3
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  dot_S2048x2048_S2048x2048_S2048x2048_1_0_0_1_n_n_wf : DotDims.WF S2048x2048 S2048x2048 S2048x2048 [1] [0] [0] [1] [] []

variable [Facts₀]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf

class Facts : Prop extends Facts₀ where

variable [Facts]
-- ==== Proof.A2ASched.lean ====
/-
  An all-to-all of matrix-product chunks on eight devices: the cells of the protocol and their one round.

  Device c multiplies its 256 rows of x by w, cuts the product into eight 256-column chunks (slot q of its chunk
  buffer), and sends chunk t to device t, which receives it in slot c of its landing buffer. Three kinds of cell on
  every device: the entry barrier (seven duties of one unit, one per peer: peer p's unit tells that p is inside the
  kernel and hands over slot c of p's landing buffer, the slot c will write); the send cell t (one duty: the copy of
  chunk t has left, the chunk slot is whole again); the receive cell s (one duty: peer s's copy has landed, slot s
  of the landing buffer holds s's chunk for this device).
-/
import proofs.«900437_g7700000000000438_dist_gemm_a2a_m2048_k2048_n2048_f32_gelu_v7x_i8_1_alg».proof.Proof.Gen.KernelIdeal
import proofs.«900437_g7700000000000438_dist_gemm_a2a_m2048_k2048_n2048_f32_gelu_v7x_i8_1_alg».proof.Proof.Gen.KernelIdeal.Skeleton
import proofs.«900437_g7700000000000438_dist_gemm_a2a_m2048_k2048_n2048_f32_gelu_v7x_i8_1_alg».proof.Proof.Gen.KernelIdeal.Launch
import proofs.«900437_g7700000000000438_dist_gemm_a2a_m2048_k2048_n2048_f32_gelu_v7x_i8_1_alg».proof.Proof.Gen.KernelIdeal.Points
import proofs.«900437_g7700000000000438_dist_gemm_a2a_m2048_k2048_n2048_f32_gelu_v7x_i8_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Offsets round the ring: device c addresses c + r + 1 (mod 8) with its r-th signal and copy, and awaits
    c + 7 - r (mod 8) with its r-th receive wait. -/

def fw (c : Dev nD) (r : Fin 7) : Dev nD := ⟨(c.val + r.val + 1) % 8, Nat.mod_lt _ (by decide)⟩
def bk (c : Dev nD) (r : Fin 7) : Dev nD := ⟨((c.val + 7) - r.val) % 8, Nat.mod_lt _ (by decide)⟩

theorem fw_ne (c : Dev nD) (r : Fin 7) : fw c r ≠ c := by revert c r; decide
theorem bk_ne (c : Dev nD) (r : Fin 7) : bk c r ≠ c := by revert c r; decide
theorem ne_fw (c : Dev nD) (r : Fin 7) : c ≠ fw c r := fun h => fw_ne c r h.symm
theorem ne_bk (c : Dev nD) (r : Fin 7) : c ≠ bk c r := fun h => bk_ne c r h.symm
theorem fw_bk (c : Dev nD) (r : Fin 7) : fw (bk c r) r = c := by revert c r; decide
theorem bk_fw (c : Dev nD) (r : Fin 7) : bk (fw c r) r = c := by revert c r; decide
theorem fw_inj (c : Dev nD) : Function.Injective (fw c) := by revert c; decide
theorem bk_inj (c : Dev nD) : Function.Injective (bk c) := by revert c; decide
theorem exists_fw (c t : Dev nD) (h : t ≠ c) : ∃ r, fw c r = t := by revert c t; decide
theorem exists_bk (c t : Dev nD) (h : t ≠ c) : ∃ r, bk c r = t := by revert c t; decide

/-! ## The semaphores and the cells -/

abbrev barS : Sem sig := (SemArray.scalar (sig.barrier 0 rfl) : Sems sig S_).sem
def sendS (t : Dev nD) : DmaSem sig := ⟨3 + t.val, by have h : t.val < 8 := t.isLt; show 3 + t.val < 19; omega⟩
def recvS (s : Dev nD) : DmaSem sig := ⟨11 + s.val, by have h : s.val < 8 := s.isLt; show 11 + s.val < 19; omega⟩

theorem sendSem_eq (c : Dev nD) (r : Fin 7) :
    ((cc0_scratch2.slice (Rect.unit (s := S8) (k0_off1 c (BitVec.ofNat 32 (1 + r.val))) S1.size (k0_off1_inb c r))).squeeze S_ squeezes_S1_S_).sem = sendS (fw c r) := by
  revert c r; decide +kernel
theorem recvOwn_eq (c : Dev nD) :
    ((cc0_scratch3.slice (Rect.unit (s := S8) (k0_off2 c) S1.size (k0_off2_inb c))).squeeze S_ squeezes_S1_S_).sem = recvS c := by
  revert c; decide +kernel
theorem recvSem_eq (c : Dev nD) (r : Fin 7) :
    ((cc0_scratch3.slice (Rect.unit (s := S8) (k0_off7 c (BitVec.ofNat 32 (1 + r.val))) S1.size (k0_off7_inb c r))).squeeze S_ squeezes_S1_S_).sem = recvS (bk c r) := by
  revert c r; decide +kernel

abbrev barCell (c : Dev nD) : GSem nD τ sig := ((c : Thread nD τ), .reg barS)
abbrev sendCell (c t : Dev nD) : GSem nD τ sig := ((c : Thread nD τ), .dma (sendS t))
abbrev recvCell (c s : Dev nD) : GSem nD τ sig := ((c : Thread nD τ), .dma (recvS s))

/-- What kind of cell a semaphore is: the barrier, send cell t, receive cell s, or one of the three staging semaphores. -/
inductive CK | bar | send (t : Dev nD) | recv (s : Dev nD) | stage
  deriving DecidableEq

def ck : SemLoc sig → CK
  | .reg _ => .bar
  | .dma q => if h : q.val < 3 then .stage else if h' : q.val < 11 then .send ⟨q.val - 3, by show q.val - 3 < 8; omega⟩
      else .recv ⟨q.val - 11, by have h2 : q.val < 19 := q.isLt; show q.val - 11 < 8; omega⟩

theorem ck_bar : ck (.reg barS) = .bar := rfl
theorem ck_send (t : Dev nD) : ck (.dma (sendS t)) = .send t := by revert t; decide
theorem ck_recv (s : Dev nD) : ck (.dma (recvS s)) = .recv s := by revert s; decide

/-! ## The two scratch buffers and their slots -/

abbrev yM : Memref sig .tc .vmem S8x256x256 .bf16 := Memref.whole cc0_scratch0
abbrev rM : Memref sig .tc .vmem S8x256x256 .bf16 := Memref.whole cc0_scratch1

theorem slot_inb (j : Dev nD) : ∀ a, (![j.val, 0, 0] : Fin 3 → Nat) a + S1x256x256.size a ≤ S8x256x256.size a := by revert j; decide
/-- Slot j of a chunk buffer: the rectangle [j, j+1) × 256 × 256. -/
def slotR (j : Dev nD) : Rect S8x256x256 := Rect.unit (s := S8x256x256) ![j.val, 0, 0] S1x256x256.size (slot_inb j)

abbrev N : ℕ := ((yM.slice (slotR 0) (fun _ => rfl)).squeeze S256x256 squeezes_S1x256x256_S256x256 : Memref sig .tc .vmem S256x256 .bf16).view.dmaCredit
theorem N_pos : 0 < N := View.dmaCredit_pos _ (by decide)

variable (m : (ℓ : Loc nD τ sig) → Buf (Elt F) ℓ)

/-- Device c's staged block of x and copy of w: what the body loads. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))

/-- Chunk q of the product, as slot q of the chunk buffer holds it. -/
def ychunk (x : Vec F S256x2048 .f32) (w : Vec F S2048x2048 .f32) : Dev nD → FVec F S1x256x256 .bf16
  | ⟨0, _⟩ => k0_pay2 x w | ⟨1, _⟩ => k0_pay3 x w | ⟨2, _⟩ => k0_pay4 x w | ⟨3, _⟩ => k0_pay6 (k0_pay5 x w)
  | ⟨4, _⟩ => k0_pay7 (k0_pay1 x w) | ⟨5, _⟩ => k0_pay8 (k0_pay1 x w) | ⟨6, _⟩ => k0_pay9 (k0_pay1 x w) | ⟨7, _⟩ => k0_pay10 (k0_pay1 x w)
  | ⟨n + 8, h⟩ => absurd (show n + 8 < 8 from h) (by omega)

/-- The chunk device s makes for device t. -/
def chunkOf (s t : Dev nD) : FVec F S1x256x256 .bf16 := ychunk (xstg m s) (wstg m s) t

local notation "𝕄" => MT nD τ sig Unit (Elt F) ℕ (UR sig nD τ × URounds (GSem nD τ sig) (Dev nD)) ℕ

/-- Slot j of device c's chunk buffer, at contents f. -/
def yPts (c j : Dev nD) (f : Buf (Elt F) ((c : Thread nD τ).loc cc0_scratch0)) : sProp 𝕄 :=
  ((c : Thread nD τ).loc cc0_scratch0) ↦[(slotR j).set]{fullShare} f
/-- Slot j of device c's landing buffer, at contents f. -/
def rPts (c j : Dev nD) (f : Buf (Elt F) ((c : Thread nD τ).loc cc0_scratch1)) : sProp 𝕄 :=
  ((c : Thread nD τ).loc cc0_scratch1) ↦[(slotR j).set]{fullShare} f

/-- What peer p's barrier unit hands device c: slot c of p's landing buffer. -/
def barPay (p c : Dev nD) : sProp 𝕄 := iprop(∃ f, rPts (F := F) p c f)
/-- What the departure of chunk t hands back: slot t of the chunk buffer. -/
def sendPay (c t : Dev nD) : sProp 𝕄 := iprop(∃ f, yPts (F := F) c t f)
/-- What the landing of peer s's copy hands device c: slot s of the landing buffer, reading s's chunk for c. -/
def recvPay (c s : Dev nD) : sProp 𝕄 :=
  iprop(∃ g, ⌜rM.view.readAt (Elt F) (slotR s).toLoadRect g = chunkOf m s c⌝ ∗ rPts c s g)

/-- One round, round 0. The barrier of device c: a unit from every peer. Send cell t and receive cell s of device c,
    for t, s other than c: one duty of a slot's credit, named by its payer — c's own engine, peer s. (The send and
    receive cells numbered c itself are never used: no duty.) -/
def sched : Rounds.Schedule (GSem nD τ sig) (Dev nD) 𝕄 where
  duties g r := if r = 0 ∧ g.1.2 = .tc then
      (match ck g.2 with
        | .bar => Finset.univ.erase g.1.1
        | .send t => if t = g.1.1 then ∅ else {g.1.1}
        | .recv s => if s = g.1.1 then ∅ else {s}
        | .stage => ∅)
    else ∅
  unitless _ := False
  amount g _ _ := match ck g.2 with | .bar => 1 | _ => N
  payload g _ d := match ck g.2 with
    | .bar => barPay d g.1.1
    | .send t => sendPay g.1.1 t
    | .recv s => recvPay m g.1.1 s
    | .stage => iprop(emp)
  amount_pos g _ _ _ := by
    show 0 < (match ck g.2 with | .bar => 1 | _ => N)
    split <;> first | exact Nat.one_pos | exact N_pos

instance sched_payload_storable (g : GSem nD τ sig) (r : ℕ) (d : Dev nD) :
    BI.Storable (upEmb : UEmb _ 𝕄) ((sched (F := F) m).payload g r d) := by
  show BI.Storable upEmb (match ck g.2 with
    | .bar => barPay d g.1.1
    | .send t => sendPay g.1.1 t
    | .recv s => recvPay m g.1.1 s
    | .stage => iprop(emp))
  unfold barPay sendPay recvPay yPts rPts
  split <;> infer_instance

section Tables
variable (c : Dev nD)

theorem duties_bar : (sched (F := F) m).duties (barCell c) 0 = Finset.univ.erase c := by
  dsimp only [sched]; rw [if_pos ⟨rfl, rfl⟩]; rfl
theorem duties_send (t : Dev nD) (h : t ≠ c) : (sched (F := F) m).duties (sendCell c t) 0 = {c} := by
  dsimp only [sched]; rw [if_pos ⟨rfl, rfl⟩, ck_send]; exact if_neg h
theorem duties_recv (s : Dev nD) (h : s ≠ c) : (sched (F := F) m).duties (recvCell c s) 0 = {s} := by
  dsimp only [sched]; rw [if_pos ⟨rfl, rfl⟩, ck_recv]; exact if_neg h
theorem duties_send_self : ∀ r, (sched (F := F) m).duties (sendCell c c) r = ∅ := fun r => by
  dsimp only [sched]; split
  · rw [ck_send]; exact if_pos rfl
  · rfl
theorem duties_recv_self : ∀ r, (sched (F := F) m).duties (recvCell c c) r = ∅ := fun r => by
  dsimp only [sched]; split
  · rw [ck_recv]; exact if_pos rfl
  · rfl
theorem duties_later (g : GSem nD τ sig) : ∀ r, 1 ≤ r → (sched (F := F) m).duties g r = ∅ :=
  fun r hr => by dsimp only [sched]; rw [if_neg fun h => by omega]

theorem amount_bar (d : Dev nD) : (sched (F := F) m).amount (barCell c) 0 d = 1 := rfl
theorem amount_send (t d : Dev nD) : (sched (F := F) m).amount (sendCell c t) 0 d = N := by dsimp only [sched]; rw [ck_send]
theorem amount_recv (s d : Dev nD) : (sched (F := F) m).amount (recvCell c s) 0 d = N := by dsimp only [sched]; rw [ck_recv]

theorem expect_bar : (sched (F := F) m).expect (barCell c) 0 = 7 := by
  unfold Schedule.expect Schedule.amountOf
  rw [duties_bar, Finset.sum_congr rfl fun d _ => amount_bar m c d, Finset.sum_const, Finset.card_erase_of_mem (Finset.mem_univ _), Finset.card_univ, Fintype.card_fin, smul_eq_mul]; rfl
theorem expect_send (t : Dev nD) (h : t ≠ c) : (sched (F := F) m).expect (sendCell c t) 0 = N := by
  unfold Schedule.expect Schedule.amountOf; rw [duties_send m c t h, Finset.sum_singleton, amount_send]
theorem expect_recv (s : Dev nD) (h : s ≠ c) : (sched (F := F) m).expect (recvCell c s) 0 = N := by
  unfold Schedule.expect Schedule.amountOf; rw [duties_recv m c s h, Finset.sum_singleton, amount_recv]

theorem payload_bar (d : Dev nD) : (sched (F := F) m).payload (barCell c) 0 d = barPay d c := rfl
theorem payload_send (t d : Dev nD) : (sched (F := F) m).payload (sendCell c t) 0 d = sendPay c t := by dsimp only [sched]; rw [ck_send]
theorem payload_recv (s d : Dev nD) : (sched (F := F) m).payload (recvCell c s) 0 d = recvPay m c s := by dsimp only [sched]; rw [ck_recv]

theorem rest_send (t : Dev nD) (h : t ≠ c) :
    bigSep ((sched (F := F) m).duties (sendCell c t) 0 \ ∅) (fun d => (sched (F := F) m).payload (sendCell c t) 0 d) = sendPay c t := by
  rw [Finset.sdiff_empty, duties_send m c t h, bigSep_singleton, payload_send]
theorem rest_recv (s : Dev nD) (h : s ≠ c) :
    bigSep ((sched (F := F) m).duties (recvCell c s) 0 \ ∅) (fun d => (sched (F := F) m).payload (recvCell c s) 0 d) = recvPay m c s := by
  rw [Finset.sdiff_empty, duties_recv m c s h, bigSep_singleton, payload_recv]

/-- The peers of c, listed round the ring. -/
theorem erase_eq_map : Finset.univ.erase c = Finset.univ.map ⟨fw c, fw_inj c⟩ := by revert c; decide
theorem erase_eq_map_bk : Finset.univ.erase c = Finset.univ.map ⟨bk c, bk_inj c⟩ := by revert c; decide

theorem bigSep_fin7 {M : Type} [URA M] (Φ : Fin 7 → sProp M) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The whole round of the barrier: every peer's slot, round the ring. -/
theorem rest_bar :
    bigSep ((sched (F := F) m).duties (barCell c) 0 \ ∅) (fun d => (sched (F := F) m).payload (barCell c) 0 d)
      = iprop(barPay (fw c 0) c ∗ barPay (fw c 1) c ∗ barPay (fw c 2) c ∗ barPay (fw c 3) c ∗ barPay (fw c 4) c ∗ barPay (fw c 5) c ∗ barPay (fw c 6) c) := by
  rw [Finset.sdiff_empty, duties_bar, erase_eq_map, bigSep_map, bigSep_fin7]
  rfl

end Tables

end Cert.KernelIdeal.A2A

end
-- ==== Proof.A2AOwes.lean ====
/-
  What each device owes its peers when the kernel starts, the levels that order the waits, and the credit the
  launch deals: a device owes each peer one barrier unit and one landing; it waits on its barrier (level 1) owing
  only landings (level 2), and on its landings owing nothing.
-/
import proofs.«900437_g7700000000000438_dist_gemm_a2a_m2048_k2048_n2048_f32_gelu_v7x_i8_1_alg».proof.Proof.A2ASched

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × URounds (GSem nD τ sig) (Dev nD)) ℕ

/-- The barrier units device d still owes before its k-th signal, and the landings before its k-th copy. -/
def Osig (d : Dev nD) (k : ℕ) : CellTallies nD τ sig Unit :=
  ∑ r ∈ Finset.univ.filter (fun r : Fin 7 => k ≤ r.val), tallyAt (barCell (fw d r)) () 1
def Ocp (d : Dev nD) (k : ℕ) : CellTallies nD τ sig Unit :=
  ∑ r ∈ Finset.univ.filter (fun r : Fin 7 => k ≤ r.val), tallyAt (recvCell (fw d r) d) () N
def O₀ (d : Dev nD) : CellTallies nD τ sig Unit := Ocp d 0 + Osig d 0

theorem filter_step (r : Fin 7) : Finset.univ.filter (fun x : Fin 7 => r.val ≤ x.val)
    = insert r (Finset.univ.filter (fun x : Fin 7 => r.val + 1 ≤ x.val)) := by revert r; decide
theorem not_mem_step (r : Fin 7) : r ∉ Finset.univ.filter (fun x : Fin 7 => r.val + 1 ≤ x.val) := by revert r; decide

theorem Osig_step (d : Dev nD) (r : Fin 7) : Osig d r.val = Osig d (r.val + 1) + tallyAt (barCell (fw d r)) () 1 := by
  unfold Osig; rw [filter_step, Finset.sum_insert (not_mem_step r), add_comm]
theorem Ocp_step (d : Dev nD) (r : Fin 7) : Ocp d r.val = Ocp d (r.val + 1) + tallyAt (recvCell (fw d r) d) () N := by
  unfold Ocp; rw [filter_step, Finset.sum_insert (not_mem_step r), add_comm]
theorem Osig_seven (d : Dev nD) : Osig d 7 = 0 := by
  unfold Osig; rw [show Finset.univ.filter (fun x : Fin 7 => 7 ≤ x.val) = ∅ by decide, Finset.sum_empty]
theorem Ocp_seven (d : Dev nD) : Ocp d 7 = 0 := by
  unfold Ocp; rw [show Finset.univ.filter (fun x : Fin 7 => 7 ≤ x.val) = ∅ by decide, Finset.sum_empty]

theorem Osig_pos {d : Dev nD} {k : ℕ} {g : GSem nD τ sig} {u : Unit} (h : 0 < Osig d k g u) : ∃ r, g = barCell (fw d r) := by
  obtain ⟨r, _, hr⟩ := Pipeline.sum_pos_exists h; exact ⟨r, (Pipeline.tallyAt_pos hr).1⟩
theorem Ocp_pos {d : Dev nD} {k : ℕ} {g : GSem nD τ sig} {u : Unit} (h : 0 < Ocp d k g u) : ∃ r, g = recvCell (fw d r) d := by
  obtain ⟨r, _, hr⟩ := Pipeline.sum_pos_exists h; exact ⟨r, (Pipeline.tallyAt_pos hr).1⟩

/-! ## Levels -/

def L (g : GSem nD τ sig) : Finset Unit := if g.1.2 = .tc then {()} else ∅
/-- Barrier cells at 1, receive cells at 2, everything else (staging, send) at 0. -/
def lv (g : GSem nD τ sig) (_ : Unit) : ℕ := match ck g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c s : Dev nD) (u : Unit) : lv (recvCell c s) u = 2 := by unfold lv; rw [ck_recv]

/-- A wait at level below everything owed. -/
theorem mayWait_below (c : Dev nD) (sm : SemLoc sig) (O : CellTallies nD τ sig Unit)
    (hO : ∀ g u, 0 < O g u → g.1.2 = .tc ∧ lv ((c : Thread nD τ), sm) () < lv g u) :
    (levAts L lv : sProp 𝕄) ⊢ MayWait (c : Thread nD τ) sm () O :=
  Pipeline.mayWait_of_levAts (by rw [L_tc]; exact Finset.mem_singleton_self _)
    (fun g i h => ⟨by cases i; unfold L; rw [if_pos (hO g () h).1]; exact Finset.mem_singleton_self _, by cases i; exact (hO g () h).2⟩)

theorem O₀_pos {c : Dev nD} {g : GSem nD τ sig} {u : Unit} (h : 0 < O₀ c g u) : g.1.2 = .tc ∧ 1 ≤ lv g u := by
  rcases Pipeline.add_pos_cases h with h | h
  · obtain ⟨r, rfl⟩ := Ocp_pos h; exact ⟨rfl, by rw [lv_recv]; decide⟩
  · obtain ⟨r, rfl⟩ := Osig_pos h; exact ⟨rfl, by rw [lv_bar]⟩

/-- The pipeline's own staging waits: level 0, below all a device ever owes. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · exact mayWait_below c _ _ fun g u h => ⟨(O₀_pos h).1, by rw [hq]; exact (O₀_pos h).2⟩
  · rw [MayWait_zero]; iintro -; iempintro

/-- At its barrier wait a device owes landings only: receive cells, above its barrier cell. -/
theorem mayWait_bar (c : Dev nD) :
    (levAts L lv : sProp 𝕄) ⊢ MayWait (c : Thread nD τ) (.reg barS) () (Ocp c 0 + Osig c 7) :=
  mayWait_below c _ _ fun g u h => by
    rw [Osig_seven, add_zero] at h
    obtain ⟨r, rfl⟩ := Ocp_pos h
    exact ⟨rfl, by rw [lv_recv]; show (1 : ℕ) < 2; decide⟩

/-! ## The launch credit -/

def fwE (r : Fin 7) : Dev nD ≃ Dev nD := ⟨fun d => fw d r, fun c => bk c r, fun d => bk_fw d r, fun c => fw_bk c r⟩

/-- What the devices owe device c's cells, all told: seven barrier units, and a landing on each receive cell. -/
def T₀ (c : Dev nD) : CellTallies nD τ sig Unit :=
  (∑ r : Fin 7, tallyAt (recvCell c (bk c r)) () N) + ∑ r : Fin 7, tallyAt (barCell c) () 1

theorem O₀_eq (d : Dev nD) : O₀ d = (∑ r : Fin 7, tallyAt (recvCell (fw d r) d) () N) + ∑ r : Fin 7, tallyAt (barCell (fw d r)) () 1 := by
  unfold O₀ Ocp Osig
  rw [show Finset.univ.filter (fun x : Fin 7 => 0 ≤ x.val) = Finset.univ by decide]

theorem sum_recv (r : Fin 7) :
    (∑ d : Dev nD, (tallyAt (recvCell (fw d r) d) () N : CellTallies nD τ sig Unit)) = ∑ c : Dev nD, tallyAt (recvCell c (bk c r)) () N := by
  rw [← Equiv.sum_comp (fwE r) (fun c : Dev nD => (tallyAt (recvCell c (bk c r)) () N : CellTallies nD τ sig Unit))]
  refine Finset.sum_congr rfl fun d _ => ?_
  show _ = tallyAt (recvCell (fw d r) (bk (fw d r) r)) () N
  rw [bk_fw]
theorem sum_bar (r : Fin 7) :
    (∑ d : Dev nD, (tallyAt (barCell (fw d r)) () 1 : CellTallies nD τ sig Unit)) = ∑ c : Dev nD, tallyAt (barCell c) () 1 :=
  Equiv.sum_comp (fwE r) (fun c : Dev nD => (tallyAt (barCell c) () 1 : CellTallies nD τ sig Unit))

theorem sum_O₀ : (∑ d, O₀ d) = ∑ d, T₀ d := by
  have h1 : (∑ d : Dev nD, O₀ d) = (∑ d : Dev nD, ∑ r : Fin 7, (tallyAt (recvCell (fw d r) d) () N : CellTallies nD τ sig Unit))
      + ∑ d : Dev nD, ∑ r : Fin 7, (tallyAt (barCell (fw d r)) () 1 : CellTallies nD τ sig Unit) := by
    rw [← Finset.sum_add_distrib]; exact Finset.sum_congr rfl fun d _ => O₀_eq d
  have h2 : (∑ d : Dev nD, T₀ d) = (∑ d : Dev nD, ∑ r : Fin 7, (tallyAt (recvCell d (bk d r)) () N : CellTallies nD τ sig Unit))
      + ∑ d : Dev nD, ∑ r : Fin 7, (tallyAt (barCell d) () 1 : CellTallies nD τ sig Unit) := by
    rw [← Finset.sum_add_distrib]; rfl
  rw [h1, h2, Finset.sum_comm, Finset.sum_comm (s := (Finset.univ : Finset (Dev nD))) (t := (Finset.univ : Finset (Fin 7))) (f := fun d r => (tallyAt (barCell (fw d r)) () 1 : CellTallies nD τ sig Unit)),
    Finset.sum_congr rfl fun r _ => sum_recv r, Finset.sum_congr rfl fun r _ => sum_bar r, Finset.sum_comm,
    Finset.sum_comm (s := (Finset.univ : Finset (Fin 7))) (t := (Finset.univ : Finset (Dev nD))) (f := fun r d => (tallyAt (barCell d) () 1 : CellTallies nD τ sig Unit))]

theorem seven_units (g : GSem nD τ sig) : (∑ r : Fin 7, (tallyAt g () 1 : CellTallies nD τ sig Unit)) = tallyAt g () 7 := by
  funext g'
  ext
  rw [Finset.sum_apply, Finsupp.finsetSum_apply]
  simp only [tallyAt_apply, Finset.sum_const, Finset.card_univ, Fintype.card_fin, smul_eq_mul]
  split <;> simp

theorem creds (c : Dev nD) :
    (Pipeline.launchCred O₀ c : sProp 𝕄)
      ⊢ iprop(cred (tallyAt (barCell c) () 7) ∗ bigSep Finset.univ fun r : Fin 7 => cred (tallyAt (recvCell c (bk c r)) () N)) := by
  rw [Pipeline.launchCred_of_sum O₀ T₀ sum_O₀ (fun d g hg => ?_) c]
  · unfold T₀
    rw [seven_units, ← Pipeline.cred_finsetSum]
    iintro H
    ihave H' := (cred_add _ _).1 $$ H
    icases H' with ⟨H1, H2⟩
    isplitl [H2] <;> iassumption
  · by_contra hne
    apply hg
    unfold T₀
    rw [Pi.add_apply, Finset.sum_apply, Finset.sum_apply,
      Finset.sum_eq_zero fun r _ => tallyAt_ne_cell (fun h => hne (by rw [h])) () N,
      Finset.sum_eq_zero fun r _ => tallyAt_ne_cell (fun h => hne (by rw [h])) () 1, add_zero]

end Cert.KernelIdeal.A2A

end
-- ==== Proof.A2AGhost.lean ====
/-
  The proof data of the all-to-all: which invariants and tokens a device runs its kernel with, what it holds when the
  body starts and ends, and what the body leaves in its result: row block s of device c's result is the activation
  of the chunk device s made for c.
-/
import proofs.«900437_g7700000000000438_dist_gemm_a2a_m2048_k2048_n2048_f32_gelu_v7x_i8_1_alg».proof.Proof.A2AOwes

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The cells, indexed: a device's sixteen own (scoped) cells — send t, receive s — and, with the barrier, all
    seventeen. -/

abbrev KO : Type := Bool × Dev nD
abbrev osem : KO → SemLoc sig := fun | (false, t) => .dma (sendS t) | (true, s) => .dma (recvS s)
abbrev KC : Type := Option KO
abbrev csem : KC → SemLoc sig := fun | none => .reg barS | some k => osem k
abbrev kcell (ck : Dev nD × KC) : GSem nD τ sig := ((ck.1 : Thread nD τ), csem ck.2)

/-- Every cell's invariant, at the names K the launch allocated them at, and that round 0 of each is reached. -/
def records (K : Dev nD × KC → ℕ) : sProp 𝕄 :=
  iprop((bigSep Finset.univ fun ck : Dev nD × KC => cellInv ER (sched m) (K ck) (kcell ck))
    ∗ bigSep Finset.univ fun ck : Dev nD × KC => reached ER (kcell ck) 0)

instance records_persistent (K : Dev nD × KC → ℕ) : BI.Persistent (records (F := F) m K) := by unfold records; infer_instance

/-- The tokens of the duties device c pays: to each peer its barrier unit and its landing, and its own departures. -/
def payToks (c : Dev nD) : sProp 𝕄 :=
  bigSep Finset.univ fun r : Fin 7 =>
    iprop(dutyTok ER (barCell (fw c r)) 0 c ∗ dutyTok ER (recvCell (fw c r) c) 0 c ∗ dutyTok ER (sendCell c (fw c r)) 0 c)

/-- What stays with device c alone: its position at round 0 of each of its cells, and the tokens it pays with. -/
def linear (c : Dev nD) : sProp 𝕄 :=
  iprop((bigSep Finset.univ fun k : KC => atPos ER (kcell (c, k)) 0 ∅ 0) ∗ payToks (F := F) c)

def ghost (K : Dev nD × KC → ℕ) (c : Dev nD) : sProp 𝕄 := iprop(records m K ∗ linear (F := F) c)

/-- What device c's body starts from beside its buffers: the ghost state at some names, the credit of its barrier's
    seven units and of a landing on each receive cell, and the level facts. -/
def start (c : Dev nD) : sProp 𝕄 :=
  iprop((∃ K, ghost m K c) ∗ cred (tallyAt (barCell c) () 7)
    ∗ (bigSep Finset.univ fun r : Fin 7 => cred (tallyAt (recvCell c (bk c r)) () N)) ∗ levAts L lv)

def yWhole (c : Dev nD) (f : Buf (Elt F) ((c : Thread nD τ).loc cc0_scratch0)) : sProp 𝕄 := ((c : Thread nD τ).loc cc0_scratch0) ↦{fullShare} f
def rWhole (c : Dev nD) (f : Buf (Elt F) ((c : Thread nD τ).loc cc0_scratch1)) : sProp 𝕄 := ((c : Thread nD τ).loc cc0_scratch1) ↦{fullShare} f

def Φ₀ (c : Dev nD) : sProp 𝕄 := iprop(start m c ∗ (∃ f, yWhole (F := F) c f) ∗ (∃ f, rWhole (F := F) c f))
/-- After the point: both scratch buffers whole again, the sixteen own cells at zero, closed. -/
def Φ₁ (c : Dev nD) : sProp 𝕄 :=
  iprop((∃ f, yWhole (F := F) c f) ∗ (∃ f, rWhole (F := F) c f) ∗ bigSep Finset.univ fun k : KO => semVal (kcell (c, some k)) 0)

/-! ## The result -/

/-- The activation of a chunk. -/
def gelu (v : Vec F S1x256x256 .bf16) : FVec F S256x256 .f32 := k0_pay11 v

/-- The row block an index of the result lies in, and its place inside the block. -/
def blkOf (i : S2048x256.Idx) : Dev nD :=
  ⟨(i 0).val / 256, by have h : (i 0).val < 2048 := (i 0).isLt; show (i 0).val / 256 < 8; omega⟩
def locOf (i : S2048x256.Idx) : S256x256.Idx := fun a => match a with
  | ⟨0, _⟩ => ⟨(i 0).val % 256, Nat.mod_lt _ (by decide)⟩
  | ⟨1, _⟩ => ⟨(i 1).val, (i 1).isLt⟩

/-- Device c's result: row block s holds the activation of the chunk device s made for c. -/
def outAt (c : Dev nD) : (cc0_stg2_0 : Ref sig .tc).ty.Contents (Elt F) :=
  fun (i : S2048x256.Idx) => gelu (chunkOf m (blkOf i) c) (locOf i)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelIdeal.A2A

end
-- ==== Proof.A2ALaunch.lean ====
import proofs.«900437_g7700000000000438_dist_gemm_a2a_m2048_k2048_n2048_f32_gelu_v7x_i8_1_alg».proof.Proof.A2AGhost

/-! The launch of the all-to-all: the element of the resource algebra the run starts from and how it
    is dealt; every cell's invariant allocated under one update for all devices; what each device's
    body starts from and what it hands back; and the run of @main from the body's obligation. -/

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m 0 c).share w = fullShare := by unfold Dat.share; split <;> rfl

/-! ### The cells and the duty tokens of the launch element -/

theorem csem_injective : Function.Injective (csem : KC → SemLoc sig) := by decide

theorem kcell_injective : Function.Injective (kcell : Dev nD × KC → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- Every device's seventeen cells. -/
def ringCells : Finset (GSem nD τ sig) := Finset.univ.map ⟨kcell, kcell_injective⟩

/-- The cells device p pays at offset r round the ring: peer fw p r's barrier, that peer's receive cell for
    p, and p's own send cell for that peer. -/
def tokCell (p : Dev nD) (r : Fin 7) : Fin 3 → GSem nD τ sig
  | 0 => barCell (fw p r) | 1 => recvCell (fw p r) p | 2 => sendCell p (fw p r)

/-- What tells those cells apart: the kind of semaphore and the device. -/
def tokCode (p : Dev nD) (r : Fin 7) : Fin 3 → CK × Dev nD
  | 0 => (.bar, fw p r) | 1 => (.recv p, fw p r) | 2 => (.send (fw p r), p)

theorem tokCode_eq (p : Dev nD) (r : Fin 7) (j : Fin 3) : (ck (tokCell p r j).2, (tokCell p r j).1.1) = tokCode p r j := by
  match j with
  | 0 => rfl
  | 1 => show (ck (.dma (recvS p)), fw p r) = _; rw [ck_recv]; rfl
  | 2 => show (ck (.dma (sendS (fw p r))), p) = _; rw [ck_send]; rfl

theorem tokCode_inj : ∀ (p : Dev nD) (r r' : Fin 7) (j j' : Fin 3), tokCode p r j = tokCode p r' j' → r = r' ∧ j = j' := by decide

/-- The duty tokens as minted, by payer: device p's three at each offset. Every duty's name is its payer. -/
abbrev tokOf (x : Dev nD × Fin 7 × Fin 3) : GSem nD τ sig × ℕ × Dev nD := (tokCell x.1 x.2.1 x.2.2, 0, x.1)

theorem tokOf_injective : Function.Injective (tokOf : Dev nD × Fin 7 × Fin 3 → GSem nD τ sig × ℕ × Dev nD) := by
  rintro ⟨p, r, j⟩ ⟨p', r', j'⟩ h
  have hp : p = p' := congrArg (fun x : GSem nD τ sig × ℕ × Dev nD => x.2.2) h
  subst hp
  have hc : tokCell p r j = tokCell p r' j' := congrArg (fun x : GSem nD τ sig × ℕ × Dev nD => x.1) h
  have hcode : tokCode p r j = tokCode p r' j' := by rw [← tokCode_eq, ← tokCode_eq, hc]
  obtain ⟨h1, h2⟩ := tokCode_inj p r r' j j' hcode
  subst h1; subst h2; rfl

def ringToks : Finset (GSem nD τ sig × ℕ × Dev nD) := Finset.univ.map ⟨tokOf, tokOf_injective⟩

def u₀ : UU :=
  (initOf (Pipeline.cells cfgs cellOf_inj) (Pipeline.launchToks cfgs cellOf_inj), initOf ringCells ringToks)

/-- What the launch element deals device c (the theorem's G): the round state, position and reached-mark of
    each of its seventeen cells, and the tokens it pays with. -/
def G (c : Dev nD) : sProp 𝕄 :=
  iprop((bigSep Finset.univ fun k : KC => roundState ER (sched m) (kcell (c, k)) 0)
    ∗ (bigSep Finset.univ fun k : KC => iprop(atPos ER (kcell (c, k)) 0 ∅ 0 ∗ reached ER (kcell (c, k)) 0)) ∗ payToks (F := F) c)

/-- What the global step makes of it (G'). -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : KC => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => payToks c := by
    unfold ringToks; rw [bigSep_map, bigSep_univ_prod]
    exact bigSep_congr fun c _ => by
      unfold payToks; rw [bigSep_univ_prod]
      exact bigSep_congr fun r _ => by rw [bigSep_fin3]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### Every cell's invariant, allocated for all devices under one update -/

/-- A device's sixteen own cells, listed. -/
def koList : List KO :=
  [(false, 0), (false, 1), (false, 2), (false, 3), (false, 4), (false, 5), (false, 6), (false, 7),
   (true, 0), (true, 1), (true, 2), (true, 3), (true, 4), (true, 5), (true, 6), (true, 7)]

omit [FloatOps F] in
/-- All seventeen: the barrier, then the sixteen own. -/
theorem bigSep_KC (Φ : KC → sProp 𝕄) : bigSep Finset.univ Φ = iprop(Φ none ∗ bigSep Finset.univ fun k : KO => Φ (some k)) := by
  rw [bigSep_univ_eq_bigSepL (none :: koList.map some) (by decide) (by decide) Φ,
    bigSep_univ_eq_bigSepL koList (by decide) (by decide) fun k : KO => Φ (some k)]
  rfl

omit [FloatOps F] in
/-- The send and receive semaphores are the kernel's own sixteen; -/
theorem ownSems0_eq (c : Dev nD) : (Pipeline.ownSems0 (Ix := Unit) (Name := ℕ) (U := UU) (Lvl := ℕ) (Val := Elt F) (τ := τ) osem c : sProp 𝕄)
    = bigSep Finset.univ fun k : KO => semVal (kcell (c, some k)) 0 := rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : KC => semVal (kcell (c, k)) 0 : sProp 𝕄) := by
  rw [ownSems0_eq, unscopedSems0_eq, bigSep_KC]
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : KC => iprop(∃ κ : ℕ, cellInv ER (sched m) κ (kcell (c, k))))
          ∗ (bigSep Finset.univ fun k : KC => iprop(atPos ER (kcell (c, k)) 0 ∅ 0 ∗ reached ER (kcell (c, k)) 0)) ∗ payToks (F := F) c) := by
  unfold G
  iintro ⟨Hos, Hus, Hst, Hat, Htok⟩
  ihave Hv := (sems0_eq (F := F) c) $$ [Hos Hus]
  · isplitl [Hos] <;> iassumption
  imod (show iprop((bigSep Finset.univ fun k : KC => semVal (kcell (c, k)) 0) ∗ bigSep Finset.univ fun k : KC => roundState ER (sched m) (kcell (c, k)) 0)
      ⊢ (|={Set.univ}=> bigSep Finset.univ fun k : KC => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × KC → ℕ) (c : Dev nD) : iprop(records m K ∗ linear (F := F) c) ⊢ G' m c := by
  unfold G' ghost
  iintro H
  iexists K
  iexact H

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : KC => iprop(∃ κ : ℕ, cellInv ER (sched m) κ (kcell (c, k))))
          ∗ (bigSep Finset.univ fun k : KC => iprop(atPos ER (kcell (c, k)) 0 ∅ 0 ∗ reached ER (kcell (c, k)) 0)) ∗ payToks (F := F) c) : sProp 𝕄)
      ⊢ bigSep Finset.univ (G' m) := by
  rw [bigSep_sep', bigSep_sep', ← bigSep_univ_prod (fun ck : Dev nD × KC => iprop(∃ κ : ℕ, cellInv ER (sched m) κ (kcell ck))),
    bigSep_congr (s := Finset.univ) (fun (c : Dev nD) _ => bigSep_sep' Finset.univ (fun k : KC => (atPos ER (kcell (c, k)) 0 ∅ 0 : sProp 𝕄)) (fun k => reached ER (kcell (c, k)) 0)),
    bigSep_sep', ← bigSep_univ_prod (fun ck : Dev nD × KC => (reached ER (kcell ck) 0 : sProp 𝕄))]
  iintro ⟨HI, ⟨Hat, #HR⟩, Htok⟩
  ihave HK := (BI.bigSep_exists_pi Finset.univ (fun (ck : Dev nD × KC) (κ : ℕ) => (cellInv ER (sched m) κ (kcell ck) : sProp 𝕄))) $$ HI
  icases HK with ⟨%K, #HI⟩
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : KC => (atPos ER (kcell (c, k)) 0 ∅ 0 : sProp 𝕄)) (payToks (F := F))).symm).trans
      (bigSep_mono fun c _ => show _ ⊢ linear c from Entails.of_eq (by unfold linear; rfl)))
    isplitl [Hat]; · iexact Hat
    iexact Htok

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ yWhole rWhole
  iintro ⟨Hs, -, ⟨%f, Hy⟩, ⟨%g, Hr⟩⟩
  isplitl [Hs]; · iexact Hs
  isplitl [Hy]
  · iexists f; iexact Hy
  · iexists g; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ (F := F) c from rfl, scopedRest0_eq, ownSems0_eq]
  unfold Φ₁ yWhole rWhole
  iintro ⟨Hy, Hr, Hz⟩
  isplitr; · iempintro
  isplitl [Hz]; · iexact Hz
  isplitl [Hy]; · iexact Hy
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> first | rfl | decide) _ (by
      rcases t with ⟨_ | _, ht⟩
      · exact Or.inl rfl
      · exact Or.inr rfl)

/-! ### The run -/

set_option maxRecDepth 8000 in
/-- At the compiled mesh of eight devices, for any float values, from any memory with zero counters: if each
    device's body meets its obligation, every weakly fair execution of @main terminates, and every final state has
    each windowed array of each device at what the proof data name for it after the last point. -/
theorem run_main (hbody : ∀ c, BodyObligation (dats (F := F) m 0 c) (defs₀ (F := F)) 𝒱₀ () Set.univ) :
    θ_run defs (onTc (τ := τ) (main (F := F))) ⟨m, fun _ => 0, ρ⟩
      (fun r => ∀ c : Dev nD, ∀ w : Fin cfg0.W, r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-! ### The arrays after the run -/

/-- The two input arrays hold what they held. -/
theorem final_x (c : Dev nD) : (dats m 0 c).arrAt 0 cfg0.N = m ((c : Thread nD τ).loc main_arg0) :=
  (dats (F := F) m 0 c).arrAt_in (0 : Fin 3) rfl _
theorem final_w (c : Dev nD) : (dats m 0 c).arrAt 1 cfg0.N = m ((c : Thread nD τ).loc main_arg1) :=
  (dats (F := F) m 0 c).arrAt_in (1 : Fin 3) rfl _

/-- The result window's one block is the whole array: read through it, contents are themselves. -/
theorem read_out_block (f : (main_v1 : Ref sig .tc).ty.Contents (Elt F)) :
    ((cfg0.win 2).blk t0_0).view.read (Elt F) f = f := by
  have hz' : (fun a => win0_2.index t0_0 a * (main_v1 : Ref sig .tc).ty.shape.size a) = fun _ => 0 :=
    funext fun a => by fin_cases a <;> decide
  exact Memref.read_access_unit_zero (Elt F) main_v1 hz' (fun a => by rw [congrFun hz' a]; simp) f

/-- The one point writes its block back, and the block is the array: the result array ends at what the body
    left in the staging buffer. -/
theorem final_out (c : Dev nD) : (dats m 0 c).arrAt 2 cfg0.N = outAt m c := by
  show (dats m 0 c).arrAt 2 ((t0_0 : Fin cfg0.N).val + 1) = _
  rw [(dats m 0 c).arrAt_succ 2 t0_0, if_pos (flush0_2 t0_0)]
  refine (read_out_block _).symm.trans ?_
  rw [View.read_write_univ]
  rfl

end Cert.KernelIdeal.A2A

end
-- ==== Proof.A2ARun.lean ====
import proofs.«900437_g7700000000000438_dist_gemm_a2a_m2048_k2048_n2048_f32_gelu_v7x_i8_1_alg».proof.Proof.A2ALaunch

/-! The run of @main read at the three arrays: if every device's body meets its obligation, the kernel
    terminates with every device's result array at `outAt` — row block `s` the activation of the chunk device
    `s` made for it — and both argument arrays unchanged. -/

noncomputable section

namespace Cert.KernelIdeal.A2A

open Cert.KernelIdeal Cert.KernelIdeal.Gen
open Idealize.ShloMosaic
open Idealize.ShloMosaic.TcCoe
open Idealize.SL.Sem
open Idealize.ShloMosaic.Pipeline (Dat Cfg Window BodyObligation cellOf)

variable {F : FTy → Type} [FloatOps F]

theorem kernel_run (hbody : ∀ (m : (ℓ : Loc nD τ sig) → Buf (Elt F) ℓ) (c : Dev nD), BodyObligation (dats (F := F) m 0 c) (defs₀ (F := F)) 𝒱₀ () Set.univ)
    (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono
    (fun _ h c => ⟨((h c) 2).trans (final_out m c), ((h c) 0).trans (final_x m c), ((h c) 1).trans (final_w m c)⟩)
    (run_main m ρ (hbody m))

end Cert.KernelIdeal.A2A

end
-- ==== Proof.Chunks.lean ====
import proofs.«900437_g7700000000000438_dist_gemm_a2a_m2048_k2048_n2048_f32_gelu_v7x_i8_1_alg».proof.Proof.Gen.KernelIdeal.Skeleton

/-! The values one device computes, named by what they are: the eight column chunks of its
    row-block product as it stores them for the exchange, and the activation it applies to a
    chunk once loaded. Each of the body's eight activation payloads is the same function of the
    chunk it is given. -/

noncomputable section

namespace Cert.A2A

open Cert.KernelIdeal Cert.KernelIdeal.Gen Idealize.ShloMosaic

variable {F : FTy → Type} [FloatOps F]

/-- Chunk `c` (columns `[256 c, 256 c + 256)`) of the product of a row block `x` with the whole
    right factor `w`, in the stored form: narrowed to bf16 and given a leading unit axis. -/
def ychunk (x : Vec F S256x2048 .f32) (w : Vec F S2048x2048 .f32) : Fin 8 → FVec F S1x256x256 .bf16
  | 0 => k0_pay2 x w
  | 1 => k0_pay3 x w
  | 2 => k0_pay4 x w
  | 3 => k0_pay6 (k0_pay5 x w)
  | 4 => k0_pay7 (k0_pay1 x w)
  | 5 => k0_pay8 (k0_pay1 x w)
  | 6 => k0_pay9 (k0_pay1 x w)
  | 7 => k0_pay10 (k0_pay1 x w)

theorem ychunk_0 (x : Vec F S256x2048 .f32) (w : Vec F S2048x2048 .f32) : ychunk x w 0 = k0_pay2 x w := rfl
theorem ychunk_1 (x : Vec F S256x2048 .f32) (w : Vec F S2048x2048 .f32) : ychunk x w 1 = k0_pay3 x w := rfl
theorem ychunk_2 (x : Vec F S256x2048 .f32) (w : Vec F S2048x2048 .f32) : ychunk x w 2 = k0_pay4 x w := rfl
theorem ychunk_3 (x : Vec F S256x2048 .f32) (w : Vec F S2048x2048 .f32) : ychunk x w 3 = k0_pay6 (k0_pay5 x w) := rfl
theorem ychunk_4 (x : Vec F S256x2048 .f32) (w : Vec F S2048x2048 .f32) : ychunk x w 4 = k0_pay7 (k0_pay1 x w) := rfl
theorem ychunk_5 (x : Vec F S256x2048 .f32) (w : Vec F S2048x2048 .f32) : ychunk x w 5 = k0_pay8 (k0_pay1 x w) := rfl
theorem ychunk_6 (x : Vec F S256x2048 .f32) (w : Vec F S2048x2048 .f32) : ychunk x w 6 = k0_pay9 (k0_pay1 x w) := rfl
theorem ychunk_7 (x : Vec F S256x2048 .f32) (w : Vec F S2048x2048 .f32) : ychunk x w 7 = k0_pay10 (k0_pay1 x w) := rfl

/-- The activation of a loaded chunk: `0.5 y (1 + tanh (c (y + k y y y)))` elementwise, on the
    chunk widened back to f32 with its unit axis dropped. -/
abbrev gelu (v : Vec F S1x256x256 .bf16) : FVec F S256x256 .f32 := k0_pay11 v

theorem pay12_eq (v : Vec F S1x256x256 .bf16) : k0_pay12 v = gelu v := rfl
theorem pay16_eq (v : Vec F S1x256x256 .bf16) :
    k0_pay16 (k0_pay13 v) (k0_pay14 v) (k0_pay15 (F := F)) = gelu v := rfl
theorem pay21_eq (v : Vec F S1x256x256 .bf16) :
    k0_pay21 (k0_pay18 v) (k0_pay19 v) (k0_pay20 (F := F)) = gelu v := rfl
theorem pay22_eq (v : Vec F S1x256x256 .bf16) : k0_pay22 v = gelu v := rfl
theorem pay23_eq (v : Vec F S1x256x256 .bf16) : k0_pay23 v = gelu v := rfl
theorem pay24_eq (v : Vec F S1x256x256 .bf16) : k0_pay24 v = gelu v := rfl
theorem pay25_eq (v : Vec F S1x256x256 .bf16) : k0_pay25 v = gelu v := rfl

end Cert.A2A

end
-- ==== Proof.Spec.lean ====
import Idealize.ShloMosaic.PureOps.Ideal.Laws
import Idealize.ShloMosaic.Lib.ValueIdx

/-! The specification: the activation of a matrix product, element by element, on the extended
    reals. `act` is the activation with the cube written `(y y) y` and the small constant
    multiplied in last; `actK` is the same with the constant multiplied in first,
    `((k y) y) y`. The two agree by associativity of the product, with no finiteness needed. The
    four constants are the extended reals their f32 words denote, the same words in both. -/

noncomputable section

open scoped BigOperators

namespace Cert.A2A

open Idealize.ShloMosaic Idealize.ShloMosaic.ValueIdx

/-- The contents of a 2048 by 2048 array. -/
abbrev Mat : Type := (⟨2, ![2048, 2048]⟩ : Shape).Idx → EReal

/-- `0.5`. -/
def cHalf : EReal := Ideal.ofBits .f32 0x3F000000#32
/-- `0.044715`. -/
def cCube : EReal := Ideal.ofBits .f32 0x3D372713#32
/-- `0.7978845608`, the square root of `2 / π`. -/
def cTanh : EReal := Ideal.ofBits .f32 0x3F4C422A#32
/-- `1`. -/
def cOne : EReal := Ideal.ofBits .f32 0x3F800000#32

/-- The activation, `0.5 y (1 + tanh (c (y + k ((y y) y))))`. -/
def act (y : EReal) : EReal :=
  (cHalf * y) * (cOne + Ideal.tanh (cTanh * (y + cCube * ((y * y) * y))))

/-- The same with the cubic term accumulated from the constant: `((k y) y) y`. -/
def actK (y : EReal) : EReal :=
  (cHalf * y) * (cOne + Ideal.tanh (cTanh * (y + ((cCube * y) * y) * y)))

/-- The two orders of the cubic term agree: the product of extended reals is associative. -/
theorem actK_eq (y : EReal) : actK y = act y := by
  unfold actK act
  rw [mul_assoc cCube y y, mul_assoc cCube (y * y) y]

/-- Entry `(r, j)` of the product `X W`: the sum over `k` of `X (r, k) W (k, j)`. -/
def dot (X W : Mat) (r j : Fin 2048) : EReal := ∑ k : Fin 2048, X (ix2 r k) * W (ix2 k j)

/-- The result: the activation of the product, at every index. -/
def G (X W : Mat) : Mat := fun i =>
  act (dot X W ⟨(i 0).val, (i 0).isLt⟩ ⟨(i 1).val, (i 1).isLt⟩)

theorem G_apply (X W : Mat) (i : (⟨2, ![2048, 2048]⟩ : Shape).Idx) (r j : Fin 2048)
    (hr : (i 0).val = r.val) (hj : (i 1).val = j.val) : G X W i = act (dot X W r j) := by
  unfold G
  congr 2 <;> exact Fin.ext (by assumption)

end Cert.A2A

end
-- ==== Proof.KernelSide.lean ====
import proofs.«900437_g7700000000000438_dist_gemm_a2a_m2048_k2048_n2048_f32_gelu_v7x_i8_1_alg».proof.Proof.Chunks
import proofs.«900437_g7700000000000438_dist_gemm_a2a_m2048_k2048_n2048_f32_gelu_v7x_i8_1_alg».proof.Proof.Spec
import Idealize.ShloMosaic.Lib.Pipeline.Value
import Idealize.ShloMosaic.Lib.ValueLayout
import Idealize.ShloMosaic.PureOps.Ideal.Laws

/-! The device's values on the extended reals, read at an index: the product of a row block
    with the right factor is the sum over the contracted axis; stored chunk `c` at `(0, p, q)`
    is the product at `(p, 256 c + q)` (narrowing to bf16 and widening back change nothing
    here); and the activation of a loaded chunk at `(p, q)` is `actK` of the chunk at
    `(0, p, q)`. -/

noncomputable section

open scoped BigOperators

namespace Cert.A2A

open Cert.KernelIdeal Cert.KernelIdeal.Gen Idealize.ShloMosaic Idealize.ShloMosaic.ValueIdx

/-- The activation payload at `(p, q)`: pointwise in the loaded chunk, whose leading unit
    axis is dropped. -/
theorem gelu_ix (v : FVec Ideal S1x256x256 .bf16) (p q : Fin 256) :
    gelu (F := Ideal) v (ix2 p q) = actK (v (ix3 (0 : Fin 1) p q)) := by
  have e : shapeCast S256x256 v shapeCasts_S1x256x256_S256x256 (ix2 p q) = v (ix3 (0 : Fin 1) p q) :=
    shapeCast_1ab_ab_apply v shapeCasts_S1x256x256_S256x256 p q
  rw [← e]
  rfl

/-- The row coordinate of the left operand's index at output index `i` is `i`'s row. -/
theorem dot_lhs_row (i : S256x2048.Idx) (q : dot_S256x2048_S2048x2048_S256x2048_1_0_0_1_n_n.contr.Idx) :
    (dot_S256x2048_S2048x2048_S256x2048_1_0_0_1_n_n.lhsIdx i q 0).val = (i 0).val := by
  unfold DotDims.lhsIdx
  rw [dif_neg (show ¬(0 : Fin S256x2048.rank) ∈ dot_S256x2048_S2048x2048_S256x2048_1_0_0_1_n_n.lhsBatch by decide),
    dif_pos (show (0 : Fin S256x2048.rank) ∈ dot_S256x2048_S2048x2048_S256x2048_1_0_0_1_n_n.lhsNonContracting by decide)]
  rfl

/-- The column coordinate of the right operand's index at output index `i` is `i`'s column. -/
theorem dot_rhs_col (i : S256x2048.Idx) (q : dot_S256x2048_S2048x2048_S256x2048_1_0_0_1_n_n.contr.Idx) :
    (dot_S256x2048_S2048x2048_S256x2048_1_0_0_1_n_n.rhsIdx i q 1).val = (i 1).val := by
  unfold DotDims.rhsIdx
  rw [dif_neg (show ¬(1 : Fin S2048x2048.rank) ∈ dot_S256x2048_S2048x2048_S256x2048_1_0_0_1_n_n.rhsBatch by decide),
    dif_pos (show (1 : Fin S2048x2048.rank) ∈ dot_S256x2048_S2048x2048_S256x2048_1_0_0_1_n_n.rhsNonContracting by decide)]
  rfl

/-- The product payload at `(p, j)`: the sum over the contracted axis. -/
theorem pay1_ix (x : FVec Ideal S256x2048 .f32) (w : FVec Ideal S2048x2048 .f32) (p : Fin 256) (j : Fin 2048) :
    k0_pay1 (F := Ideal) x w (ix2 p j) = ∑ k : Fin 2048, x (ix2 p k) * w (ix2 k j) := by
  show FloatOps.matmul dot_S256x2048_S2048x2048_S256x2048_1_0_0_1_n_n none
      (shapeCast S256x2048 x shapeCasts_S256x2048_S256x2048) (shapeCast S2048x2048 w shapeCasts_S2048x2048_S2048x2048)
      (constant S256x2048 .f32 0x00000000#32) (ix2 p j) = _
  rw [shapeCast_self, shapeCast_self, Ideal.matmul_constant_zero_apply,
    ← Equiv.sum_comp (contrEquiv1 dot_S256x2048_S2048x2048_S256x2048_1_0_0_1_n_n 2048 rfl rfl).symm]
  refine Finset.sum_congr rfl fun k _ => ?_
  have hk := contrEquiv1_symm_val dot_S256x2048_S2048x2048_S256x2048_1_0_0_1_n_n 2048 rfl rfl k
  have el : dot_S256x2048_S2048x2048_S256x2048_1_0_0_1_n_n.lhsIdx (ix2 p j)
      ((contrEquiv1 dot_S256x2048_S2048x2048_S256x2048_1_0_0_1_n_n 2048 rfl rfl).symm k) = ix2 p k :=
    funext fun a => Fin.ext (by
      match a with
      | ⟨0, _⟩ => exact dot_lhs_row _ _
      | ⟨1, _⟩ => exact (dot_S256x2048_S2048x2048_S256x2048_1_0_0_1_n_n.lhsIdx_val_of_single rfl _ _).trans hk)
  have er : dot_S256x2048_S2048x2048_S256x2048_1_0_0_1_n_n.rhsIdx (ix2 p j)
      ((contrEquiv1 dot_S256x2048_S2048x2048_S256x2048_1_0_0_1_n_n 2048 rfl rfl).symm k) = ix2 k j :=
    funext fun a => Fin.ext (by
      match a with
      | ⟨0, _⟩ => exact (dot_S256x2048_S2048x2048_S256x2048_1_0_0_1_n_n.rhsIdx_val_of_single rfl _ _).trans hk
      | ⟨1, _⟩ => exact dot_rhs_col _ _)
  rw [el, er]

/-- A stored chunk at `(0, p, q)`: the 256 columns from `o` of a [256, 2048] value `m`, narrowed
    to bf16 and given a leading unit axis, read `m` at `(p, o + q)`. -/
theorem stored_ix (o : Nat) (m : FVec Ideal S256x2048 .f32) (hs : S256x2048.Slices ![0, o] S256x256)
    (u : Fin 1) (p q : Fin 256) (k : Fin 2048) (hk : k.val = o + q.val) :
    shapeCast S1x256x256 (truncf .bf16 (extractStridedSlice S256x256 ![0, o] m hs) bitsLt_bf16_f32)
      shapeCasts_S256x256_S1x256x256 (ix3 u p q) = m (ix2 p k) := by
  rw [shapeCast_ab_1ab_apply]
  exact slice2_axis1_apply o m hs p q k hk

/-- Stored chunk `c` of the product at `(0, p, q)` is the product at `(p, 256 c + q)`. -/
theorem ychunk_ix (x : FVec Ideal S256x2048 .f32) (w : FVec Ideal S2048x2048 .f32) (c : Fin 8)
    (u : Fin 1) (p q : Fin 256) (k : Fin 2048) (hk : k.val = 256 * c.val + q.val) :
    ychunk (F := Ideal) x w c (ix3 u p q) = k0_pay1 (F := Ideal) x w (ix2 p k) := by
  match c with
  | 0 => exact stored_ix 0 _ slices_S256x2048_o0_0_S256x256 u p q k hk
  | 1 => exact stored_ix 256 _ slices_S256x2048_o0_256_S256x256 u p q k hk
  | 2 => exact stored_ix 512 _ slices_S256x2048_o0_512_S256x256 u p q k hk
  | 3 => exact stored_ix 768 _ slices_S256x2048_o0_768_S256x256 u p q k hk
  | 4 => exact stored_ix 1024 _ slices_S256x2048_o0_1024_S256x256 u p q k hk
  | 5 => exact stored_ix 1280 _ slices_S256x2048_o0_1280_S256x256 u p q k hk
  | 6 => exact stored_ix 1536 _ slices_S256x2048_o0_1536_S256x256 u p q k hk
  | 7 => exact stored_ix 1792 _ slices_S256x2048_o0_1792_S256x256 u p q k hk

/-- What a device stores for device `c` and the activation it is given there: at `(p, q)`,
    `act` of the product of the row block with the right factor at `(p, 256 c + q)`. -/
theorem gelu_ychunk_ix (x : FVec Ideal S256x2048 .f32) (w : FVec Ideal S2048x2048 .f32) (c : Fin 8)
    (p q : Fin 256) (k : Fin 2048) (hk : k.val = 256 * c.val + q.val) :
    gelu (F := Ideal) (ychunk (F := Ideal) x w c) (ix2 p q)
      = act (∑ t : Fin 2048, x (ix2 p t) * w (ix2 t k)) := by
  rw [gelu_ix, ychunk_ix x w c 0 p q k hk, pay1_ix, actK_eq]

end Cert.A2A

end
-- ==== Proof.RefSide.lean ====
import proofs.«900437_g7700000000000438_dist_gemm_a2a_m2048_k2048_n2048_f32_gelu_v7x_i8_1_alg».proof.Defs
import proofs.«900437_g7700000000000438_dist_gemm_a2a_m2048_k2048_n2048_f32_gelu_v7x_i8_1_alg».proof.Proof.Gen.ReferenceIdeal.Read
import proofs.«900437_g7700000000000438_dist_gemm_a2a_m2048_k2048_n2048_f32_gelu_v7x_i8_1_alg».proof.Proof.Spec
import Idealize.ShloMosaic.Lib.ValueIdx
import Idealize.ShloMosaic.Lib.Pipeline.Value
import Idealize.ShloMosaic.PureOps.Ideal.Laws

/-! The reference is the specification: its `dot_general` at `(r, j)` is the sum over `k` of
    `X (r, k) W (k, j)`, and the thirteen elementwise operations after it compute `act` of that
    element. -/

noncomputable section

open scoped BigOperators

namespace Cert.A2A

open Cert.ReferenceIdeal Cert.ReferenceIdeal.Read Idealize.ShloMosaic Idealize.ShloMosaic.ValueIdx

/-- The reference's product at an index is the specification's. -/
theorem ref_dot (X W : Mat) (i : (⟨2, ![2048, 2048]⟩ : Shape).Idx) :
    val_main_v0 (F := Ideal) X W i = dot X W ⟨(i 0).val, (i 0).isLt⟩ ⟨(i 1).val, (i 1).isLt⟩ := by
  rw [val_main_v0_apply]
  unfold dot
  refine Finset.sum_congr rfl fun k _ => ?_
  have el : lidx_main_v0 i k = ix2 (⟨(i 0).val, (i 0).isLt⟩ : Fin 2048) k :=
    funext fun a => by match a with | ⟨0, _⟩ => rfl | ⟨1, _⟩ => rfl
  have er : ridx_main_v0 i k = ix2 k (⟨(i 1).val, (i 1).isLt⟩ : Fin 2048) :=
    funext fun a => by match a with | ⟨0, _⟩ => rfl | ⟨1, _⟩ => rfl
  rw [el, er]

/-- The reference's result is `G`. -/
theorem ref_eq_G (X W : Mat) : val_main_v13 (F := Ideal) X W = G X W := by
  funext i
  have h : val_main_v13 (F := Ideal) X W i = act (val_main_v0 (F := Ideal) X W i) := rfl
  rw [h, ref_dot]
  rfl

end Cert.A2A

end
-- ==== Proof.Bridge.lean ====
import proofs.«900437_g7700000000000438_dist_gemm_a2a_m2048_k2048_n2048_f32_gelu_v7x_i8_1_alg».proof.Proof.KernelSide
import proofs.«900437_g7700000000000438_dist_gemm_a2a_m2048_k2048_n2048_f32_gelu_v7x_i8_1_alg».proof.Proof.RefSide
import Idealize.ShloMosaic.Lib.Layout

/-! The two sides meet. Device `s` holds rows `[256 s, 256 s + 256)` of `X`; what it stores for
    device `c`, once activated there, is at `(p, q)` the activation of `(X W) (256 s + p, 256 c + q)`:
    the reference's result, whose columns `[256 c, 256 c + 256)` device `c` holds, at row
    `256 s + p` and column `q` of that block. -/

noncomputable section

open scoped BigOperators

namespace Cert.A2A

open Idealize.ShloMosaic Idealize.ShloMosaic.ValueIdx

/-- Row block `s` of `X` at `(p, k)` is `X` at `(256 s + p, k)`. -/
theorem block_rows_ix (X : Mat) (s : Fin 8) (h : Layout.Tiles ⟨2, ![256, 2048]⟩ ⟨2, ![2048, 2048]⟩ 0 8)
    (p : Fin 256) (k r : Fin 2048) (hr : r.val = 256 * s.val + p.val) :
    Layout.block ⟨2, ![256, 2048]⟩ ⟨2, ![2048, 2048]⟩ 0 8 s X h (ix2 p k) = X (ix2 r k) := by
  rw [Layout.block_apply]
  refine congrArg X (funext fun a => Fin.ext ?_)
  match a with
  | ⟨0, _⟩ =>
    show s.val * 256 + p.val = r.val
    omega
  | ⟨1, _⟩ => rfl

/-- Column block `c` of a [2048, 2048] array `R`, at an index `i` of the block, is `R` at
    `(i 0, 256 c + i 1)`. -/
theorem block_cols_coords (c : Fin 8) (h : Layout.Tiles ⟨2, ![2048, 256]⟩ ⟨2, ![2048, 2048]⟩ 1 8)
    (i : (⟨2, ![2048, 256]⟩ : Shape).Idx) :
    (h.idx c i 0).val = (i 0).val ∧ (h.idx c i 1).val = c.val * 256 + (i 1).val := ⟨rfl, rfl⟩

/-- The bridge, against the specification. -/
theorem bridge_G (X W : Mat) (c s : Fin 8) (y : (⟨2, ![256, 256]⟩ : Shape).Idx) (i : (⟨2, ![2048, 256]⟩ : Shape).Idx)
    (h0 : (i 0).val = 256 * s.val + (y 0).val) (h1 : (i 1).val = (y 1).val)
    (hX : Layout.Tiles ⟨2, ![256, 2048]⟩ ⟨2, ![2048, 2048]⟩ 0 8)
    (hR : Layout.Tiles ⟨2, ![2048, 256]⟩ ⟨2, ![2048, 2048]⟩ 1 8) :
    gelu (F := Ideal) (ychunk (F := Ideal) (Layout.block ⟨2, ![256, 2048]⟩ ⟨2, ![2048, 2048]⟩ 0 8 s X hX) W c) y
      = Layout.block ⟨2, ![2048, 256]⟩ ⟨2, ![2048, 2048]⟩ 1 8 c (G X W) hR i := by
  obtain ⟨p, q, rfl⟩ : ∃ (p q : Fin 256), y = ix2 p q := ⟨y 0, y 1, eq_ix2 y⟩
  have h0' : (i 0).val = 256 * s.val + p.val := h0
  have h1' : (i 1).val = q.val := h1
  have hr : 256 * s.val + p.val < 2048 := by have := s.isLt; have := p.isLt; omega
  have hc : 256 * c.val + q.val < 2048 := by have := c.isLt; have := q.isLt; omega
  obtain ⟨e0, e1⟩ := block_cols_coords c hR i
  rw [gelu_ychunk_ix _ W c p q ⟨256 * c.val + q.val, hc⟩ rfl, Layout.block_apply,
    G_apply X W _ ⟨256 * s.val + p.val, hr⟩ ⟨256 * c.val + q.val, hc⟩ (e0.trans h0')
      (e1.trans (by show c.val * 256 + (i 1).val = 256 * c.val + q.val; omega))]
  unfold dot
  refine congrArg act (Finset.sum_congr rfl fun t _ => ?_)
  rw [block_rows_ix X s hX p t ⟨256 * s.val + p.val, hr⟩ rfl]

/-- The bridge, against the reference's result: what device `s` stores for device `c`, activated,
    at `y`, is the reference's result at the index `i` of device `c`'s column block whose row is
    `256 s` further down than `y`'s and whose column is `y`'s. -/
theorem bridge (X W : (⟨⟨2, ![2048, 2048]⟩, .f32⟩ : BufTy).Contents (Elt Ideal)) (c s : Fin 8)
    (y : (⟨2, ![256, 256]⟩ : Shape).Idx) (i : (⟨2, ![2048, 256]⟩ : Shape).Idx)
    (h0 : (i 0).val = 256 * s.val + (y 0).val) (h1 : (i 1).val = (y 1).val) :
    gelu (F := Ideal) (ychunk (F := Ideal) (Layout.block ⟨2, ![256, 2048]⟩ ⟨2, ![2048, 2048]⟩ 0 8 s X) W c) y
      = (Layout.block ⟨2, ![2048, 256]⟩ ⟨2, ![2048, 2048]⟩ 1 8 c
          (Cert.ReferenceIdeal.Read.val_main_v13 (F := Ideal) X W)) i := by
  rw [ref_eq_G]
  exact bridge_G X W c s y i h0 h1 _ _

end Cert.A2A

end
-- ==== Proof.A2AClaims.lean ====
import proofs.«900437_g7700000000000438_dist_gemm_a2a_m2048_k2048_n2048_f32_gelu_v7x_i8_1_alg».proof.Defs
import proofs.«900437_g7700000000000438_dist_gemm_a2a_m2048_k2048_n2048_f32_gelu_v7x_i8_1_alg».proof.Proof.A2ARun
import proofs.«900437_g7700000000000438_dist_gemm_a2a_m2048_k2048_n2048_f32_gelu_v7x_i8_1_alg».proof.Proof.Bridge
import proofs.«900437_g7700000000000438_dist_gemm_a2a_m2048_k2048_n2048_f32_gelu_v7x_i8_1_alg».proof.Proof.Gen.ReferenceIdeal.Run
import proofs.«900437_g7700000000000438_dist_gemm_a2a_m2048_k2048_n2048_f32_gelu_v7x_i8_1_alg».proof.Proof.Gen.ReferenceIdeal.Read
import proofs.«900437_g7700000000000438_dist_gemm_a2a_m2048_k2048_n2048_f32_gelu_v7x_i8_1_alg».proof.Proof.Gen.Pre_finite_inputs_Kernel
import proofs.«900437_g7700000000000438_dist_gemm_a2a_m2048_k2048_n2048_f32_gelu_v7x_i8_1_alg».proof.Proof.Gen.Pre_finite_inputs_ReferenceIdeal

/-! The claims about the idealized kernel and the reference, from the run of @main and the value bridge,
    each under the hypothesis that every device's body meets its obligation.

    The kernel's run ends with every device's result array at `outAt` — row block `s` the activation of the chunk
    device `s` made for it — and both argument arrays unchanged. On the extended reals, from memories where
    device `c` holds row block `c` of `X` and a copy of `W`, that result is column block `c` of the reference's
    result `act (X W)`: at an index `i`, the row block is `i 0 / 256`, the place inside it `(i 0 % 256, i 1)`, and
    the bridge says the rest. -/

noncomputable section

namespace Cert.KernelIdeal.A2AClaims

open Cert.KernelIdeal Cert.KernelIdeal.Gen Cert.KernelIdeal.A2A
open Idealize.ShloMosaic
open Idealize.ShloMosaic.TcCoe
open Idealize.SL.Sem
open Idealize.ShloMosaic.Pipeline (Dat Cfg Window BodyObligation cellOf)

variable {F : FTy → Type} [FloatOps F]

/-! ## The staged inputs are the arrays -/

/-- Window 0's one block is the whole of `x`'s array: read through it, contents are themselves. -/
theorem read_x_block (f : (main_arg0 : Ref sig .tc).ty.Contents (Elt F)) :
    (win0_0.blk (0 : Fin 1)).view.read (Elt F) f = f := by
  have hz' : (fun a => win0_0.index (0 : Fin 1) a * (main_arg0 : Ref sig .tc).ty.shape.size a) = fun _ => 0 :=
    funext fun a => by fin_cases a <;> decide
  exact Memref.read_access_unit_zero (Elt F) main_arg0 hz' (fun a => by rw [congrFun hz' a]; simp) f

/-- Window 1's likewise of `w`'s. -/
theorem read_w_block (f : (main_arg1 : Ref sig .tc).ty.Contents (Elt F)) :
    (win0_1.blk (0 : Fin 1)).view.read (Elt F) f = f := by
  have hz' : (fun a => win0_1.index (0 : Fin 1) a * (main_arg1 : Ref sig .tc).ty.shape.size a) = fun _ => 0 :=
    funext fun a => by fin_cases a <;> decide
  exact Memref.read_access_unit_zero (Elt F) main_arg1 hz' (fun a => by rw [congrFun hz' a]; simp) f

theorem xstg_eq (m : (ℓ : Loc nD τ sig) → Buf (Elt F) ℓ) (c : Dev nD) : xstg m c = m ((c : Thread nD τ).loc main_arg0) := read_x_block _
theorem wstg_eq (m : (ℓ : Loc nD τ sig) → Buf (Elt F) ℓ) (c : Dev nD) : wstg m c = m ((c : Thread nD τ).loc main_arg1) := read_w_block _

/-- The chunks by device are the chunks by number. -/
theorem ychunk_eq (x : Vec F S256x2048 .f32) (w : Vec F S2048x2048 .f32) (c : Dev nD) :
    Cert.KernelIdeal.A2A.ychunk x w c = Cert.A2A.ychunk x w c := by
  match c with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨n + 8, h⟩ => exact absurd (show n + 8 < 8 from h) (by omega)

/-! ## The result is the reference's, block by block -/

/-- Device `c`'s result is column block `c` of the reference's result. -/
theorem outAt_eq_block (m : (ℓ : Loc nD τ sig) → Buf (Elt Ideal) ℓ)
    (X W : (⟨⟨2, ![2048, 2048]⟩, .f32⟩ : BufTy).Contents (Elt Ideal))
    (hagree : ∀ c : Dev nD, m ((c : Thread nD τ).loc main_arg0) = Layout.block ⟨2, ![256, 2048]⟩ ⟨2, ![2048, 2048]⟩ 0 8 c X
      ∧ m ((c : Thread nD τ).loc main_arg1) = W)
    (c : Dev nD) :
    outAt m c = Layout.block ⟨2, ![2048, 256]⟩ ⟨2, ![2048, 2048]⟩ 1 8 c (Cert.ReferenceIdeal.Read.val_main_v13 (F := Ideal) X W) := by
  funext i
  have h0 : (i 0).val = 256 * (blkOf i).val + (locOf i 0).val := (Nat.div_add_mod (i 0).val 256).symm
  have h1 : (i 1).val = (locOf i 1).val := rfl
  refine Eq.trans ?_ (Cert.A2A.bridge X W c (blkOf i) (locOf i) i h0 h1)
  show Cert.KernelIdeal.A2A.gelu (Cert.KernelIdeal.A2A.ychunk (xstg m (blkOf i)) (wstg m (blkOf i)) c) (locOf i) = _
  rw [xstg_eq, wstg_eq, (hagree (blkOf i)).1, (hagree (blkOf i)).2, ychunk_eq]
  rfl

/-! ## The claims -/

theorem frame_KernelIdeal (hbody : ∀ (m : (ℓ : Loc nD τ sig) → Buf (Elt Ideal) ℓ) (c : Dev nD), BodyObligation (dats (F := Ideal) m 0 c) (defs₀ (F := Ideal)) 𝒱₀ () Set.univ) :
    Cert.frame_KernelIdeal :=
  fun m g _ => (θ_run defs _ _).mono (fun _ h c => (h c).2) (kernel_run hbody m g)

theorem frame_ReferenceIdeal : Cert.frame_ReferenceIdeal :=
  fun m ρ _ => (θ_run Cert.ReferenceIdeal.defs _ _).mono (fun _ h c => (h c).2) (Cert.ReferenceIdeal.Value.run (F := Ideal) m ρ)

theorem algebraic (hbody : ∀ (m : (ℓ : Loc nD τ sig) → Buf (Elt Ideal) ℓ) (c : Dev nD), BodyObligation (dats (F := Ideal) m 0 c) (defs₀ (F := Ideal)) 𝒱₀ () Set.univ) :
    Cert.algebraic_KernelIdeal_ReferenceIdeal := by
  intro m g m' g' _ hagree
  refine ⟨Cert.ReferenceIdeal.Read.val_main_v13 (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · exact (θ_run defs _ _).mono
      (fun _ h c => ⟨(h c).1.trans (outAt_eq_block m _ _ hagree c), (h c).2⟩) (kernel_run hbody m g)
  · refine (θ_run Cert.ReferenceIdeal.defs _ _).mono (fun _ h => ?_) (Cert.ReferenceIdeal.Value.run (F := Ideal) m' g')
    exact ⟨(h 0).1.trans (Cert.ReferenceIdeal.Read.val_main_v13_eq _ _), (h 0).2.1, (h 0).2.2⟩

end Cert.KernelIdeal.A2AClaims

end
-- ==== Proof.A2ASchedW.lean ====
/-
  An all-to-all of matrix-product chunks on eight devices: the cells of the protocol and their one round.

  Device c multiplies its 256 rows of x by w, cuts the product into eight 256-column chunks (slot q of its chunk
  buffer), and sends chunk t to device t, which receives it in slot c of its landing buffer. Three kinds of cell on
  every device: the entry barrier (seven duties of one unit, one per peer: peer p's unit tells that p is inside the
  kernel and hands over slot c of p's landing buffer, the slot c will write); the send cell t (one duty: the copy of
  chunk t has left, the chunk slot is whole again); the receive cell s (one duty: peer s's copy has landed, slot s
  of the landing buffer holds s's chunk for this device).
-/
import proofs.«900437_g7700000000000438_dist_gemm_a2a_m2048_k2048_n2048_f32_gelu_v7x_i8_1_alg».proof.Proof.Gen.Kernel
import proofs.«900437_g7700000000000438_dist_gemm_a2a_m2048_k2048_n2048_f32_gelu_v7x_i8_1_alg».proof.Proof.Gen.Kernel.Skeleton
import proofs.«900437_g7700000000000438_dist_gemm_a2a_m2048_k2048_n2048_f32_gelu_v7x_i8_1_alg».proof.Proof.Gen.Kernel.Launch
import proofs.«900437_g7700000000000438_dist_gemm_a2a_m2048_k2048_n2048_f32_gelu_v7x_i8_1_alg».proof.Proof.Gen.Kernel.Points
import proofs.«900437_g7700000000000438_dist_gemm_a2a_m2048_k2048_n2048_f32_gelu_v7x_i8_1_alg».proof.Proof.Gen.Kernel.Frame
import Idealize.ShloMosaic.Lib.Pipeline.Launch
import Idealize.ShloMosaic.Lib.Pipeline.Kit
import Idealize.ShloMosaic.Lib.Tactic

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Offsets round the ring: device c addresses c + r + 1 (mod 8) with its r-th signal and copy, and awaits
    c + 7 - r (mod 8) with its r-th receive wait. -/

def fw (c : Dev nD) (r : Fin 7) : Dev nD := ⟨(c.val + r.val + 1) % 8, Nat.mod_lt _ (by decide)⟩
def bk (c : Dev nD) (r : Fin 7) : Dev nD := ⟨((c.val + 7) - r.val) % 8, Nat.mod_lt _ (by decide)⟩

theorem fw_ne (c : Dev nD) (r : Fin 7) : fw c r ≠ c := by revert c r; decide
theorem bk_ne (c : Dev nD) (r : Fin 7) : bk c r ≠ c := by revert c r; decide
theorem ne_fw (c : Dev nD) (r : Fin 7) : c ≠ fw c r := fun h => fw_ne c r h.symm
theorem ne_bk (c : Dev nD) (r : Fin 7) : c ≠ bk c r := fun h => bk_ne c r h.symm
theorem fw_bk (c : Dev nD) (r : Fin 7) : fw (bk c r) r = c := by revert c r; decide
theorem bk_fw (c : Dev nD) (r : Fin 7) : bk (fw c r) r = c := by revert c r; decide
theorem fw_inj (c : Dev nD) : Function.Injective (fw c) := by revert c; decide
theorem bk_inj (c : Dev nD) : Function.Injective (bk c) := by revert c; decide
theorem exists_fw (c t : Dev nD) (h : t ≠ c) : ∃ r, fw c r = t := by revert c t; decide
theorem exists_bk (c t : Dev nD) (h : t ≠ c) : ∃ r, bk c r = t := by revert c t; decide

/-! ## The semaphores and the cells -/

abbrev barS : Sem sig := (SemArray.scalar (sig.barrier 0 rfl) : Sems sig S_).sem
def sendS (t : Dev nD) : DmaSem sig := ⟨3 + t.val, by have h : t.val < 8 := t.isLt; show 3 + t.val < 19; omega⟩
def recvS (s : Dev nD) : DmaSem sig := ⟨11 + s.val, by have h : s.val < 8 := s.isLt; show 11 + s.val < 19; omega⟩

theorem sendSem_eq (c : Dev nD) (r : Fin 7) :
    ((cc0_scratch2.slice (Rect.unit (s := S8) (k0_off1 c (BitVec.ofNat 32 (1 + r.val))) S1.size (k0_off1_inb c r))).squeeze S_ squeezes_S1_S_).sem = sendS (fw c r) := by
  revert c r; decide +kernel
theorem recvOwn_eq (c : Dev nD) :
    ((cc0_scratch3.slice (Rect.unit (s := S8) (k0_off2 c) S1.size (k0_off2_inb c))).squeeze S_ squeezes_S1_S_).sem = recvS c := by
  revert c; decide +kernel
theorem recvSem_eq (c : Dev nD) (r : Fin 7) :
    ((cc0_scratch3.slice (Rect.unit (s := S8) (k0_off7 c (BitVec.ofNat 32 (1 + r.val))) S1.size (k0_off7_inb c r))).squeeze S_ squeezes_S1_S_).sem = recvS (bk c r) := by
  revert c r; decide +kernel

abbrev barCell (c : Dev nD) : GSem nD τ sig := ((c : Thread nD τ), .reg barS)
abbrev sendCell (c t : Dev nD) : GSem nD τ sig := ((c : Thread nD τ), .dma (sendS t))
abbrev recvCell (c s : Dev nD) : GSem nD τ sig := ((c : Thread nD τ), .dma (recvS s))

/-- What kind of cell a semaphore is: the barrier, send cell t, receive cell s, or one of the three staging semaphores. -/
inductive CK | bar | send (t : Dev nD) | recv (s : Dev nD) | stage
  deriving DecidableEq

def ck : SemLoc sig → CK
  | .reg _ => .bar
  | .dma q => if h : q.val < 3 then .stage else if h' : q.val < 11 then .send ⟨q.val - 3, by show q.val - 3 < 8; omega⟩
      else .recv ⟨q.val - 11, by have h2 : q.val < 19 := q.isLt; show q.val - 11 < 8; omega⟩

theorem ck_bar : ck (.reg barS) = .bar := rfl
theorem ck_send (t : Dev nD) : ck (.dma (sendS t)) = .send t := by revert t; decide
theorem ck_recv (s : Dev nD) : ck (.dma (recvS s)) = .recv s := by revert s; decide

/-! ## The two scratch buffers and their slots -/

abbrev yM : Memref sig .tc .vmem S8x256x256 .bf16 := Memref.whole cc0_scratch0
abbrev rM : Memref sig .tc .vmem S8x256x256 .bf16 := Memref.whole cc0_scratch1

theorem slot_inb (j : Dev nD) : ∀ a, (![j.val, 0, 0] : Fin 3 → Nat) a + S1x256x256.size a ≤ S8x256x256.size a := by revert j; decide
/-- Slot j of a chunk buffer: the rectangle [j, j+1) × 256 × 256. -/
def slotR (j : Dev nD) : Rect S8x256x256 := Rect.unit (s := S8x256x256) ![j.val, 0, 0] S1x256x256.size (slot_inb j)

abbrev N : ℕ := ((yM.slice (slotR 0) (fun _ => rfl)).squeeze S256x256 squeezes_S1x256x256_S256x256 : Memref sig .tc .vmem S256x256 .bf16).view.dmaCredit
theorem N_pos : 0 < N := View.dmaCredit_pos _ (by decide)

variable (m : (ℓ : Loc nD τ sig) → Buf (Elt F) ℓ)

/-- Device c's staged block of x and copy of w: what the body loads. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))

/-- Chunk q of the product, as slot q of the chunk buffer holds it. -/
def ychunk (x : Vec F S256x2048 .f32) (w : Vec F S2048x2048 .f32) : Dev nD → FVec F S1x256x256 .bf16
  | ⟨0, _⟩ => k0_pay2 x w | ⟨1, _⟩ => k0_pay3 x w | ⟨2, _⟩ => k0_pay4 x w | ⟨3, _⟩ => k0_pay6 (k0_pay5 x w)
  | ⟨4, _⟩ => k0_pay7 (k0_pay1 x w) | ⟨5, _⟩ => k0_pay8 (k0_pay1 x w) | ⟨6, _⟩ => k0_pay9 (k0_pay1 x w) | ⟨7, _⟩ => k0_pay10 (k0_pay1 x w)
  | ⟨n + 8, h⟩ => absurd (show n + 8 < 8 from h) (by omega)

/-- The chunk device s makes for device t. -/
def chunkOf (s t : Dev nD) : FVec F S1x256x256 .bf16 := ychunk (xstg m s) (wstg m s) t

local notation "𝕄" => MT nD τ sig Unit (Elt F) ℕ (UR sig nD τ × URounds (GSem nD τ sig) (Dev nD)) ℕ

/-- Slot j of device c's chunk buffer, at contents f. -/
def yPts (c j : Dev nD) (f : Buf (Elt F) ((c : Thread nD τ).loc cc0_scratch0)) : sProp 𝕄 :=
  ((c : Thread nD τ).loc cc0_scratch0) ↦[(slotR j).set]{fullShare} f
/-- Slot j of device c's landing buffer, at contents f. -/
def rPts (c j : Dev nD) (f : Buf (Elt F) ((c : Thread nD τ).loc cc0_scratch1)) : sProp 𝕄 :=
  ((c : Thread nD τ).loc cc0_scratch1) ↦[(slotR j).set]{fullShare} f

/-- What peer p's barrier unit hands device c: slot c of p's landing buffer. -/
def barPay (p c : Dev nD) : sProp 𝕄 := iprop(∃ f, rPts (F := F) p c f)
/-- What the departure of chunk t hands back: slot t of the chunk buffer. -/
def sendPay (c t : Dev nD) : sProp 𝕄 := iprop(∃ f, yPts (F := F) c t f)
/-- What the landing of peer s's copy hands device c: slot s of the landing buffer, reading s's chunk for c. -/
def recvPay (c s : Dev nD) : sProp 𝕄 :=
  iprop(∃ g, ⌜rM.view.readAt (Elt F) (slotR s).toLoadRect g = chunkOf m s c⌝ ∗ rPts c s g)

/-- One round, round 0. The barrier of device c: a unit from every peer. Send cell t and receive cell s of device c,
    for t, s other than c: one duty of a slot's credit, named by its payer — c's own engine, peer s. (The send and
    receive cells numbered c itself are never used: no duty.) -/
def sched : Rounds.Schedule (GSem nD τ sig) (Dev nD) 𝕄 where
  duties g r := if r = 0 ∧ g.1.2 = .tc then
      (match ck g.2 with
        | .bar => Finset.univ.erase g.1.1
        | .send t => if t = g.1.1 then ∅ else {g.1.1}
        | .recv s => if s = g.1.1 then ∅ else {s}
        | .stage => ∅)
    else ∅
  unitless _ := False
  amount g _ _ := match ck g.2 with | .bar => 1 | _ => N
  payload g _ d := match ck g.2 with
    | .bar => barPay d g.1.1
    | .send t => sendPay g.1.1 t
    | .recv s => recvPay m g.1.1 s
    | .stage => iprop(emp)
  amount_pos g _ _ _ := by
    show 0 < (match ck g.2 with | .bar => 1 | _ => N)
    split <;> first | exact Nat.one_pos | exact N_pos

instance sched_payload_storable (g : GSem nD τ sig) (r : ℕ) (d : Dev nD) :
    BI.Storable (upEmb : UEmb _ 𝕄) ((sched (F := F) m).payload g r d) := by
  show BI.Storable upEmb (match ck g.2 with
    | .bar => barPay d g.1.1
    | .send t => sendPay g.1.1 t
    | .recv s => recvPay m g.1.1 s
    | .stage => iprop(emp))
  unfold barPay sendPay recvPay yPts rPts
  split <;> infer_instance

section Tables
variable (c : Dev nD)

theorem duties_bar : (sched (F := F) m).duties (barCell c) 0 = Finset.univ.erase c := by
  dsimp only [sched]; rw [if_pos ⟨rfl, rfl⟩]; rfl
theorem duties_send (t : Dev nD) (h : t ≠ c) : (sched (F := F) m).duties (sendCell c t) 0 = {c} := by
  dsimp only [sched]; rw [if_pos ⟨rfl, rfl⟩, ck_send]; exact if_neg h
theorem duties_recv (s : Dev nD) (h : s ≠ c) : (sched (F := F) m).duties (recvCell c s) 0 = {s} := by
  dsimp only [sched]; rw [if_pos ⟨rfl, rfl⟩, ck_recv]; exact if_neg h
theorem duties_send_self : ∀ r, (sched (F := F) m).duties (sendCell c c) r = ∅ := fun r => by
  dsimp only [sched]; split
  · rw [ck_send]; exact if_pos rfl
  · rfl
theorem duties_recv_self : ∀ r, (sched (F := F) m).duties (recvCell c c) r = ∅ := fun r => by
  dsimp only [sched]; split
  · rw [ck_recv]; exact if_pos rfl
  · rfl
theorem duties_later (g : GSem nD τ sig) : ∀ r, 1 ≤ r → (sched (F := F) m).duties g r = ∅ :=
  fun r hr => by dsimp only [sched]; rw [if_neg fun h => by omega]

theorem amount_bar (d : Dev nD) : (sched (F := F) m).amount (barCell c) 0 d = 1 := rfl
theorem amount_send (t d : Dev nD) : (sched (F := F) m).amount (sendCell c t) 0 d = N := by dsimp only [sched]; rw [ck_send]
theorem amount_recv (s d : Dev nD) : (sched (F := F) m).amount (recvCell c s) 0 d = N := by dsimp only [sched]; rw [ck_recv]

theorem expect_bar : (sched (F := F) m).expect (barCell c) 0 = 7 := by
  unfold Schedule.expect Schedule.amountOf
  rw [duties_bar, Finset.sum_congr rfl fun d _ => amount_bar m c d, Finset.sum_const, Finset.card_erase_of_mem (Finset.mem_univ _), Finset.card_univ, Fintype.card_fin, smul_eq_mul]; rfl
theorem expect_send (t : Dev nD) (h : t ≠ c) : (sched (F := F) m).expect (sendCell c t) 0 = N := by
  unfold Schedule.expect Schedule.amountOf; rw [duties_send m c t h, Finset.sum_singleton, amount_send]
theorem expect_recv (s : Dev nD) (h : s ≠ c) : (sched (F := F) m).expect (recvCell c s) 0 = N := by
  unfold Schedule.expect Schedule.amountOf; rw [duties_recv m c s h, Finset.sum_singleton, amount_recv]

theorem payload_bar (d : Dev nD) : (sched (F := F) m).payload (barCell c) 0 d = barPay d c := rfl
theorem payload_send (t d : Dev nD) : (sched (F := F) m).payload (sendCell c t) 0 d = sendPay c t := by dsimp only [sched]; rw [ck_send]
theorem payload_recv (s d : Dev nD) : (sched (F := F) m).payload (recvCell c s) 0 d = recvPay m c s := by dsimp only [sched]; rw [ck_recv]

theorem rest_send (t : Dev nD) (h : t ≠ c) :
    bigSep ((sched (F := F) m).duties (sendCell c t) 0 \ ∅) (fun d => (sched (F := F) m).payload (sendCell c t) 0 d) = sendPay c t := by
  rw [Finset.sdiff_empty, duties_send m c t h, bigSep_singleton, payload_send]
theorem rest_recv (s : Dev nD) (h : s ≠ c) :
    bigSep ((sched (F := F) m).duties (recvCell c s) 0 \ ∅) (fun d => (sched (F := F) m).payload (recvCell c s) 0 d) = recvPay m c s := by
  rw [Finset.sdiff_empty, duties_recv m c s h, bigSep_singleton, payload_recv]

/-- The peers of c, listed round the ring. -/
theorem erase_eq_map : Finset.univ.erase c = Finset.univ.map ⟨fw c, fw_inj c⟩ := by revert c; decide
theorem erase_eq_map_bk : Finset.univ.erase c = Finset.univ.map ⟨bk c, bk_inj c⟩ := by revert c; decide

theorem bigSep_fin7 {M : Type} [URA M] (Φ : Fin 7 → sProp M) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The whole round of the barrier: every peer's slot, round the ring. -/
theorem rest_bar :
    bigSep ((sched (F := F) m).duties (barCell c) 0 \ ∅) (fun d => (sched (F := F) m).payload (barCell c) 0 d)
      = iprop(barPay (fw c 0) c ∗ barPay (fw c 1) c ∗ barPay (fw c 2) c ∗ barPay (fw c 3) c ∗ barPay (fw c 4) c ∗ barPay (fw c 5) c ∗ barPay (fw c 6) c) := by
  rw [Finset.sdiff_empty, duties_bar, erase_eq_map, bigSep_map, bigSep_fin7]
  rfl

end Tables

end Cert.Kernel.A2A

end
-- ==== Proof.A2AOwesW.lean ====
/-
  What each device owes its peers when the kernel starts, the levels that order the waits, and the credit the
  launch deals: a device owes each peer one barrier unit and one landing; it waits on its barrier (level 1) owing
  only landings (level 2), and on its landings owing nothing.
-/
import proofs.«900437_g7700000000000438_dist_gemm_a2a_m2048_k2048_n2048_f32_gelu_v7x_i8_1_alg».proof.Proof.A2ASchedW

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × URounds (GSem nD τ sig) (Dev nD)) ℕ

/-- The barrier units device d still owes before its k-th signal, and the landings before its k-th copy. -/
def Osig (d : Dev nD) (k : ℕ) : CellTallies nD τ sig Unit :=
  ∑ r ∈ Finset.univ.filter (fun r : Fin 7 => k ≤ r.val), tallyAt (barCell (fw d r)) () 1
def Ocp (d : Dev nD) (k : ℕ) : CellTallies nD τ sig Unit :=
  ∑ r ∈ Finset.univ.filter (fun r : Fin 7 => k ≤ r.val), tallyAt (recvCell (fw d r) d) () N
def O₀ (d : Dev nD) : CellTallies nD τ sig Unit := Ocp d 0 + Osig d 0

theorem filter_step (r : Fin 7) : Finset.univ.filter (fun x : Fin 7 => r.val ≤ x.val)
    = insert r (Finset.univ.filter (fun x : Fin 7 => r.val + 1 ≤ x.val)) := by revert r; decide
theorem not_mem_step (r : Fin 7) : r ∉ Finset.univ.filter (fun x : Fin 7 => r.val + 1 ≤ x.val) := by revert r; decide

theorem Osig_step (d : Dev nD) (r : Fin 7) : Osig d r.val = Osig d (r.val + 1) + tallyAt (barCell (fw d r)) () 1 := by
  unfold Osig; rw [filter_step, Finset.sum_insert (not_mem_step r), add_comm]
theorem Ocp_step (d : Dev nD) (r : Fin 7) : Ocp d r.val = Ocp d (r.val + 1) + tallyAt (recvCell (fw d r) d) () N := by
  unfold Ocp; rw [filter_step, Finset.sum_insert (not_mem_step r), add_comm]
theorem Osig_seven (d : Dev nD) : Osig d 7 = 0 := by
  unfold Osig; rw [show Finset.univ.filter (fun x : Fin 7 => 7 ≤ x.val) = ∅ by decide, Finset.sum_empty]
theorem Ocp_seven (d : Dev nD) : Ocp d 7 = 0 := by
  unfold Ocp; rw [show Finset.univ.filter (fun x : Fin 7 => 7 ≤ x.val) = ∅ by decide, Finset.sum_empty]

theorem Osig_pos {d : Dev nD} {k : ℕ} {g : GSem nD τ sig} {u : Unit} (h : 0 < Osig d k g u) : ∃ r, g = barCell (fw d r) := by
  obtain ⟨r, _, hr⟩ := Pipeline.sum_pos_exists h; exact ⟨r, (Pipeline.tallyAt_pos hr).1⟩
theorem Ocp_pos {d : Dev nD} {k : ℕ} {g : GSem nD τ sig} {u : Unit} (h : 0 < Ocp d k g u) : ∃ r, g = recvCell (fw d r) d := by
  obtain ⟨r, _, hr⟩ := Pipeline.sum_pos_exists h; exact ⟨r, (Pipeline.tallyAt_pos hr).1⟩

/-! ## Levels -/

def L (g : GSem nD τ sig) : Finset Unit := if g.1.2 = .tc then {()} else ∅
/-- Barrier cells at 1, receive cells at 2, everything else (staging, send) at 0. -/
def lv (g : GSem nD τ sig) (_ : Unit) : ℕ := match ck g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c s : Dev nD) (u : Unit) : lv (recvCell c s) u = 2 := by unfold lv; rw [ck_recv]

/-- A wait at level below everything owed. -/
theorem mayWait_below (c : Dev nD) (sm : SemLoc sig) (O : CellTallies nD τ sig Unit)
    (hO : ∀ g u, 0 < O g u → g.1.2 = .tc ∧ lv ((c : Thread nD τ), sm) () < lv g u) :
    (levAts L lv : sProp 𝕄) ⊢ MayWait (c : Thread nD τ) sm () O :=
  Pipeline.mayWait_of_levAts (by rw [L_tc]; exact Finset.mem_singleton_self _)
    (fun g i h => ⟨by cases i; unfold L; rw [if_pos (hO g () h).1]; exact Finset.mem_singleton_self _, by cases i; exact (hO g () h).2⟩)

theorem O₀_pos {c : Dev nD} {g : GSem nD τ sig} {u : Unit} (h : 0 < O₀ c g u) : g.1.2 = .tc ∧ 1 ≤ lv g u := by
  rcases Pipeline.add_pos_cases h with h | h
  · obtain ⟨r, rfl⟩ := Ocp_pos h; exact ⟨rfl, by rw [lv_recv]; decide⟩
  · obtain ⟨r, rfl⟩ := Osig_pos h; exact ⟨rfl, by rw [lv_bar]⟩

/-- The pipeline's own staging waits: level 0, below all a device ever owes. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · exact mayWait_below c _ _ fun g u h => ⟨(O₀_pos h).1, by rw [hq]; exact (O₀_pos h).2⟩
  · rw [MayWait_zero]; iintro -; iempintro

/-- At its barrier wait a device owes landings only: receive cells, above its barrier cell. -/
theorem mayWait_bar (c : Dev nD) :
    (levAts L lv : sProp 𝕄) ⊢ MayWait (c : Thread nD τ) (.reg barS) () (Ocp c 0 + Osig c 7) :=
  mayWait_below c _ _ fun g u h => by
    rw [Osig_seven, add_zero] at h
    obtain ⟨r, rfl⟩ := Ocp_pos h
    exact ⟨rfl, by rw [lv_recv]; show (1 : ℕ) < 2; decide⟩

/-! ## The launch credit -/

def fwE (r : Fin 7) : Dev nD ≃ Dev nD := ⟨fun d => fw d r, fun c => bk c r, fun d => bk_fw d r, fun c => fw_bk c r⟩

/-- What the devices owe device c's cells, all told: seven barrier units, and a landing on each receive cell. -/
def T₀ (c : Dev nD) : CellTallies nD τ sig Unit :=
  (∑ r : Fin 7, tallyAt (recvCell c (bk c r)) () N) + ∑ r : Fin 7, tallyAt (barCell c) () 1

theorem O₀_eq (d : Dev nD) : O₀ d = (∑ r : Fin 7, tallyAt (recvCell (fw d r) d) () N) + ∑ r : Fin 7, tallyAt (barCell (fw d r)) () 1 := by
  unfold O₀ Ocp Osig
  rw [show Finset.univ.filter (fun x : Fin 7 => 0 ≤ x.val) = Finset.univ by decide]

theorem sum_recv (r : Fin 7) :
    (∑ d : Dev nD, (tallyAt (recvCell (fw d r) d) () N : CellTallies nD τ sig Unit)) = ∑ c : Dev nD, tallyAt (recvCell c (bk c r)) () N := by
  rw [← Equiv.sum_comp (fwE r) (fun c : Dev nD => (tallyAt (recvCell c (bk c r)) () N : CellTallies nD τ sig Unit))]
  refine Finset.sum_congr rfl fun d _ => ?_
  show _ = tallyAt (recvCell (fw d r) (bk (fw d r) r)) () N
  rw [bk_fw]
theorem sum_bar (r : Fin 7) :
    (∑ d : Dev nD, (tallyAt (barCell (fw d r)) () 1 : CellTallies nD τ sig Unit)) = ∑ c : Dev nD, tallyAt (barCell c) () 1 :=
  Equiv.sum_comp (fwE r) (fun c : Dev nD => (tallyAt (barCell c) () 1 : CellTallies nD τ sig Unit))

theorem sum_O₀ : (∑ d, O₀ d) = ∑ d, T₀ d := by
  have h1 : (∑ d : Dev nD, O₀ d) = (∑ d : Dev nD, ∑ r : Fin 7, (tallyAt (recvCell (fw d r) d) () N : CellTallies nD τ sig Unit))
      + ∑ d : Dev nD, ∑ r : Fin 7, (tallyAt (barCell (fw d r)) () 1 : CellTallies nD τ sig Unit) := by
    rw [← Finset.sum_add_distrib]; exact Finset.sum_congr rfl fun d _ => O₀_eq d
  have h2 : (∑ d : Dev nD, T₀ d) = (∑ d : Dev nD, ∑ r : Fin 7, (tallyAt (recvCell d (bk d r)) () N : CellTallies nD τ sig Unit))
      + ∑ d : Dev nD, ∑ r : Fin 7, (tallyAt (barCell d) () 1 : CellTallies nD τ sig Unit) := by
    rw [← Finset.sum_add_distrib]; rfl
  rw [h1, h2, Finset.sum_comm, Finset.sum_comm (s := (Finset.univ : Finset (Dev nD))) (t := (Finset.univ : Finset (Fin 7))) (f := fun d r => (tallyAt (barCell (fw d r)) () 1 : CellTallies nD τ sig Unit)),
    Finset.sum_congr rfl fun r _ => sum_recv r, Finset.sum_congr rfl fun r _ => sum_bar r, Finset.sum_comm,
    Finset.sum_comm (s := (Finset.univ : Finset (Fin 7))) (t := (Finset.univ : Finset (Dev nD))) (f := fun r d => (tallyAt (barCell d) () 1 : CellTallies nD τ sig Unit))]

theorem seven_units (g : GSem nD τ sig) : (∑ r : Fin 7, (tallyAt g () 1 : CellTallies nD τ sig Unit)) = tallyAt g () 7 := by
  funext g'
  ext
  rw [Finset.sum_apply, Finsupp.finsetSum_apply]
  simp only [tallyAt_apply, Finset.sum_const, Finset.card_univ, Fintype.card_fin, smul_eq_mul]
  split <;> simp

theorem creds (c : Dev nD) :
    (Pipeline.launchCred O₀ c : sProp 𝕄)
      ⊢ iprop(cred (tallyAt (barCell c) () 7) ∗ bigSep Finset.univ fun r : Fin 7 => cred (tallyAt (recvCell c (bk c r)) () N)) := by
  rw [Pipeline.launchCred_of_sum O₀ T₀ sum_O₀ (fun d g hg => ?_) c]
  · unfold T₀
    rw [seven_units, ← Pipeline.cred_finsetSum]
    iintro H
    ihave H' := (cred_add _ _).1 $$ H
    icases H' with ⟨H1, H2⟩
    isplitl [H2] <;> iassumption
  · by_contra hne
    apply hg
    unfold T₀
    rw [Pi.add_apply, Finset.sum_apply, Finset.sum_apply,
      Finset.sum_eq_zero fun r _ => tallyAt_ne_cell (fun h => hne (by rw [h])) () N,
      Finset.sum_eq_zero fun r _ => tallyAt_ne_cell (fun h => hne (by rw [h])) () 1, add_zero]

end Cert.Kernel.A2A

end
-- ==== Proof.A2AGhostW.lean ====
/-
  The proof data of the all-to-all: which invariants and tokens a device runs its kernel with, what it holds when the
  body starts and ends, and what the body leaves in its result: row block s of device c's result is the activation
  of the chunk device s made for c.
-/
import proofs.«900437_g7700000000000438_dist_gemm_a2a_m2048_k2048_n2048_f32_gelu_v7x_i8_1_alg».proof.Proof.A2AOwesW

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The cells, indexed: a device's sixteen own (scoped) cells — send t, receive s — and, with the barrier, all
    seventeen. -/

abbrev KO : Type := Bool × Dev nD
abbrev osem : KO → SemLoc sig := fun | (false, t) => .dma (sendS t) | (true, s) => .dma (recvS s)
abbrev KC : Type := Option KO
abbrev csem : KC → SemLoc sig := fun | none => .reg barS | some k => osem k
abbrev kcell (ck : Dev nD × KC) : GSem nD τ sig := ((ck.1 : Thread nD τ), csem ck.2)

/-- Every cell's invariant, at the names K the launch allocated them at, and that round 0 of each is reached. -/
def records (K : Dev nD × KC → ℕ) : sProp 𝕄 :=
  iprop((bigSep Finset.univ fun ck : Dev nD × KC => cellInv ER (sched m) (K ck) (kcell ck))
    ∗ bigSep Finset.univ fun ck : Dev nD × KC => reached ER (kcell ck) 0)

instance records_persistent (K : Dev nD × KC → ℕ) : BI.Persistent (records (F := F) m K) := by unfold records; infer_instance

/-- The tokens of the duties device c pays: to each peer its barrier unit and its landing, and its own departures. -/
def payToks (c : Dev nD) : sProp 𝕄 :=
  bigSep Finset.univ fun r : Fin 7 =>
    iprop(dutyTok ER (barCell (fw c r)) 0 c ∗ dutyTok ER (recvCell (fw c r) c) 0 c ∗ dutyTok ER (sendCell c (fw c r)) 0 c)

/-- What stays with device c alone: its position at round 0 of each of its cells, and the tokens it pays with. -/
def linear (c : Dev nD) : sProp 𝕄 :=
  iprop((bigSep Finset.univ fun k : KC => atPos ER (kcell (c, k)) 0 ∅ 0) ∗ payToks (F := F) c)

def ghost (K : Dev nD × KC → ℕ) (c : Dev nD) : sProp 𝕄 := iprop(records m K ∗ linear (F := F) c)

/-- What device c's body starts from beside its buffers: the ghost state at some names, the credit of its barrier's
    seven units and of a landing on each receive cell, and the level facts. -/
def start (c : Dev nD) : sProp 𝕄 :=
  iprop((∃ K, ghost m K c) ∗ cred (tallyAt (barCell c) () 7)
    ∗ (bigSep Finset.univ fun r : Fin 7 => cred (tallyAt (recvCell c (bk c r)) () N)) ∗ levAts L lv)

def yWhole (c : Dev nD) (f : Buf (Elt F) ((c : Thread nD τ).loc cc0_scratch0)) : sProp 𝕄 := ((c : Thread nD τ).loc cc0_scratch0) ↦{fullShare} f
def rWhole (c : Dev nD) (f : Buf (Elt F) ((c : Thread nD τ).loc cc0_scratch1)) : sProp 𝕄 := ((c : Thread nD τ).loc cc0_scratch1) ↦{fullShare} f

def Φ₀ (c : Dev nD) : sProp 𝕄 := iprop(start m c ∗ (∃ f, yWhole (F := F) c f) ∗ (∃ f, rWhole (F := F) c f))
/-- After the point: both scratch buffers whole again, the sixteen own cells at zero, closed. -/
def Φ₁ (c : Dev nD) : sProp 𝕄 :=
  iprop((∃ f, yWhole (F := F) c f) ∗ (∃ f, rWhole (F := F) c f) ∗ bigSep Finset.univ fun k : KO => semVal (kcell (c, some k)) 0)

/-! ## The result -/

/-- The activation of a chunk. -/
def gelu (v : Vec F S1x256x256 .bf16) : FVec F S256x256 .f32 := k0_pay11 v

/-- The row block an index of the result lies in, and its place inside the block. -/
def blkOf (i : S2048x256.Idx) : Dev nD :=
  ⟨(i 0).val / 256, by have h : (i 0).val < 2048 := (i 0).isLt; show (i 0).val / 256 < 8; omega⟩
def locOf (i : S2048x256.Idx) : S256x256.Idx := fun a => match a with
  | ⟨0, _⟩ => ⟨(i 0).val % 256, Nat.mod_lt _ (by decide)⟩
  | ⟨1, _⟩ => ⟨(i 1).val, (i 1).isLt⟩

/-- Device c's result: row block s holds the activation of the chunk device s made for c. -/
def outAt (c : Dev nD) : (cc0_stg2_0 : Ref sig .tc).ty.Contents (Elt F) :=
  fun (i : S2048x256.Idx) => gelu (chunkOf m (blkOf i) c) (locOf i)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.Kernel.A2A

end
-- ==== Proof.A2ALaunchW.lean ====
import proofs.«900437_g7700000000000438_dist_gemm_a2a_m2048_k2048_n2048_f32_gelu_v7x_i8_1_alg».proof.Proof.A2AGhostW

/-! The launch of the all-to-all: the element of the resource algebra the run starts from and how it
    is dealt; every cell's invariant allocated under one update for all devices; what each device's
    body starts from and what it hands back; and the run of @main from the body's obligation. -/

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m 0 c).share w = fullShare := by unfold Dat.share; split <;> rfl

/-! ### The cells and the duty tokens of the launch element -/

theorem csem_injective : Function.Injective (csem : KC → SemLoc sig) := by decide

theorem kcell_injective : Function.Injective (kcell : Dev nD × KC → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- Every device's seventeen cells. -/
def ringCells : Finset (GSem nD τ sig) := Finset.univ.map ⟨kcell, kcell_injective⟩

/-- The cells device p pays at offset r round the ring: peer fw p r's barrier, that peer's receive cell for
    p, and p's own send cell for that peer. -/
def tokCell (p : Dev nD) (r : Fin 7) : Fin 3 → GSem nD τ sig
  | 0 => barCell (fw p r) | 1 => recvCell (fw p r) p | 2 => sendCell p (fw p r)

/-- What tells those cells apart: the kind of semaphore and the device. -/
def tokCode (p : Dev nD) (r : Fin 7) : Fin 3 → CK × Dev nD
  | 0 => (.bar, fw p r) | 1 => (.recv p, fw p r) | 2 => (.send (fw p r), p)

theorem tokCode_eq (p : Dev nD) (r : Fin 7) (j : Fin 3) : (ck (tokCell p r j).2, (tokCell p r j).1.1) = tokCode p r j := by
  match j with
  | 0 => rfl
  | 1 => show (ck (.dma (recvS p)), fw p r) = _; rw [ck_recv]; rfl
  | 2 => show (ck (.dma (sendS (fw p r))), p) = _; rw [ck_send]; rfl

theorem tokCode_inj : ∀ (p : Dev nD) (r r' : Fin 7) (j j' : Fin 3), tokCode p r j = tokCode p r' j' → r = r' ∧ j = j' := by decide

/-- The duty tokens as minted, by payer: device p's three at each offset. Every duty's name is its payer. -/
abbrev tokOf (x : Dev nD × Fin 7 × Fin 3) : GSem nD τ sig × ℕ × Dev nD := (tokCell x.1 x.2.1 x.2.2, 0, x.1)

theorem tokOf_injective : Function.Injective (tokOf : Dev nD × Fin 7 × Fin 3 → GSem nD τ sig × ℕ × Dev nD) := by
  rintro ⟨p, r, j⟩ ⟨p', r', j'⟩ h
  have hp : p = p' := congrArg (fun x : GSem nD τ sig × ℕ × Dev nD => x.2.2) h
  subst hp
  have hc : tokCell p r j = tokCell p r' j' := congrArg (fun x : GSem nD τ sig × ℕ × Dev nD => x.1) h
  have hcode : tokCode p r j = tokCode p r' j' := by rw [← tokCode_eq, ← tokCode_eq, hc]
  obtain ⟨h1, h2⟩ := tokCode_inj p r r' j j' hcode
  subst h1; subst h2; rfl

def ringToks : Finset (GSem nD τ sig × ℕ × Dev nD) := Finset.univ.map ⟨tokOf, tokOf_injective⟩

def u₀ : UU :=
  (initOf (Pipeline.cells cfgs cellOf_inj) (Pipeline.launchToks cfgs cellOf_inj), initOf ringCells ringToks)

/-- What the launch element deals device c (the theorem's G): the round state, position and reached-mark of
    each of its seventeen cells, and the tokens it pays with. -/
def G (c : Dev nD) : sProp 𝕄 :=
  iprop((bigSep Finset.univ fun k : KC => roundState ER (sched m) (kcell (c, k)) 0)
    ∗ (bigSep Finset.univ fun k : KC => iprop(atPos ER (kcell (c, k)) 0 ∅ 0 ∗ reached ER (kcell (c, k)) 0)) ∗ payToks (F := F) c)

/-- What the global step makes of it (G'). -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : KC => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => payToks c := by
    unfold ringToks; rw [bigSep_map, bigSep_univ_prod]
    exact bigSep_congr fun c _ => by
      unfold payToks; rw [bigSep_univ_prod]
      exact bigSep_congr fun r _ => by rw [bigSep_fin3]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### Every cell's invariant, allocated for all devices under one update -/

/-- A device's sixteen own cells, listed. -/
def koList : List KO :=
  [(false, 0), (false, 1), (false, 2), (false, 3), (false, 4), (false, 5), (false, 6), (false, 7),
   (true, 0), (true, 1), (true, 2), (true, 3), (true, 4), (true, 5), (true, 6), (true, 7)]

omit [FloatOps F] in
/-- All seventeen: the barrier, then the sixteen own. -/
theorem bigSep_KC (Φ : KC → sProp 𝕄) : bigSep Finset.univ Φ = iprop(Φ none ∗ bigSep Finset.univ fun k : KO => Φ (some k)) := by
  rw [bigSep_univ_eq_bigSepL (none :: koList.map some) (by decide) (by decide) Φ,
    bigSep_univ_eq_bigSepL koList (by decide) (by decide) fun k : KO => Φ (some k)]
  rfl

omit [FloatOps F] in
/-- The send and receive semaphores are the kernel's own sixteen; -/
theorem ownSems0_eq (c : Dev nD) : (Pipeline.ownSems0 (Ix := Unit) (Name := ℕ) (U := UU) (Lvl := ℕ) (Val := Elt F) (τ := τ) osem c : sProp 𝕄)
    = bigSep Finset.univ fun k : KO => semVal (kcell (c, some k)) 0 := rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : KC => semVal (kcell (c, k)) 0 : sProp 𝕄) := by
  rw [ownSems0_eq, unscopedSems0_eq, bigSep_KC]
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : KC => iprop(∃ κ : ℕ, cellInv ER (sched m) κ (kcell (c, k))))
          ∗ (bigSep Finset.univ fun k : KC => iprop(atPos ER (kcell (c, k)) 0 ∅ 0 ∗ reached ER (kcell (c, k)) 0)) ∗ payToks (F := F) c) := by
  unfold G
  iintro ⟨Hos, Hus, Hst, Hat, Htok⟩
  ihave Hv := (sems0_eq (F := F) c) $$ [Hos Hus]
  · isplitl [Hos] <;> iassumption
  imod (show iprop((bigSep Finset.univ fun k : KC => semVal (kcell (c, k)) 0) ∗ bigSep Finset.univ fun k : KC => roundState ER (sched m) (kcell (c, k)) 0)
      ⊢ (|={Set.univ}=> bigSep Finset.univ fun k : KC => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × KC → ℕ) (c : Dev nD) : iprop(records m K ∗ linear (F := F) c) ⊢ G' m c := by
  unfold G' ghost
  iintro H
  iexists K
  iexact H

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : KC => iprop(∃ κ : ℕ, cellInv ER (sched m) κ (kcell (c, k))))
          ∗ (bigSep Finset.univ fun k : KC => iprop(atPos ER (kcell (c, k)) 0 ∅ 0 ∗ reached ER (kcell (c, k)) 0)) ∗ payToks (F := F) c) : sProp 𝕄)
      ⊢ bigSep Finset.univ (G' m) := by
  rw [bigSep_sep', bigSep_sep', ← bigSep_univ_prod (fun ck : Dev nD × KC => iprop(∃ κ : ℕ, cellInv ER (sched m) κ (kcell ck))),
    bigSep_congr (s := Finset.univ) (fun (c : Dev nD) _ => bigSep_sep' Finset.univ (fun k : KC => (atPos ER (kcell (c, k)) 0 ∅ 0 : sProp 𝕄)) (fun k => reached ER (kcell (c, k)) 0)),
    bigSep_sep', ← bigSep_univ_prod (fun ck : Dev nD × KC => (reached ER (kcell ck) 0 : sProp 𝕄))]
  iintro ⟨HI, ⟨Hat, #HR⟩, Htok⟩
  ihave HK := (BI.bigSep_exists_pi Finset.univ (fun (ck : Dev nD × KC) (κ : ℕ) => (cellInv ER (sched m) κ (kcell ck) : sProp 𝕄))) $$ HI
  icases HK with ⟨%K, #HI⟩
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : KC => (atPos ER (kcell (c, k)) 0 ∅ 0 : sProp 𝕄)) (payToks (F := F))).symm).trans
      (bigSep_mono fun c _ => show _ ⊢ linear c from Entails.of_eq (by unfold linear; rfl)))
    isplitl [Hat]; · iexact Hat
    iexact Htok

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ yWhole rWhole
  iintro ⟨Hs, -, ⟨%f, Hy⟩, ⟨%g, Hr⟩⟩
  isplitl [Hs]; · iexact Hs
  isplitl [Hy]
  · iexists f; iexact Hy
  · iexists g; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ (F := F) c from rfl, scopedRest0_eq, ownSems0_eq]
  unfold Φ₁ yWhole rWhole
  iintro ⟨Hy, Hr, Hz⟩
  isplitr; · iempintro
  isplitl [Hz]; · iexact Hz
  isplitl [Hy]; · iexact Hy
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> first | rfl | decide) _ (by
      rcases t with ⟨_ | _, ht⟩
      · exact Or.inl rfl
      · exact Or.inr rfl)

/-! ### The run -/

set_option maxRecDepth 8000 in
/-- At the compiled mesh of eight devices, for any float values, from any memory with zero counters: if each
    device's body meets its obligation, every weakly fair execution of @main terminates, and every final state has
    each windowed array of each device at what the proof data name for it after the last point. -/
theorem run_main (hbody : ∀ c, BodyObligation (dats (F := F) m 0 c) (defs₀ (F := F)) 𝒱₀ () Set.univ) :
    θ_run defs (onTc (τ := τ) (main (F := F))) ⟨m, fun _ => 0, ρ⟩
      (fun r => ∀ c : Dev nD, ∀ w : Fin cfg0.W, r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-! ### The arrays after the run -/

/-- The two input arrays hold what they held. -/
theorem final_x (c : Dev nD) : (dats m 0 c).arrAt 0 cfg0.N = m ((c : Thread nD τ).loc main_arg0) :=
  (dats (F := F) m 0 c).arrAt_in (0 : Fin 3) rfl _
theorem final_w (c : Dev nD) : (dats m 0 c).arrAt 1 cfg0.N = m ((c : Thread nD τ).loc main_arg1) :=
  (dats (F := F) m 0 c).arrAt_in (1 : Fin 3) rfl _

/-- The result window's one block is the whole array: read through it, contents are themselves. -/
theorem read_out_block (f : (main_v1 : Ref sig .tc).ty.Contents (Elt F)) :
    ((cfg0.win 2).blk t0_0).view.read (Elt F) f = f := by
  have hz' : (fun a => win0_2.index t0_0 a * (main_v1 : Ref sig .tc).ty.shape.size a) = fun _ => 0 :=
    funext fun a => by fin_cases a <;> decide
  exact Memref.read_access_unit_zero (Elt F) main_v1 hz' (fun a => by rw [congrFun hz' a]; simp) f

/-- The one point writes its block back, and the block is the array: the result array ends at what the body
    left in the staging buffer. -/
theorem final_out (c : Dev nD) : (dats m 0 c).arrAt 2 cfg0.N = outAt m c := by
  show (dats m 0 c).arrAt 2 ((t0_0 : Fin cfg0.N).val + 1) = _
  rw [(dats m 0 c).arrAt_succ 2 t0_0, if_pos (flush0_2 t0_0)]
  refine (read_out_block _).symm.trans ?_
  rw [View.read_write_univ]
  rfl

end Cert.Kernel.A2A

end
-- ==== Proof.A2ARunW.lean ====
import proofs.«900437_g7700000000000438_dist_gemm_a2a_m2048_k2048_n2048_f32_gelu_v7x_i8_1_alg».proof.Proof.A2ALaunchW

/-! The run of @main read at the three arrays: if every device's body meets its obligation, the kernel
    terminates with every device's result array at `outAt` — row block `s` the activation of the chunk device
    `s` made for it — and both argument arrays unchanged. -/

noncomputable section

namespace Cert.Kernel.A2A

open Cert.Kernel Cert.Kernel.Gen
open Idealize.ShloMosaic
open Idealize.ShloMosaic.TcCoe
open Idealize.SL.Sem
open Idealize.ShloMosaic.Pipeline (Dat Cfg Window BodyObligation cellOf)

variable {F : FTy → Type} [FloatOps F]

theorem kernel_run (hbody : ∀ (m : (ℓ : Loc nD τ sig) → Buf (Elt F) ℓ) (c : Dev nD), BodyObligation (dats (F := F) m 0 c) (defs₀ (F := F)) 𝒱₀ () Set.univ)
    (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono
    (fun _ h c => ⟨((h c) 2).trans (final_out m c), ((h c) 0).trans (final_x m c), ((h c) 1).trans (final_w m c)⟩)
    (run_main m ρ (hbody m))

end Cert.Kernel.A2A

end
-- ==== Proof.A2AClaimsW.lean ====
import proofs.«900437_g7700000000000438_dist_gemm_a2a_m2048_k2048_n2048_f32_gelu_v7x_i8_1_alg».proof.Defs
import proofs.«900437_g7700000000000438_dist_gemm_a2a_m2048_k2048_n2048_f32_gelu_v7x_i8_1_alg».proof.Proof.A2ARunW
import proofs.«900437_g7700000000000438_dist_gemm_a2a_m2048_k2048_n2048_f32_gelu_v7x_i8_1_alg».proof.Proof.Gen.Pre_finite_inputs_Kernel

/-! The frame of the kernel as printed, at the word-level values: the same run as the idealized kernel's, read
    at the two argument arrays. -/

noncomputable section

namespace Cert.Kernel.A2AClaims

open Cert.Kernel Cert.Kernel.Gen Cert.Kernel.A2A
open Idealize.ShloMosaic
open Idealize.ShloMosaic.TcCoe
open Idealize.SL.Sem
open Idealize.ShloMosaic.Pipeline (Dat Cfg Window BodyObligation cellOf)

theorem frame_Kernel (hbody : ∀ (m : (ℓ : Loc nD τ sig) → Buf (Elt Bits) ℓ) (c : Dev nD), BodyObligation (dats (F := Bits) m 0 c) (defs₀ (F := Bits)) 𝒱₀ () Set.univ) :
    Cert.frame_Kernel :=
  fun m g _ => (θ_run defs _ _).mono (fun _ h c => (h c).2) (kernel_run hbody m g)

end Cert.Kernel.A2AClaims

end
-- ==== Proof.LibCanonPieces.lean ====
/-
  Reading the canonical contents of a list of writes piece by piece.

  The canon of a list of pieces (last write first) is, at an index, the payload of the first piece of the list whose
  rectangle holds the index. When the pieces are the images `f j` of a list of labels and rectangles of distinct
  labels are disjoint, the canon at the k-th place of the rectangle of a listed label j is the payload of `f j` at k:
  no earlier piece of the list holds that index. This is what a buffer filled by several stores into disjoint slabs
  holds, slab by slab.
-/
import Idealize.ShloMosaic.Lib.Pipeline.FrameBody

noncomputable section

namespace Idealize.ShloMosaic.View

variable {Val : EltTy → Type} [∀ e, Nonempty (Val e)] {s : Shape} {e : EltTy} {ι : Type}

/-- The canon of the pieces `f j`, j through a list, at the place `k` of the rectangle of a listed label `j`, is
    `f j`'s payload at `k`, when rectangles of distinct labels are disjoint. -/
theorem canon_map_of_disjoint (f : ι → Piece Val s e)
    (hdis : ∀ a b, a ≠ b → Disjoint (f a).1.set (f b).1.set) :
    ∀ (l : List ι) (j : ι), j ∈ l → ∀ k : (f j).1.shape.Idx, canon (l.map f) ((f j).1.emb k) = (f j).2 k
  | [], j, h, _ => absurd h (List.not_mem_nil)
  | a :: l, j, h, k => by
    rw [List.map_cons]
    by_cases hja : j = a
    · subst hja
      exact canon_cons_emb (f j).1 (f j).2 (l.map f) k
    · have hjl : j ∈ l := (List.mem_cons.mp h).resolve_left hja
      have hnm : (f j).1.emb k ∉ (f a).1.set := fun hm =>
        Finset.disjoint_left.mp (hdis j a hja) ((f j).1.toLoadRect.idx_mem k) hm
      rw [canon_cons_of_not_mem (f a) (l.map f) hnm]
      exact canon_map_of_disjoint f hdis l j hjl k

end Idealize.ShloMosaic.View

end
-- ==== Proof.A2ASteps.lean ====
/-
  The pieces of one device's run of the all-to-all body: what a copy lands, the slots of the two scratch buffers, the
  steps of the protocol at a symbolic place of the ring, and what the chunk buffer and the result hold after their
  stores.
-/
import proofs.«900437_g7700000000000438_dist_gemm_a2a_m2048_k2048_n2048_f32_gelu_v7x_i8_1_alg».proof.Proof.A2AGhost
import proofs.«900437_g7700000000000438_dist_gemm_a2a_m2048_k2048_n2048_f32_gelu_v7x_i8_1_alg».proof.Proof.LibCanonPieces

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Slots as the body's memrefs name them -/

/-- What a copy lands, read back at the landing slot, is the source slot as it stood. -/
theorem copy_read {c c' : Dev nD} (off1 off2 : Fin 3 → Nat) (p1 : ∀ a, off1 a + S1x256x256.size a ≤ S8x256x256.size a) (p2 : ∀ a, off2 a + S1x256x256.size a ≤ S8x256x256.size a)
    (fs : Buf (Elt F) ((c : Thread nD τ).loc cc0_scratch0)) (fd : Buf (Elt F) ((c' : Thread nD τ).loc cc0_scratch1)) :
    rM.view.readAt (Elt F) (Rect.unit (s := S8x256x256) off2 S1x256x256.size p2).toLoadRect
      ((((rM.slice (Rect.unit (s := S8x256x256) off2 S1x256x256.size p2) (fun _ => rfl)).squeeze S256x256 squeezes_S1x256x256_S256x256 : Memref sig .tc .vmem S256x256 .bf16).view).write (Elt F) fd
        (((yM.slice (Rect.unit (s := S8x256x256) off1 S1x256x256.size p1) (fun _ => rfl)).squeeze S256x256 squeezes_S1x256x256_S256x256 : Memref sig .tc .vmem S256x256 .bf16).view.read (Elt F) fs) Finset.univ)
    = yM.view.readAt (Elt F) (Rect.unit (s := S8x256x256) off1 S1x256x256.size p1).toLoadRect fs := by
  funext x
  unfold View.readAt
  simp only [Memref.view_whole, View.read_whole]
  have e2 : (Rect.unit (s := S8x256x256) off2 S1x256x256.size p2).idx x
      = (((View.whole cc0_scratch1 : View sig .tc _ _ _).slice (Rect.unit off2 S1x256x256.size p2)).reshape S256x256 squeezes_S1x256x256_S256x256.numel_eq).emb
          ((Shape.reshapeEquiv squeezes_S1x256x256_S256x256.numel_eq).symm x) := by
    simp [View.emb_reshape, View.emb_slice]; rfl
  rw [e2, View.write_emb_of_mem _ _ (Finset.mem_univ _), View.read_apply]
  simp [View.emb_reshape, View.emb_slice]
  rfl

/-- The same at slots named by device numbers. -/
theorem copy_read_slots {c c' : Dev nD} (off1 off2 : Fin 3 → Nat) (p1 : ∀ a, off1 a + S1x256x256.size a ≤ S8x256x256.size a) (p2 : ∀ a, off2 a + S1x256x256.size a ≤ S8x256x256.size a)
    (j1 j2 : Dev nD) (h1 : off1 = ![j1.val, 0, 0]) (h2 : off2 = ![j2.val, 0, 0])
    (fs : Buf (Elt F) ((c : Thread nD τ).loc cc0_scratch0)) (fd : Buf (Elt F) ((c' : Thread nD τ).loc cc0_scratch1)) :
    rM.view.readAt (Elt F) (slotR j2).toLoadRect
      ((((rM.slice (Rect.unit (s := S8x256x256) off2 S1x256x256.size p2) (fun _ => rfl)).squeeze S256x256 squeezes_S1x256x256_S256x256 : Memref sig .tc .vmem S256x256 .bf16).view).write (Elt F) fd
        (((yM.slice (Rect.unit (s := S8x256x256) off1 S1x256x256.size p1) (fun _ => rfl)).squeeze S256x256 squeezes_S1x256x256_S256x256 : Memref sig .tc .vmem S256x256 .bf16).view.read (Elt F) fs) Finset.univ)
    = yM.view.readAt (Elt F) (slotR j1).toLoadRect fs := by
  subst h1 h2
  exact copy_read _ _ p1 p2 fs fd

/-- A squeezed slot's elements are the slot's. -/
theorem ySlot_set (off : Fin 3 → Nat) (p : ∀ a, off a + S1x256x256.size a ≤ S8x256x256.size a) (j : Dev nD) (h : off = ![j.val, 0, 0]) :
    ((yM.slice (Rect.unit (s := S8x256x256) off S1x256x256.size p) (fun _ => rfl)).squeeze S256x256 squeezes_S1x256x256_S256x256 : Memref sig .tc .vmem S256x256 .bf16).view.set = (slotR j).set := by
  subst h
  simp only [Memref.view_squeeze, Memref.view_slice, View.set_reshape, Memref.view_whole, View.set_slice_whole]
  rfl
theorem rSlot_set (off : Fin 3 → Nat) (p : ∀ a, off a + S1x256x256.size a ≤ S8x256x256.size a) (j : Dev nD) (h : off = ![j.val, 0, 0]) :
    ((rM.slice (Rect.unit (s := S8x256x256) off S1x256x256.size p) (fun _ => rfl)).squeeze S256x256 squeezes_S1x256x256_S256x256 : Memref sig .tc .vmem S256x256 .bf16).view.set = (slotR j).set := by
  subst h
  simp only [Memref.view_squeeze, Memref.view_slice, View.set_reshape, Memref.view_whole, View.set_slice_whole]
  rfl

/-- The r-th copy's source (slot c + r + 1 of the chunk buffer) and every copy's destination (slot c of the peer's
    landing buffer), as the body spells them. -/
abbrev srcP (c : Dev nD) (r : Fin 7) : Memref sig .tc .vmem S256x256 .bf16 :=
  (yM.slice (Rect.unit (s := S8x256x256) (k0_off4 c (BitVec.ofNat 32 (1 + r.val))) S1x256x256.size (k0_off4_inb c r)) (fun _ => rfl)).squeeze S256x256 squeezes_S1x256x256_S256x256
abbrev dstP (c : Dev nD) : Memref sig .tc .vmem S256x256 .bf16 :=
  (rM.slice (Rect.unit (s := S8x256x256) (k0_off3 c) S1x256x256.size (k0_off3_inb c)) (fun _ => rfl)).squeeze S256x256 squeezes_S1x256x256_S256x256

theorem off4_fw (c : Dev nD) (r : Fin 7) : k0_off4 c (BitVec.ofNat 32 (1 + r.val)) = ![(fw c r).val, 0, 0] := k0_off4_eq c r
theorem off3_self (c : Dev nD) : k0_off3 c = ![c.val, 0, 0] := k0_off3_eq c
theorem off5_self (c : Dev nD) : k0_off5 c = ![c.val, 0, 0] := k0_off5_eq c
theorem off8_bk (c : Dev nD) (r : Fin 7) : k0_off8 c (BitVec.ofNat 32 (1 + r.val)) = ![(bk c r).val, 0, 0] := k0_off8_eq c r
theorem off9_bk (c : Dev nD) (r : Fin 7) : k0_off9 c (BitVec.ofNat 32 (1 + r.val)) = ![(bk c r).val, 0, 0] := k0_off9_eq c r

theorem srcP_set (c : Dev nD) (r : Fin 7) : (srcP c r).view.set = (slotR (fw c r)).set := ySlot_set _ _ _ (off4_fw c r)
theorem dstP_set (c : Dev nD) : (dstP c).view.set = (slotR c).set := rSlot_set _ _ _ (off3_self c)

/-! ## Round the ring, one by one -/

theorem bigSep_ring_fw (c : Dev nD) {M : Type} [URA M] (Φ : Dev nD → sProp M) :
    bigSep Finset.univ Φ = iprop(Φ c ∗ Φ (fw c 0) ∗ Φ (fw c 1) ∗ Φ (fw c 2) ∗ Φ (fw c 3) ∗ Φ (fw c 4) ∗ Φ (fw c 5) ∗ Φ (fw c 6)) := by
  rw [bigSep_univ_at _ c, erase_eq_map, bigSep_map, bigSep_fin7]; rfl
theorem bigSep_ring_bk (c : Dev nD) {M : Type} [URA M] (Φ : Dev nD → sProp M) :
    bigSep Finset.univ Φ = iprop(Φ c ∗ Φ (bk c 0) ∗ Φ (bk c 1) ∗ Φ (bk c 2) ∗ Φ (bk c 3) ∗ Φ (bk c 4) ∗ Φ (bk c 5) ∗ Φ (bk c 6)) := by
  rw [bigSep_univ_at _ c, erase_eq_map_bk, bigSep_map, bigSep_fin7]; rfl

theorem univ_KC3 : (Finset.univ : Finset KC) = insert none (Finset.univ.map (Function.Embedding.some : KO ↪ KC)) := by decide
theorem bigSep_cells3 {M : Type} [URA M] (Φ : KC → sProp M) :
    bigSep Finset.univ Φ = iprop(Φ none ∗ (bigSep Finset.univ fun t : Dev nD => Φ (some (false, t))) ∗ bigSep Finset.univ fun s : Dev nD => Φ (some (true, s))) := by
  rw [univ_KC3, bigSep_insert (by decide), bigSep_map, bigSep_univ_prod, bigSep_univ_eq_bigSepL [false, true] (by decide) (by decide), bigSepL_cons_cons, bigSepL_singleton]
  rfl

/-! ## The steps of the protocol, each at a symbolic place r of the ring -/

/-- The r-th barrier unit, to device c + r + 1: with it goes the slot of c's landing buffer that device will write. -/
theorem sig_step (K : Dev nD × KC → ℕ) (c n : Dev nD) (r : Fin 7) (hn : n = fw c r) {k' : ℕ} (hk' : 1 = k')
    {α : Type} {Q : α → sProp 𝕄} {k : PUnit → Prog (TpuEff nD τ sig (Elt F) Λ₀ .tc) α}
    (f : Buf (Elt F) ((c : Thread nD τ).loc cc0_scratch1)) (W : Waits sig Unit) :
    iprop(cellInv ER (sched m) (K (fw c r, none)) (barCell (fw c r)) ∗ owes (c : Thread nD τ) (Ocp c 0 + Osig c r.val) W
        ∗ dutyTok ER (barCell (fw c r)) 0 c ∗ rPts c (fw c r) f ∗ reached ER (barCell (fw c r)) 0)
      ⊢ iprop((owes (c : Thread nD τ) (Ocp c 0 + Osig c (r.val + 1)) W -∗ wp frame (wpE' (defs₀ (F := F)) 𝒱₀ (c : Thread nD τ) none PendingWaitsCtx.empty) Set.univ (k ⟨⟩) Q)
          -∗ wp frame (wpE' (defs₀ (F := F)) 𝒱₀ (c : Thread nD τ) none PendingWaitsCtx.empty) Set.univ (.op (.semSignal (n : Thread nD τ) barS k') k) Q) := by
  subst hn; subst hk'
  refine (sep_mono_right (sep_mono_right (sep_mono_right (sep_mono_left ?_)))).trans
    (Rounds.wp_signal 𝒱₀ ER (sched m) (c : Thread nD τ) none (dst := (fw c r : Thread nD τ)) (κ := K (fw c r, none)) (d := c)
      (by rw [duties_bar]; exact Finset.mem_erase.mpr ⟨ne_fw c r, Finset.mem_univ _⟩) (amount_bar m (fw c r) c) () (Ocp c 0 + Osig c (r.val + 1))
      (by rw [Osig_step c r, add_assoc]))
  rw [payload_bar]; unfold barPay
  iintro H; iexists f; iexact H

/-- The barrier wait for all seven units: every peer's slot for this device comes with it. -/
theorem bar_wait_step (K : Dev nD × KC → ℕ) (c : Dev nD) {k' : ℕ} (hk' : 7 = k')
    {α : Type} {Q : α → sProp 𝕄} {k : PUnit → Prog (TpuEff nD τ sig (Elt F) Λ₀ .tc) α} (W : Waits sig Unit) :
    iprop(cellInv ER (sched m) (K (c, none)) (barCell c) ∗ cred (tallyAt (barCell c) () 7) ∗ owes (c : Thread nD τ) (Ocp c 0 + Osig c 7) W
        ∗ levAts L lv ∗ atPos ER (barCell c) 0 ∅ 0)
      ⊢ iprop(((owes (c : Thread nD τ) (Ocp c 0 + Osig c 7) (insert (SemLoc.reg barS, ()) W) ∗ atPos ER (barCell c) 1 ∅ 0
              ∗ (barPay (F := F) (fw c 0) c ∗ barPay (F := F) (fw c 1) c ∗ barPay (F := F) (fw c 2) c ∗ barPay (F := F) (fw c 3) c ∗ barPay (F := F) (fw c 4) c ∗ barPay (F := F) (fw c 5) c ∗ barPay (F := F) (fw c 6) c))
            -∗ wp frame (wpE' (defs₀ (F := F)) 𝒱₀ (c : Thread nD τ) none PendingWaitsCtx.empty) Set.univ (k ⟨⟩) Q)
          -∗ wp frame (wpE' (defs₀ (F := F)) 𝒱₀ (c : Thread nD τ) none PendingWaitsCtx.empty) Set.univ (.op (.semWait barS k') k) Q) := by
  subst hk'
  iintro ⟨#HI, Hc, HO, #Hlev, Hat⟩ Hk
  iapply (Rounds.wp_wait_rest_token 𝒱₀ ER (sched m) (c : Thread nD τ) none (κ := K (c, none))
      (wpE_semWait_eq 𝒱₀ (c : Thread nD τ) none Set.univ) (Set.mem_univ _) () (O := Ocp c 0 + Osig c 7) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  iapply Hk
  isplitl [HO]; · iexact HO
  isplitl [Hat]; · iexact Hat
  iapply (Entails.of_eq (rest_bar m c)); iexact Hpay

/-- The r-th copy: chunk c + r + 1 leaves for slot c of that device's landing buffer. -/
theorem send_step (K : Dev nD × KC → ℕ) (c n : Dev nD) (r : Fin 7) (hn : n = fw c r)
    {hsc : (dstP c : Memref sig (Dev.tc n : Thread nD τ).2.kind .vmem S256x256 .bf16).view.ref.isScScratch = false}
    {hsrc : (srcP c r).view.WordExact} {hdst : (dstP c).view.WordExact}
    {hsem : DmaTarget.Typed .vmem (.dma (recvS c)) (.remote (Dev.tc n : Thread nD τ) (dstP c) (.dma (sendS (fw c r))) hsc)}
    {α : Type} {Q : α → sProp 𝕄} {k : PUnit → Prog (TpuEff nD τ sig (Elt F) Λ₀ .tc) α}
    (fs : Buf (Elt F) ((c : Thread nD τ).loc cc0_scratch0)) (fd : Buf (Elt F) ((fw c r : Thread nD τ).loc cc0_scratch1))
    (W : Waits sig Unit)
    (hfs : yM.view.readAt (Elt F) (slotR (fw c r)).toLoadRect fs = chunkOf m c (fw c r)) :
    iprop(cellInv ER (sched m) (K (c, some (false, fw c r))) (sendCell c (fw c r)) ∗ cellInv ER (sched m) (K (fw c r, some (true, c))) (recvCell (fw c r) c)
        ∗ yPts c (fw c r) fs ∗ rPts (fw c r) c fd
        ∗ owes (c : Thread nD τ) (Ocp c r.val) W
        ∗ dutyTok ER (sendCell c (fw c r)) 0 c ∗ reached ER (sendCell c (fw c r)) 0
        ∗ dutyTok ER (recvCell (fw c r) c) 0 c ∗ reached ER (recvCell (fw c r) c) 0)
      ⊢ iprop(((cred (tallyAt (sendCell c (fw c r)) () N) ∗ owes (c : Thread nD τ) (Ocp c (r.val + 1)) W)
            -∗ wp frame (wpE' (defs₀ (F := F)) 𝒱₀ (c : Thread nD τ) none PendingWaitsCtx.empty) Set.univ (k ⟨⟩) Q)
          -∗ wp frame (wpE' (defs₀ (F := F)) 𝒱₀ (c : Thread nD τ) none PendingWaitsCtx.empty) Set.univ
              (.op (.enqueueDma (srcP c r) (.remote (Dev.tc n : Thread nD τ) (dstP c) (.dma (sendS (fw c r))) hsc) (.dma (recvS c)) hsrc hdst hsem) k) Q) := by
  subst hn
  unfold yPts rPts
  rw [← srcP_set c r, ← dstP_set c]
  exact Rounds.wp_send_pointsTo 𝒱₀ ER (sched m) (c : Thread nD τ) none (κ₁ := K (c, some (false, fw c r))) (κ₂ := K (fw c r, some (true, c)))
    (r₁ := 0) (r₂ := 0) (d₁ := c) (d₂ := c) (fs := fs) (fd := fd) (src := srcP c r) (dst := dstP c) (q := fullShare) (c' := (fw c r : Thread nD τ))
    (by rw [duties_send m c _ (fw_ne c r)]; exact Finset.mem_singleton_self _) (by rw [duties_recv m (fw c r) c (ne_fw c r)]; exact Finset.mem_singleton_self _)
    () () N rfl (amount_send m c _ c) (amount_recv m _ c c) (Ocp c (r.val + 1)) (Ocp_step c r) (W := W)
    (by rw [payload_send, srcP_set]; unfold sendPay yPts; iintro H; iexists fs; iexact H)
    (by
      rw [payload_recv, dstP_set]; unfold recvPay rPts
      iintro H; iexists _
      isplitr
      · ipureintro
        exact (copy_read_slots _ _ (k0_off4_inb c r) (k0_off3_inb c) (fw c r) c (off4_fw c r) (off3_self c) fs fd).trans hfs
      · iexact H)

/-- The wait for peer c + 7 - r's landing: its chunk for this device, in its slot. -/
theorem recv_wait_step (K : Dev nD × KC → ℕ) (c : Dev nD) (r : Fin 7)
    {sp' : Space} {s' : Shape} {e' : EltTy} {src : Memref sig Kind.tc sp' s' e'} {κ' : Kind} {sp : Space} {s : Shape} {e : EltTy} {dst : Memref sig κ' sp s e}
    {hsrc : src.view.WordExact} {hdst : dst.view.WordExact} (hN : dst.view.dmaCredit = N)
    {α : Type} {Q : α → sProp 𝕄} {k : PUnit → Prog (TpuEff nD τ sig (Elt F) Λ₀ .tc) α} (O : CellTallies nD τ sig Unit) (hO : O = 0) (W : Waits sig Unit) :
    iprop(cellInv ER (sched m) (K (c, some (true, bk c r))) (recvCell c (bk c r)) ∗ cred (tallyAt (recvCell c (bk c r)) () N)
        ∗ owes (c : Thread nD τ) O W ∗ atPos ER (recvCell c (bk c r)) 0 ∅ 0)
      ⊢ iprop(((owes (c : Thread nD τ) 0 (insert (SemLoc.dma (recvS (bk c r)), ()) W) ∗ atPos ER (recvCell c (bk c r)) 1 ∅ 0 ∗ recvPay m c (bk c r))
            -∗ wp frame (wpE' (defs₀ (F := F)) 𝒱₀ (c : Thread nD τ) none PendingWaitsCtx.empty) Set.univ (k ⟨⟩) Q)
          -∗ wp frame (wpE' (defs₀ (F := F)) 𝒱₀ (c : Thread nD τ) none PendingWaitsCtx.empty) Set.univ (.op (.waitDma2 (recvS (bk c r)) src dst hsrc hdst) k) Q) := by
  subst hO
  iintro ⟨#HI, Hc, HO, Hat⟩ Hk
  iapply (Rounds.wp_wait_rest_token 𝒱₀ ER (sched m) (c : Thread nD τ) none (κ := K (c, some (true, bk c r)))
      (wpE_waitDma2_eq 𝒱₀ (c : Thread nD τ) none Set.univ) (Set.mem_univ _) () (O := 0) (W := W) (R := 0) (m := 0) (T := ∅)
      (by rw [Nat.zero_add, hN, expect_recv m c _ (bk_ne c r)])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_recv m c _ (bk_ne c r))); iexact Hpay

/-- The wait for the departure of chunk c + r + 1: its slot whole again. -/
theorem send_wait_step (K : Dev nD × KC → ℕ) (c : Dev nD) (r : Fin 7)
    {sp' : Space} {s' : Shape} {e' : EltTy} {src : Memref sig Kind.tc sp' s' e'} {κ' : Kind} {sp : Space} {s : Shape} {e : EltTy} {dst : Memref sig κ' sp s e}
    {hsrc : src.view.WordExact} {hdst : dst.view.WordExact} (hN : dst.view.dmaCredit = N)
    {α : Type} {Q : α → sProp 𝕄} {k : PUnit → Prog (TpuEff nD τ sig (Elt F) Λ₀ .tc) α} (O : CellTallies nD τ sig Unit) (hO : O = 0) (W : Waits sig Unit) :
    iprop(cellInv ER (sched m) (K (c, some (false, fw c r))) (sendCell c (fw c r)) ∗ cred (tallyAt (sendCell c (fw c r)) () N)
        ∗ owes (c : Thread nD τ) O W ∗ atPos ER (sendCell c (fw c r)) 0 ∅ 0)
      ⊢ iprop(((owes (c : Thread nD τ) 0 (insert (SemLoc.dma (sendS (fw c r)), ()) W) ∗ atPos ER (sendCell c (fw c r)) 1 ∅ 0 ∗ sendPay (F := F) c (fw c r))
            -∗ wp frame (wpE' (defs₀ (F := F)) 𝒱₀ (c : Thread nD τ) none PendingWaitsCtx.empty) Set.univ (k ⟨⟩) Q)
          -∗ wp frame (wpE' (defs₀ (F := F)) 𝒱₀ (c : Thread nD τ) none PendingWaitsCtx.empty) Set.univ (.op (.waitDma2 (sendS (fw c r)) src dst hsrc hdst) k) Q) := by
  subst hO
  iintro ⟨#HI, Hc, HO, Hat⟩ Hk
  iapply (Rounds.wp_wait_rest_token 𝒱₀ ER (sched m) (c : Thread nD τ) none (κ := K (c, some (false, fw c r)))
      (wpE_waitDma2_eq 𝒱₀ (c : Thread nD τ) none Set.univ) (Set.mem_univ _) () (O := 0) (W := W) (R := 0) (m := 0) (T := ∅)
      (by rw [Nat.zero_add, hN, expect_send m c _ (fw_ne c r)])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_send m c _ (fw_ne c r))); iexact Hpay

/-! ## The scratch buffers by slots -/

theorem slots_disjoint : ∀ j ∈ (Finset.univ : Finset (Dev nD)), ∀ j' ∈ (Finset.univ : Finset (Dev nD)), j ≠ j' → Disjoint (slotR j).set (slotR j').set := by
  intro j _ j' _ h
  unfold slotR
  refine Rect.unit_disjoint (0 : Fin 3) ?_
  have : j.val ≠ j'.val := fun e => h (Fin.ext e)
  show j.val + 1 ≤ j'.val ∨ j'.val + 1 ≤ j.val
  omega

theorem slots_cover : (Finset.univ : Finset (Dev nD)).biUnion (fun j => (slotR j).set) = Finset.univ := by
  ext i
  simp only [Finset.mem_biUnion, Finset.mem_univ, true_and, iff_true]
  refine ⟨⟨(i 0).val, (i 0).isLt⟩, ?_⟩
  unfold slotR; rw [Rect.mem_set_unit]
  intro a
  have h1 : (i 1).val < 256 := (i 1).isLt
  have h2 : (i 2).val < 256 := (i 2).isLt
  fin_cases a
  · exact ⟨Nat.le_refl _, Nat.lt_succ_self _⟩
  · exact ⟨Nat.zero_le _, by show (i 1).val < 0 + 256; omega⟩
  · exact ⟨Nat.zero_le _, by show (i 2).val < 0 + 256; omega⟩

theorem split_slots {ℓ : Loc nD τ sig} (Ks : Dev nD → Finset (Idx ℓ))
    (hd : ∀ j ∈ (Finset.univ : Finset (Dev nD)), ∀ j' ∈ (Finset.univ : Finset (Dev nD)), j ≠ j' → Disjoint (Ks j) (Ks j'))
    (hc : (Finset.univ : Finset (Dev nD)).biUnion Ks = Finset.univ) (f : Buf (Elt F) ℓ) :
    (ℓ ↦{fullShare} f : sProp 𝕄) = bigSep Finset.univ fun j : Dev nD => (ℓ ↦[Ks j]{fullShare} f : sProp 𝕄) := by
  have h : ((ℓ ↦[(Finset.univ : Finset (Dev nD)).biUnion Ks]{fullShare} f : sProp 𝕄) = _) := pointsTo_biUnion Finset.univ Ks hd
  rw [hc] at h
  exact h

theorem yWhole_split (c : Dev nD) (f : Buf (Elt F) ((c : Thread nD τ).loc cc0_scratch0)) :
    ((((c : Thread nD τ).loc cc0_scratch0) ↦{fullShare} f : sProp 𝕄)) = bigSep Finset.univ fun j : Dev nD => yPts c j f :=
  split_slots (ℓ := (c : Thread nD τ).loc cc0_scratch0) (fun j => (slotR j).set) slots_disjoint slots_cover f
theorem rWhole_split (c : Dev nD) (f : Buf (Elt F) ((c : Thread nD τ).loc cc0_scratch1)) :
    ((((c : Thread nD τ).loc cc0_scratch1) ↦{fullShare} f : sProp 𝕄)) = bigSep Finset.univ fun j : Dev nD => rPts c j f :=
  split_slots (ℓ := (c : Thread nD τ).loc cc0_scratch1) (fun j => (slotR j).set) slots_disjoint slots_cover f

/-! ## The devices the body addresses -/

theorem dev1_eq (c : Dev nD) : (⟨k0_dev1 c, k0_dev1_lt c⟩ : Dev nD) = fw c 0 := Fin.ext (k0_dev1_eq c)
theorem dev2_eq (c : Dev nD) : (⟨k0_dev2 c, k0_dev2_lt c⟩ : Dev nD) = fw c 1 := Fin.ext (k0_dev2_eq c)
theorem dev3_eq (c : Dev nD) : (⟨k0_dev3 c, k0_dev3_lt c⟩ : Dev nD) = fw c 2 := Fin.ext (k0_dev3_eq c)
theorem dev4_eq (c : Dev nD) : (⟨k0_dev4 c, k0_dev4_lt c⟩ : Dev nD) = fw c 3 := Fin.ext (k0_dev4_eq c)
theorem dev5_eq (c : Dev nD) : (⟨k0_dev5 c, k0_dev5_lt c⟩ : Dev nD) = fw c 4 := Fin.ext (k0_dev5_eq c)
theorem dev6_eq (c : Dev nD) : (⟨k0_dev6 c, k0_dev6_lt c⟩ : Dev nD) = fw c 5 := Fin.ext (k0_dev6_eq c)
theorem dev7_eq (c : Dev nD) : (⟨k0_dev7 c, k0_dev7_lt c⟩ : Dev nD) = fw c 6 := Fin.ext (k0_dev7_eq c)
theorem dev8_eq (c : Dev nD) : (⟨k0_dev8 c, k0_dev8_lt c⟩ : Dev nD) = fw c 0 := Fin.ext (k0_dev8_eq c)
theorem dev9_eq (c : Dev nD) : (⟨k0_dev9 c, k0_dev9_lt c⟩ : Dev nD) = fw c 1 := Fin.ext (k0_dev9_eq c)
theorem dev10_eq (c : Dev nD) : (⟨k0_dev10 c, k0_dev10_lt c⟩ : Dev nD) = fw c 2 := Fin.ext (k0_dev10_eq c)
theorem dev11_eq (c : Dev nD) : (⟨k0_dev11 c, k0_dev11_lt c⟩ : Dev nD) = fw c 3 := Fin.ext (k0_dev11_eq c)
theorem dev12_eq (c : Dev nD) : (⟨k0_dev12 c, k0_dev12_lt c⟩ : Dev nD) = fw c 4 := Fin.ext (k0_dev12_eq c)
theorem dev13_eq (c : Dev nD) : (⟨k0_dev13 c, k0_dev13_lt c⟩ : Dev nD) = fw c 5 := Fin.ext (k0_dev13_eq c)
theorem dev14_eq (c : Dev nD) : (⟨k0_dev14 c, k0_dev14_lt c⟩ : Dev nD) = fw c 6 := Fin.ext (k0_dev14_eq c)

theorem inv_at0 (K : Dev nD × KC → ℕ) (ck : Dev nD × KC) :
    (bigSep Finset.univ fun ck : Dev nD × KC => (cellInv ER (sched m) (K ck) (kcell ck) : sProp 𝕄)) ⊢ cellInv ER (sched m) (K ck) (kcell ck) :=
  bigSep_elim (Finset.mem_univ ck)
theorem reached_at0 (ck : Dev nD × KC) :
    (bigSep Finset.univ fun ck : Dev nD × KC => (reached ER (kcell ck) 0 : sProp 𝕄)) ⊢ reached ER (kcell ck) 0 :=
  bigSep_elim (Finset.mem_univ ck)
theorem inv_at (K : Dev nD × KC → ℕ) (ck : Dev nD × KC) : (records (F := F) m K) ⊢ cellInv ER (sched m) (K ck) (kcell ck) := by
  unfold records; iintro ⟨H, -⟩
  iapply (inv_at0 m K ck); iexact H
theorem reached_at (K : Dev nD × KC → ℕ) (ck : Dev nD × KC) : (records (F := F) m K) ⊢ reached ER (kcell ck) 0 := by
  unfold records; iintro ⟨-, H⟩
  iapply (reached_at0 (F := F) ck); iexact H

/-! ## What the scratch buffers and the result hold -/

theorem hz2 : (![0, 0] : Fin 2 → Nat) = fun _ => 0 := funext fun a => by fin_cases a <;> rfl
theorem read_x (f : (cc0_stg0_0 : Ref sig .tc).ty.Contents (Elt F)) :
    (Memref.whole cc0_stg0_0 : Memref sig .tc .vmem S256x2048 .f32).view.readAt (Elt F) (Rect.unit (s := S256x2048) ![0, 0] S256x2048.size inb_S256x2048_S256x2048_0_0).toLoadRect f = f :=
  Memref.readAt_unit_zero (Elt F) cc0_stg0_0 hz2 _ f
theorem read_w (f : (cc0_stg1_0 : Ref sig .tc).ty.Contents (Elt F)) :
    (Memref.whole cc0_stg1_0 : Memref sig .tc .vmem S2048x2048 .f32).view.readAt (Elt F) (Rect.unit (s := S2048x2048) ![0, 0] S2048x2048.size inb_S2048x2048_S2048x2048_0_0).toLoadRect f = f :=
  Memref.readAt_unit_zero (Elt F) cc0_stg1_0 hz2 _ f

/-- The eight stores of the product's chunks, last first. -/
def yPiece (x : Vec F S256x2048 .f32) (w : Vec F S2048x2048 .f32) (j : Dev nD) : View.Piece (Elt F) S8x256x256 .bf16 := ⟨slotR j, ychunk x w j⟩
def yOrder : List (Dev nD) := [7, 6, 5, 4, 3, 2, 1, 0]
/-- The chunk buffer after the eight stores, over whatever it held. -/
def yAll (c : Dev nD) (x : Vec F S256x2048 .f32) (w : Vec F S2048x2048 .f32) (f0 : Buf (Elt F) ((c : Thread nD τ).loc cc0_scratch0)) :
    Buf (Elt F) ((c : Thread nD τ).loc cc0_scratch0) :=
  yM.view.writes (Elt F) f0 (yOrder.map (yPiece x w))

theorem slots_disjoint' (j j' : Dev nD) (h : j ≠ j') : Disjoint (slotR j).set (slotR j').set :=
  slots_disjoint j (Finset.mem_univ _) j' (Finset.mem_univ _) h
theorem mem_yOrder (j : Dev nD) : j ∈ yOrder := by revert j; decide

theorem yAll_cover (x : Vec F S256x2048 .f32) (w : Vec F S2048x2048 .f32) (j : Dev nD) (k : (slotR j).shape.Idx) :
    ∃ p ∈ yOrder.map (yPiece x w), (slotR j).idx k ∈ p.1.set := ⟨yPiece x w j, List.mem_map_of_mem (mem_yOrder j), (slotR j).idx_mem k⟩
theorem yAll_canon (x : Vec F S256x2048 .f32) (w : Vec F S2048x2048 .f32) (j : Dev nD) (k : (slotR j).shape.Idx) :
    View.canon (yOrder.map (yPiece x w)) ((slotR j).emb k) = ychunk x w j k :=
  View.canon_map_of_disjoint (yPiece x w) (fun a b h => slots_disjoint' a b h) yOrder j (mem_yOrder j) k
theorem yAll_reads (c : Dev nD) (x : Vec F S256x2048 .f32) (w : Vec F S2048x2048 .f32) (f0 : Buf (Elt F) ((c : Thread nD τ).loc cc0_scratch0)) (j : Dev nD) (k : (slotR j).shape.Idx) :
    yM.view.read (Elt F) (yAll c x w f0) ((slotR j).idx k) = View.canon (yOrder.map (yPiece x w)) ((slotR j).idx k) :=
  View.read_writes_apply_eq_canon (Val := Elt F) yM.view f0 ((slotR j).idx k) (yOrder.map (yPiece x w)) (yAll_cover x w j k)

/-- Slot j of the chunk buffer then reads chunk j. -/
theorem yAll_read (c : Dev nD) (x : Vec F S256x2048 .f32) (w : Vec F S2048x2048 .f32) (f0 : Buf (Elt F) ((c : Thread nD τ).loc cc0_scratch0)) (j : Dev nD) :
    yM.view.readAt (Elt F) (slotR j).toLoadRect (yAll c x w f0) = ychunk x w j := by
  funext k
  exact (yAll_reads c x w f0 j k).trans (yAll_canon x w j k)

/-- A load through a slot named by its offsets is the load through the slot named by its number. -/
theorem yRead_congr {c : Dev nD} (off : Fin 3 → Nat) (p : ∀ a, off a + S1x256x256.size a ≤ S8x256x256.size a) (j : Dev nD) (h : off = ![j.val, 0, 0])
    (g : Buf (Elt F) ((c : Thread nD τ).loc cc0_scratch0)) :
    yM.view.readAt (Elt F) (Rect.unit (s := S8x256x256) off S1x256x256.size p).toLoadRect g = yM.view.readAt (Elt F) (slotR j).toLoadRect g := by
  subst h; rfl
theorem rRead_congr {c : Dev nD} (off : Fin 3 → Nat) (p : ∀ a, off a + S1x256x256.size a ≤ S8x256x256.size a) (j : Dev nD) (h : off = ![j.val, 0, 0])
    (g : Buf (Elt F) ((c : Thread nD τ).loc cc0_scratch1)) :
    rM.view.readAt (Elt F) (Rect.unit (s := S8x256x256) off S1x256x256.size p).toLoadRect g = rM.view.readAt (Elt F) (slotR j).toLoadRect g := by
  subst h; rfl

/-- The activation, as each of the eight stores into the result spells it. -/
theorem pay11_eq (v : Vec F S1x256x256 .bf16) : k0_pay11 v = gelu v := rfl
theorem pay12_eq (v : Vec F S1x256x256 .bf16) : k0_pay12 v = gelu v := rfl
theorem pay16_eq (v : Vec F S1x256x256 .bf16) : k0_pay16 (k0_pay13 v) (k0_pay14 v) (k0_pay15 (F := F)) = gelu v := rfl
theorem pay21_eq (v : Vec F S1x256x256 .bf16) : k0_pay21 (k0_pay18 v) (k0_pay19 v) (k0_pay20 (F := F)) = gelu v := rfl
theorem pay22_eq (v : Vec F S1x256x256 .bf16) : k0_pay22 v = gelu v := rfl
theorem pay23_eq (v : Vec F S1x256x256 .bf16) : k0_pay23 v = gelu v := rfl
theorem pay24_eq (v : Vec F S1x256x256 .bf16) : k0_pay24 v = gelu v := rfl
theorem pay25_eq (v : Vec F S1x256x256 .bf16) : k0_pay25 v = gelu v := rfl

abbrev oM : Memref sig .tc .vmem S2048x256 .f32 := Memref.whole cc0_stg2_0
theorem row_inb (s : Dev nD) : ∀ a, (![256 * s.val, 0] : Fin 2 → Nat) a + S256x256.size a ≤ S2048x256.size a := by revert s; decide
/-- Row block s of the result: rows [256 s, 256 s + 256). -/
def rowR (s : Dev nD) : Rect S2048x256 := Rect.unit (s := S2048x256) ![256 * s.val, 0] S256x256.size (row_inb s)
def oPiece (c s : Dev nD) : View.Piece (Elt F) S2048x256 .f32 := ⟨rowR s, gelu (chunkOf m s c)⟩
/-- The order of the eight stores into the result, last first. -/
def oOrder (c : Dev nD) : List (Dev nD) := [bk c 6, bk c 5, bk c 4, bk c 3, bk c 2, bk c 1, bk c 0, c]
def oAll (c : Dev nD) (g : Buf (Elt F) ((c : Thread nD τ).loc cc0_stg2_0)) : Buf (Elt F) ((c : Thread nD τ).loc cc0_stg2_0) :=
  oM.view.writes (Elt F) g ((oOrder c).map (oPiece m c))

theorem rows_disjoint (a b : Dev nD) (h : a ≠ b) : Disjoint (rowR a).set (rowR b).set := by
  unfold rowR
  refine Rect.unit_disjoint (0 : Fin 2) ?_
  have : a.val ≠ b.val := fun e => h (Fin.ext e)
  show 256 * a.val + 256 ≤ 256 * b.val ∨ 256 * b.val + 256 ≤ 256 * a.val
  omega

theorem idx_row (i : S2048x256.Idx) : (rowR (blkOf i)).idx (locOf i) = i := by
  funext a
  refine Fin.ext ?_
  fin_cases a
  · show 256 * ((i 0).val / 256) + 1 * ((i 0).val % 256) = (i 0).val
    omega
  · show 0 + 1 * (i 1).val = (i 1).val
    omega

theorem mem_oOrder (c s : Dev nD) : s ∈ oOrder c := by revert c s; decide

theorem oAll_cover (c : Dev nD) (i : S2048x256.Idx) : ∃ p ∈ (oOrder c).map (oPiece m c), i ∈ p.1.set := by
  refine ⟨oPiece m c (blkOf i), List.mem_map_of_mem (mem_oOrder c (blkOf i)), ?_⟩
  have h := (rowR (blkOf i)).idx_mem (locOf i)
  rw [idx_row i] at h
  exact h
theorem oAll_canon (c : Dev nD) (i : S2048x256.Idx) : View.canon ((oOrder c).map (oPiece m c)) i = gelu (chunkOf m (blkOf i) c) (locOf i) := by
  have h := View.canon_map_of_disjoint (oPiece m c) (fun a b h => rows_disjoint a b h) (oOrder c) (blkOf i) (mem_oOrder c (blkOf i)) (locOf i)
  rw [show (oPiece m c (blkOf i)).1.emb (locOf i) = i from idx_row i] at h
  exact h
theorem oAll_reads (c : Dev nD) (g : Buf (Elt F) ((c : Thread nD τ).loc cc0_stg2_0)) (i : S2048x256.Idx) :
    oM.view.read (Elt F) (oAll m c g) i = View.canon ((oOrder c).map (oPiece m c)) i :=
  View.read_writes_apply_eq_canon (Val := Elt F) oM.view g i ((oOrder c).map (oPiece m c)) (oAll_cover m c i)

/-- The eight stores fill the result: row block s with the activation of the chunk from s. -/
theorem oAll_at (c : Dev nD) (g : Buf (Elt F) ((c : Thread nD τ).loc cc0_stg2_0)) (i : S2048x256.Idx) :
    oAll m c g i = gelu (chunkOf m (blkOf i) c) (locOf i) := by
  have h := (oAll_reads m c g i).trans (oAll_canon m c i)
  exact (congrFun (View.read_whole (Val := Elt F) cc0_stg2_0 (oAll m c g)) i).symm.trans h
theorem oAll_eq (c : Dev nD) (g : Buf (Elt F) ((c : Thread nD τ).loc cc0_stg2_0)) : oAll m c g = outAt m c :=
  funext fun (i : S2048x256.Idx) => oAll_at m c g i

/-- A store through a row block named by its offsets is the store through the block named by its number. -/
theorem oWrite_congr {c : Dev nD} (off : Fin 2 → Nat) (p : ∀ a, off a + S256x256.size a ≤ S2048x256.size a) (s : Dev nD) (h : off = ![256 * s.val, 0])
    (g : Buf (Elt F) ((c : Thread nD τ).loc cc0_stg2_0)) (w : FVec F S256x256 .f32) :
    ((oM.access (Rect.unit (s := S2048x256) off S256x256.size p) : View sig .tc _ _ _)).write (Elt F) g w Finset.univ
      = (oM.view.slice (rowR s)).write (Elt F) g w Finset.univ := by
  subst h; rfl

theorem off6_self (c : Dev nD) : k0_off6 c = ![256 * c.val, 0] := k0_off6_eq c
theorem off10_bk (c : Dev nD) (r : Fin 7) : k0_off10 c (BitVec.ofNat 32 (1 + r.val)) = ![256 * (bk c r).val, 0] := k0_off10_eq c r

/-! ## The semaphores as the body spells them, place by place -/

theorem sendSem_at0 (c : Dev nD) : ((cc0_scratch2.slice (Rect.unit (s := S8) (k0_off1 c 1#32) S1.size (k0_off1_inb c 0))).squeeze S_ squeezes_S1_S_).sem = sendS (fw c 0) := sendSem_eq c 0
theorem recvSem_at0 (c : Dev nD) : ((cc0_scratch3.slice (Rect.unit (s := S8) (k0_off7 c 1#32) S1.size (k0_off7_inb c 0))).squeeze S_ squeezes_S1_S_).sem = recvS (bk c 0) := recvSem_eq c 0
theorem sendSem_at1 (c : Dev nD) : ((cc0_scratch2.slice (Rect.unit (s := S8) (k0_off1 c 2#32) S1.size (k0_off1_inb c 1))).squeeze S_ squeezes_S1_S_).sem = sendS (fw c 1) := sendSem_eq c 1
theorem recvSem_at1 (c : Dev nD) : ((cc0_scratch3.slice (Rect.unit (s := S8) (k0_off7 c 2#32) S1.size (k0_off7_inb c 1))).squeeze S_ squeezes_S1_S_).sem = recvS (bk c 1) := recvSem_eq c 1
theorem sendSem_at2 (c : Dev nD) : ((cc0_scratch2.slice (Rect.unit (s := S8) (k0_off1 c 3#32) S1.size (k0_off1_inb c 2))).squeeze S_ squeezes_S1_S_).sem = sendS (fw c 2) := sendSem_eq c 2
theorem recvSem_at2 (c : Dev nD) : ((cc0_scratch3.slice (Rect.unit (s := S8) (k0_off7 c 3#32) S1.size (k0_off7_inb c 2))).squeeze S_ squeezes_S1_S_).sem = recvS (bk c 2) := recvSem_eq c 2
theorem sendSem_at3 (c : Dev nD) : ((cc0_scratch2.slice (Rect.unit (s := S8) (k0_off1 c 4#32) S1.size (k0_off1_inb c 3))).squeeze S_ squeezes_S1_S_).sem = sendS (fw c 3) := sendSem_eq c 3
theorem recvSem_at3 (c : Dev nD) : ((cc0_scratch3.slice (Rect.unit (s := S8) (k0_off7 c 4#32) S1.size (k0_off7_inb c 3))).squeeze S_ squeezes_S1_S_).sem = recvS (bk c 3) := recvSem_eq c 3
theorem sendSem_at4 (c : Dev nD) : ((cc0_scratch2.slice (Rect.unit (s := S8) (k0_off1 c 5#32) S1.size (k0_off1_inb c 4))).squeeze S_ squeezes_S1_S_).sem = sendS (fw c 4) := sendSem_eq c 4
theorem recvSem_at4 (c : Dev nD) : ((cc0_scratch3.slice (Rect.unit (s := S8) (k0_off7 c 5#32) S1.size (k0_off7_inb c 4))).squeeze S_ squeezes_S1_S_).sem = recvS (bk c 4) := recvSem_eq c 4
theorem sendSem_at5 (c : Dev nD) : ((cc0_scratch2.slice (Rect.unit (s := S8) (k0_off1 c 6#32) S1.size (k0_off1_inb c 5))).squeeze S_ squeezes_S1_S_).sem = sendS (fw c 5) := sendSem_eq c 5
theorem recvSem_at5 (c : Dev nD) : ((cc0_scratch3.slice (Rect.unit (s := S8) (k0_off7 c 6#32) S1.size (k0_off7_inb c 5))).squeeze S_ squeezes_S1_S_).sem = recvS (bk c 5) := recvSem_eq c 5
theorem sendSem_at6 (c : Dev nD) : ((cc0_scratch2.slice (Rect.unit (s := S8) (k0_off1 c 7#32) S1.size (k0_off1_inb c 6))).squeeze S_ squeezes_S1_S_).sem = sendS (fw c 6) := sendSem_eq c 6
theorem recvSem_at6 (c : Dev nD) : ((cc0_scratch3.slice (Rect.unit (s := S8) (k0_off7 c 7#32) S1.size (k0_off7_inb c 6))).squeeze S_ squeezes_S1_S_).sem = recvS (bk c 6) := recvSem_eq c 6

/-- A load through a slot named by its offsets touches that slot only. -/
theorem ySub (off : Fin 3 → Nat) (p : ∀ a, off a + S1x256x256.size a ≤ S8x256x256.size a) (j : Dev nD) (h : off = ![j.val, 0, 0]) :
    yM.view.setOn (Rect.unit (s := S8x256x256) off S1x256x256.size p).toLoadRect.set ⊆ (slotR j).set := by
  subst h
  intro i hi
  simp only [View.setOn, Finset.mem_map] at hi
  obtain ⟨a, ha, rfl⟩ := hi
  exact ha
theorem rSub (off : Fin 3 → Nat) (p : ∀ a, off a + S1x256x256.size a ≤ S8x256x256.size a) (j : Dev nD) (h : off = ![j.val, 0, 0]) :
    rM.view.setOn (Rect.unit (s := S8x256x256) off S1x256x256.size p).toLoadRect.set ⊆ (slotR j).set := by
  subst h
  intro i hi
  simp only [View.setOn, Finset.mem_map] at hi
  obtain ⟨a, ha, rfl⟩ := hi
  exact ha

end Cert.KernelIdeal.A2A

end
-- ==== Proof.A2AJoin.lean ====
import proofs.«900437_g7700000000000438_dist_gemm_a2a_m2048_k2048_n2048_f32_gelu_v7x_i8_1_alg».proof.Proof.A2AGhost

/-! The eight slots of a scratch buffer, each held at some contents, are the buffer whole at some contents: the
    slots are the rectangles `[j, j + 1) × 256 × 256`, pairwise disjoint along the leading axis, and every index
    lies in the slot its leading coordinate names. -/

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Two different slots share no index: they are apart on the leading axis. -/
theorem join_slots_disjoint (j j' : Dev nD) (h : j ≠ j') : Disjoint (slotR j).set (slotR j').set := by
  unfold slotR
  refine Rect.unit_disjoint (0 : Fin 3) ?_
  show j.val + 1 ≤ j'.val ∨ j'.val + 1 ≤ j.val
  have hne : j.val ≠ j'.val := fun e => h (Fin.ext e)
  omega

/-- Every index lies in the slot its leading coordinate names. -/
theorem join_slots_cover : (Finset.univ : Finset (Dev nD)).biUnion (fun j => (slotR j).set) = Finset.univ := by
  ext i
  simp only [Finset.mem_biUnion, Finset.mem_univ, true_and, iff_true]
  refine ⟨⟨(i 0).val, (i 0).isLt⟩, ?_⟩
  unfold slotR
  rw [Rect.mem_set_unit]
  intro a
  have h1 : (i 1).val < 256 := (i 1).isLt
  have h2 : (i 2).val < 256 := (i 2).isLt
  match a with
  | ⟨0, _⟩ => show (i 0).val ≤ (i 0).val ∧ (i 0).val < (i 0).val + 1; omega
  | ⟨1, _⟩ => show 0 ≤ (i 1).val ∧ (i 1).val < 0 + 256; omega
  | ⟨2, _⟩ => show 0 ≤ (i 2).val ∧ (i 2).val < 0 + 256; omega

/-- Over one scratch buffer: every slot at some contents is the whole at some contents. -/
theorem join_slots (ℓ : Loc nD τ sig) (K : Dev nD → Finset (Idx ℓ))
    (hd : ∀ j j', j ≠ j' → Disjoint (K j) (K j')) (hc : (Finset.univ : Finset (Dev nD)).biUnion K = Finset.univ)
    [Nonempty (Buf (Elt F) ℓ)] :
    bigSep Finset.univ (fun j : Dev nD => iprop(∃ f : Buf (Elt F) ℓ, ℓ ↦[K j]{fullShare} f))
      ⊢ (iprop(∃ g : Buf (Elt F) ℓ, ℓ ↦{fullShare} g) : sProp 𝕄) := by
  iintro H
  ihave H' := (BI.bigSep_exists_pi Finset.univ (fun (j : Dev nD) (f : Buf (Elt F) ℓ) => (ℓ ↦[K j]{fullShare} f : sProp 𝕄))) $$ H
  icases H' with ⟨%fs, H⟩
  ihave HJ := (pointsTo_biUnion_join Finset.univ K fs (fs 0) (fun j _ j' _ h => hd j j' h)) $$ H
  icases HJ with ⟨%g, -, Hg⟩
  iexists g
  rw [hc]
  iexact Hg

theorem join_y (c : Dev nD) :
    iprop((∃ f, yPts (F := F) c c f) ∗ (∃ f, yPts (F := F) c (fw c 0) f) ∗ (∃ f, yPts (F := F) c (fw c 1) f) ∗ (∃ f, yPts (F := F) c (fw c 2) f) ∗ (∃ f, yPts (F := F) c (fw c 3) f) ∗ (∃ f, yPts (F := F) c (fw c 4) f) ∗ (∃ f, yPts (F := F) c (fw c 5) f) ∗ (∃ f, yPts (F := F) c (fw c 6) f))
      ⊢ (iprop(∃ f, yWhole (F := F) c f) : sProp 𝕄) := by
  have hchain : iprop((∃ f, yPts (F := F) c c f) ∗ (∃ f, yPts (F := F) c (fw c 0) f) ∗ (∃ f, yPts (F := F) c (fw c 1) f) ∗ (∃ f, yPts (F := F) c (fw c 2) f) ∗ (∃ f, yPts (F := F) c (fw c 3) f) ∗ (∃ f, yPts (F := F) c (fw c 4) f) ∗ (∃ f, yPts (F := F) c (fw c 5) f) ∗ (∃ f, yPts (F := F) c (fw c 6) f))
      = (bigSep Finset.univ (fun j : Dev nD => iprop(∃ f, yPts (F := F) c j f)) : sProp 𝕄) := by
    rw [bigSep_univ_at _ c, erase_eq_map, bigSep_map, bigSep_fin7]; rfl
  rw [hchain]
  exact join_slots (F := F) ((c : Thread nD τ).loc cc0_scratch0) (fun j => (slotR j).set) join_slots_disjoint join_slots_cover

theorem join_r (c : Dev nD) :
    iprop((∃ f, rPts (F := F) c c f) ∗ (∃ f, rPts (F := F) c (bk c 0) f) ∗ (∃ f, rPts (F := F) c (bk c 1) f) ∗ (∃ f, rPts (F := F) c (bk c 2) f) ∗ (∃ f, rPts (F := F) c (bk c 3) f) ∗ (∃ f, rPts (F := F) c (bk c 4) f) ∗ (∃ f, rPts (F := F) c (bk c 5) f) ∗ (∃ f, rPts (F := F) c (bk c 6) f))
      ⊢ (iprop(∃ f, rWhole (F := F) c f) : sProp 𝕄) := by
  have hchain : iprop((∃ f, rPts (F := F) c c f) ∗ (∃ f, rPts (F := F) c (bk c 0) f) ∗ (∃ f, rPts (F := F) c (bk c 1) f) ∗ (∃ f, rPts (F := F) c (bk c 2) f) ∗ (∃ f, rPts (F := F) c (bk c 3) f) ∗ (∃ f, rPts (F := F) c (bk c 4) f) ∗ (∃ f, rPts (F := F) c (bk c 5) f) ∗ (∃ f, rPts (F := F) c (bk c 6) f))
      = (bigSep Finset.univ (fun j : Dev nD => iprop(∃ f, rPts (F := F) c j f)) : sProp 𝕄) := by
    rw [bigSep_univ_at _ c, erase_eq_map_bk, bigSep_map, bigSep_fin7]; rfl
  rw [hchain]
  exact join_slots (F := F) ((c : Thread nD τ).loc cc0_scratch1) (fun j => (slotR j).set) join_slots_disjoint join_slots_cover

end Cert.KernelIdeal.A2A

end
-- ==== Proof.A2ABody.lean ====
/-
  One device's run of the kernel body: the seven barrier units out, the product cut into its chunk slots, the barrier
  wait, the seven copies out, the own chunk's activation, each landing awaited and its activation written to its row
  block, the departures awaited, the cells closed, the scratch buffers whole again.
-/
import proofs.«900437_g7700000000000438_dist_gemm_a2a_m2048_k2048_n2048_f32_gelu_v7x_i8_1_alg».proof.Proof.A2ASteps
import proofs.«900437_g7700000000000438_dist_gemm_a2a_m2048_k2048_n2048_f32_gelu_v7x_i8_1_alg».proof.Proof.A2AJoin

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The body -/

theorem yAll_intro (c : Dev nD) (x : Vec F S256x2048 .f32) (w : Vec F S2048x2048 .f32) (f0 : Buf (Elt F) ((c : Thread nD τ).loc cc0_scratch0)) :
    ((((c : Thread nD τ).loc cc0_scratch0) ↦{fullShare} yAll c x w f0 : sProp 𝕄)) ⊢ (((c : Thread nD τ).loc cc0_scratch0) ↦{fullShare} yAll c x w f0) := BI.Entails.refl _
/-- The chunk buffer after its eight stores, store by store. -/
theorem yAll_unfold (c : Dev nD) (x : Vec F S256x2048 .f32) (w : Vec F S2048x2048 .f32) (f0 : Buf (Elt F) ((c : Thread nD τ).loc cc0_scratch0)) :
    yAll c x w f0 = (View.write (Elt F) (yM.access (Rect.unit (s := S8x256x256) ![7, 0, 0] S1x256x256.size inb_S8x256x256_S1x256x256_7_0_0)) (View.write (Elt F) (yM.access (Rect.unit (s := S8x256x256) ![6, 0, 0] S1x256x256.size inb_S8x256x256_S1x256x256_6_0_0)) (View.write (Elt F) (yM.access (Rect.unit (s := S8x256x256) ![5, 0, 0] S1x256x256.size inb_S8x256x256_S1x256x256_5_0_0)) (View.write (Elt F) (yM.access (Rect.unit (s := S8x256x256) ![4, 0, 0] S1x256x256.size inb_S8x256x256_S1x256x256_4_0_0)) (View.write (Elt F) (yM.access (Rect.unit (s := S8x256x256) ![3, 0, 0] S1x256x256.size inb_S8x256x256_S1x256x256_3_0_0)) (View.write (Elt F) (yM.access (Rect.unit (s := S8x256x256) ![2, 0, 0] S1x256x256.size inb_S8x256x256_S1x256x256_2_0_0)) (View.write (Elt F) (yM.access (Rect.unit (s := S8x256x256) ![1, 0, 0] S1x256x256.size inb_S8x256x256_S1x256x256_1_0_0)) (View.write (Elt F) (yM.access (Rect.unit (s := S8x256x256) ![0, 0, 0] S1x256x256.size inb_S8x256x256_S1x256x256_0_0_0)) f0 (k0_pay2 x w) Finset.univ) (k0_pay3 x w) Finset.univ) (k0_pay4 x w) Finset.univ) (k0_pay6 (k0_pay5 x w)) Finset.univ) (k0_pay7 (k0_pay1 x w)) Finset.univ) (k0_pay8 (k0_pay1 x w)) Finset.univ) (k0_pay9 (k0_pay1 x w)) Finset.univ) (k0_pay10 (k0_pay1 x w)) Finset.univ) := by
  unfold yAll yOrder
  simp only [List.map, View.writes_cons, View.writes_nil]
  rfl

/-- The result after its eight stores, store by store. -/
theorem oAll_unfold (c : Dev nD) (g : Buf (Elt F) ((c : Thread nD τ).loc cc0_stg2_0)) :
    oAll m c g = (View.write (Elt F) (oM.view.slice (rowR (bk c 6))) (View.write (Elt F) (oM.view.slice (rowR (bk c 5))) (View.write (Elt F) (oM.view.slice (rowR (bk c 4))) (View.write (Elt F) (oM.view.slice (rowR (bk c 3))) (View.write (Elt F) (oM.view.slice (rowR (bk c 2))) (View.write (Elt F) (oM.view.slice (rowR (bk c 1))) (View.write (Elt F) (oM.view.slice (rowR (bk c 0))) (View.write (Elt F) (oM.view.slice (rowR c)) g (k0_pay11 (ychunk (xstg m c) (wstg m c) c)) Finset.univ) (k0_pay12 (chunkOf m (bk c 0) c)) Finset.univ) (k0_pay16 (k0_pay13 (chunkOf m (bk c 1) c)) (k0_pay14 (chunkOf m (bk c 1) c)) (k0_pay15 (F := F))) Finset.univ) (k0_pay21 (k0_pay18 (chunkOf m (bk c 2) c)) (k0_pay19 (chunkOf m (bk c 2) c)) (k0_pay20 (F := F))) Finset.univ) (k0_pay22 (chunkOf m (bk c 3) c)) Finset.univ) (k0_pay23 (chunkOf m (bk c 4) c)) Finset.univ) (k0_pay24 (chunkOf m (bk c 5) c)) Finset.univ) (k0_pay25 (chunkOf m (bk c 6) c)) Finset.univ) := by
  unfold oAll oOrder
  simp only [List.map, View.writes_cons, View.writes_nil]
  rfl

/-- Every 256 × 256 slot of either scratch buffer counts the same on a DMA semaphore. -/
theorem credit_any {sp : Space} (v : View sig .tc sp S256x256 .bf16) : v.dmaCredit = N := by
  unfold View.dmaCredit N
  rfl

theorem off10_at0 (c : Dev nD) : k0_off10 c 1#32 = ![256 * (bk c 0).val, 0] := off10_bk c 0
theorem off9_at0 (c : Dev nD) : k0_off9 c 1#32 = ![(bk c 0).val, 0, 0] := off9_bk c 0
theorem off10_at1 (c : Dev nD) : k0_off10 c 2#32 = ![256 * (bk c 1).val, 0] := off10_bk c 1
theorem off9_at1 (c : Dev nD) : k0_off9 c 2#32 = ![(bk c 1).val, 0, 0] := off9_bk c 1
theorem off10_at2 (c : Dev nD) : k0_off10 c 3#32 = ![256 * (bk c 2).val, 0] := off10_bk c 2
theorem off9_at2 (c : Dev nD) : k0_off9 c 3#32 = ![(bk c 2).val, 0, 0] := off9_bk c 2
theorem off10_at3 (c : Dev nD) : k0_off10 c 4#32 = ![256 * (bk c 3).val, 0] := off10_bk c 3
theorem off9_at3 (c : Dev nD) : k0_off9 c 4#32 = ![(bk c 3).val, 0, 0] := off9_bk c 3
theorem off10_at4 (c : Dev nD) : k0_off10 c 5#32 = ![256 * (bk c 4).val, 0] := off10_bk c 4
theorem off9_at4 (c : Dev nD) : k0_off9 c 5#32 = ![(bk c 4).val, 0, 0] := off9_bk c 4
theorem off10_at5 (c : Dev nD) : k0_off10 c 6#32 = ![256 * (bk c 5).val, 0] := off10_bk c 5
theorem off9_at5 (c : Dev nD) : k0_off9 c 6#32 = ![(bk c 5).val, 0, 0] := off9_bk c 5
theorem off10_at6 (c : Dev nD) : k0_off10 c 7#32 = ![256 * (bk c 6).val, 0] := off10_bk c 6
theorem off9_at6 (c : Dev nD) : k0_off9 c 7#32 = ![(bk c 6).val, 0, 0] := off9_bk c 6

/-- The sixteen own counters at zero, listed round the ring. -/
theorem semVals_intro (c : Dev nD) :
    (iprop((semVal (kcell (c, some (false, c))) 0 ∗ semVal (kcell (c, some (false, fw c 0))) 0 ∗ semVal (kcell (c, some (false, fw c 1))) 0 ∗ semVal (kcell (c, some (false, fw c 2))) 0
          ∗ semVal (kcell (c, some (false, fw c 3))) 0 ∗ semVal (kcell (c, some (false, fw c 4))) 0 ∗ semVal (kcell (c, some (false, fw c 5))) 0 ∗ semVal (kcell (c, some (false, fw c 6))) 0)
        ∗ (semVal (kcell (c, some (true, c))) 0 ∗ semVal (kcell (c, some (true, bk c 0))) 0 ∗ semVal (kcell (c, some (true, bk c 1))) 0 ∗ semVal (kcell (c, some (true, bk c 2))) 0
          ∗ semVal (kcell (c, some (true, bk c 3))) 0 ∗ semVal (kcell (c, some (true, bk c 4))) 0 ∗ semVal (kcell (c, some (true, bk c 5))) 0 ∗ semVal (kcell (c, some (true, bk c 6))) 0)) : sProp 𝕄)
      ⊢ bigSep Finset.univ fun k : KO => (semVal (kcell (c, some k)) 0 : sProp 𝕄) := by
  rw [bigSep_univ_prod, bigSep_univ_eq_bigSepL [false, true] (by decide) (by decide), bigSepL_cons_cons, bigSepL_singleton,
    bigSep_ring_fw c (fun t : Dev nD => (semVal (kcell (c, some (false, t))) 0 : sProp 𝕄)), bigSep_ring_bk c (fun s : Dev nD => (semVal (kcell (c, some (true, s))) 0 : sProp 𝕄))]
  exact BI.Entails.refl _

theorem oAll_intro (c : Dev nD) (g : Buf (Elt F) ((c : Thread nD τ).loc cc0_stg2_0)) :
    ((((c : Thread nD τ).loc cc0_stg2_0) ↦{fullShare} oAll m c g : sProp 𝕄)) ⊢ (((c : Thread nD τ).loc cc0_stg2_0) ↦{fullShare} oAll m c g) := BI.Entails.refl _

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × KC → ℕ) (c : Dev nD) : sProp 𝕄 :=
  iprop((ghost m K c ∗ cred (tallyAt (barCell c) () 7) ∗ (bigSep Finset.univ fun r : Fin 7 => cred (tallyAt (recvCell c (bk c r)) () N)) ∗ levAts L lv
      ∗ (∃ f, yWhole (F := F) c f) ∗ (∃ f, rWhole (F := F) c f))
    ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

def bodyPost (c : Dev nD) : sProp 𝕄 :=
  iprop(Φ₁ (F := F) c ∗ (dats m 0 c).owesAt () t₀.succ ∗ stg c cc0_stg0_0 (xstg m c) ∗ stg c cc0_stg1_0 (wstg m c) ∗ stg c cc0_stg2_0 (outAt m c))

set_option maxHeartbeats 6400000 in
set_option maxRecDepth 65536 in
theorem sound_body (K : Dev nD × KC → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) cc0_scratch2 cc0_scratch3) Kt := by
  simp only [cc0_body_eq_skeleton]
  unfold cc0_body_skel
  simp only [k0_part13_eq_skeleton]
  unfold k0_part13_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel k0_part10_skel k0_part11_skel k0_part12_skel
  simp only [semSignalWord, semWaitWord, Prog.lift, Prog.bind_op, Prog.bind_ret, Prog.pure_eq_ret, wp_deviceId]
  simp only [dev1_eq c, dev2_eq c, dev3_eq c, dev4_eq c, dev5_eq c, dev6_eq c, dev7_eq c, dev8_eq c, dev9_eq c, dev10_eq c, dev11_eq c, dev12_eq c, dev13_eq c, dev14_eq c,
    sendSem_at0 c, recvSem_at0 c, sendSem_at1 c, recvSem_at1 c, sendSem_at2 c, recvSem_at2 c, sendSem_at3 c, recvSem_at3 c, sendSem_at4 c, recvSem_at4 c, sendSem_at5 c, recvSem_at5 c, sendSem_at6 c, recvSem_at6 c, recvOwn_eq c]
  unfold bodyPre ghost linear payToks yWhole rWhole
  rw [bigSep_cells3, bigSep_ring_fw c (fun t : Dev nD => (atPos ER (kcell (c, some (false, t))) 0 ∅ 0 : sProp 𝕄)),
    bigSep_ring_bk c (fun s : Dev nD => (atPos ER (kcell (c, some (true, s))) 0 ∅ 0 : sProp 𝕄)), bigSep_fin7, bigSep_fin7]
  iintro ⟨⟨⟨⟨#Hrec, Hat, Htok⟩, HcB, HcR, #Hlev, ⟨%fy0, Hy⟩, ⟨%fr0, Hr⟩⟩, Ho, ⟨%d0, %g0, %hg0, Hx⟩, ⟨%d1, %g1, %hg1, Hw⟩, ⟨%d2, %g2, %hg2, Hout⟩⟩, Hk⟩
  icases Hat with ⟨HaB, ⟨HaSc, HaS0, HaS1, HaS2, HaS3, HaS4, HaS5, HaS6⟩, ⟨HaRc, HaR0, HaR1, HaR2, HaR3, HaR4, HaR5, HaR6⟩⟩
  icases Htok with ⟨⟨HtB0, HtR0, HtS0⟩, ⟨HtB1, HtR1, HtS1⟩, ⟨HtB2, HtR2, HtS2⟩, ⟨HtB3, HtR3, HtS3⟩, ⟨HtB4, HtR4, HtS4⟩, ⟨HtB5, HtR5, HtS5⟩, ⟨HtB6, HtR6, HtS6⟩⟩
  icases HcR with ⟨HcR0, HcR1, HcR2, HcR3, HcR4, HcR5, HcR6⟩
  ihave Hr' := (Entails.of_eq ((rWhole_split c fr0).trans (bigSep_ring_fw c _))) $$ Hr
  icases Hr' with ⟨Hrc, Hr0, Hr1, Hr2, Hr3, Hr4, Hr5, Hr6⟩
  unfold Dat.owesAt Pipeline.owesWithin
  icases Ho with ⟨%W, %hW, HO⟩
  rw [show (dats m 0 c).owed t₀.castSucc = Ocp c 0 + Osig c (0 : Fin 7).val from rfl]
  -- the seven barrier units, each with the slot its receiver will write
  iapply (sig_step m K c _ 0 rfl (by decide) fr0 W) $$ [HO HtB0 Hr0]
  · isplitr; · iapply (inv_at m K (fw c 0, none)); iexact Hrec
    isplitl [HO]; · iexact HO
    isplitl [HtB0]; · iexact HtB0
    isplitl [Hr0]; · iexact Hr0
    iapply (reached_at m K (fw c 0, none)); iexact Hrec
  iintro HO
  iapply (sig_step m K c _ 1 rfl (by decide) fr0 W) $$ [HO HtB1 Hr1]
  · isplitr; · iapply (inv_at m K (fw c 1, none)); iexact Hrec
    isplitl [HO]; · iexact HO
    isplitl [HtB1]; · iexact HtB1
    isplitl [Hr1]; · iexact Hr1
    iapply (reached_at m K (fw c 1, none)); iexact Hrec
  iintro HO
  iapply (sig_step m K c _ 2 rfl (by decide) fr0 W) $$ [HO HtB2 Hr2]
  · isplitr; · iapply (inv_at m K (fw c 2, none)); iexact Hrec
    isplitl [HO]; · iexact HO
    isplitl [HtB2]; · iexact HtB2
    isplitl [Hr2]; · iexact Hr2
    iapply (reached_at m K (fw c 2, none)); iexact Hrec
  iintro HO
  iapply (sig_step m K c _ 3 rfl (by decide) fr0 W) $$ [HO HtB3 Hr3]
  · isplitr; · iapply (inv_at m K (fw c 3, none)); iexact Hrec
    isplitl [HO]; · iexact HO
    isplitl [HtB3]; · iexact HtB3
    isplitl [Hr3]; · iexact Hr3
    iapply (reached_at m K (fw c 3, none)); iexact Hrec
  iintro HO
  iapply (sig_step m K c _ 4 rfl (by decide) fr0 W) $$ [HO HtB4 Hr4]
  · isplitr; · iapply (inv_at m K (fw c 4, none)); iexact Hrec
    isplitl [HO]; · iexact HO
    isplitl [HtB4]; · iexact HtB4
    isplitl [Hr4]; · iexact Hr4
    iapply (reached_at m K (fw c 4, none)); iexact Hrec
  iintro HO
  iapply (sig_step m K c _ 5 rfl (by decide) fr0 W) $$ [HO HtB5 Hr5]
  · isplitr; · iapply (inv_at m K (fw c 5, none)); iexact Hrec
    isplitl [HO]; · iexact HO
    isplitl [HtB5]; · iexact HtB5
    isplitl [Hr5]; · iexact Hr5
    iapply (reached_at m K (fw c 5, none)); iexact Hrec
  iintro HO
  iapply (sig_step m K c _ 6 rfl (by decide) fr0 W) $$ [HO HtB6 Hr6]
  · isplitr; · iapply (inv_at m K (fw c 6, none)); iexact Hrec
    isplitl [HO]; · iexact HO
    isplitl [HtB6]; · iexact HtB6
    isplitl [Hr6]; · iexact Hr6
    iapply (reached_at m K (fw c 6, none)); iexact Hrec
  iintro HO
  -- the block of x and the copy of w
  have hx : g0 = xstg m c := by rw [hg0]; unfold Dat.before; rw [if_pos (fetch0_0 t₀)]; rfl
  have hw : g1 = wstg m c := by rw [hg1]; unfold Dat.before; rw [if_pos (fetch0_1 t₀)]; rfl
  subst hx hw
  iapply (wp_load 𝒱₀ (c : Thread nD τ) none Set.univ (m := (Memref.whole cc0_stg0_0 : Memref sig .tc .vmem S256x2048 .f32)) (Finset.subset_univ _)) $$ Hx; iintro Hx
  rw [read_x]
  iapply (wp_load 𝒱₀ (c : Thread nD τ) none Set.univ (m := (Memref.whole cc0_stg1_0 : Memref sig .tc .vmem S2048x2048 .f32)) (Finset.subset_univ _)) $$ Hw; iintro Hw
  rw [read_w]
  -- the product's eight chunks into their slots
  iapply (wp_load 𝒱₀ (c : Thread nD τ) none Set.univ (m := yM) (Finset.subset_univ _)) $$ Hy; iintro Hy
  iapply (wp_store 𝒱₀ (c : Thread nD τ) none Set.univ (m := yM) (r := Rect.unit (s := S8x256x256) ![0, 0, 0] S1x256x256.size inb_S8x256x256_S1x256x256_0_0_0) (Mk := Finset.univ) (Finset.subset_univ _)) $$ Hy; iintro Hy
  iapply (wp_load 𝒱₀ (c : Thread nD τ) none Set.univ (m := yM) (Finset.subset_univ _)) $$ Hy; iintro Hy
  iapply (wp_store 𝒱₀ (c : Thread nD τ) none Set.univ (m := yM) (r := Rect.unit (s := S8x256x256) ![1, 0, 0] S1x256x256.size inb_S8x256x256_S1x256x256_1_0_0) (Mk := Finset.univ) (Finset.subset_univ _)) $$ Hy; iintro Hy
  iapply (wp_load 𝒱₀ (c : Thread nD τ) none Set.univ (m := yM) (Finset.subset_univ _)) $$ Hy; iintro Hy
  iapply (wp_store 𝒱₀ (c : Thread nD τ) none Set.univ (m := yM) (r := Rect.unit (s := S8x256x256) ![2, 0, 0] S1x256x256.size inb_S8x256x256_S1x256x256_2_0_0) (Mk := Finset.univ) (Finset.subset_univ _)) $$ Hy; iintro Hy
  iapply (wp_load 𝒱₀ (c : Thread nD τ) none Set.univ (m := yM) (Finset.subset_univ _)) $$ Hy; iintro Hy
  iapply (wp_store 𝒱₀ (c : Thread nD τ) none Set.univ (m := yM) (r := Rect.unit (s := S8x256x256) ![3, 0, 0] S1x256x256.size inb_S8x256x256_S1x256x256_3_0_0) (Mk := Finset.univ) (Finset.subset_univ _)) $$ Hy; iintro Hy
  iapply (wp_load 𝒱₀ (c : Thread nD τ) none Set.univ (m := yM) (Finset.subset_univ _)) $$ Hy; iintro Hy
  iapply (wp_store 𝒱₀ (c : Thread nD τ) none Set.univ (m := yM) (r := Rect.unit (s := S8x256x256) ![4, 0, 0] S1x256x256.size inb_S8x256x256_S1x256x256_4_0_0) (Mk := Finset.univ) (Finset.subset_univ _)) $$ Hy; iintro Hy
  iapply (wp_load 𝒱₀ (c : Thread nD τ) none Set.univ (m := yM) (Finset.subset_univ _)) $$ Hy; iintro Hy
  iapply (wp_store 𝒱₀ (c : Thread nD τ) none Set.univ (m := yM) (r := Rect.unit (s := S8x256x256) ![5, 0, 0] S1x256x256.size inb_S8x256x256_S1x256x256_5_0_0) (Mk := Finset.univ) (Finset.subset_univ _)) $$ Hy; iintro Hy
  iapply (wp_load 𝒱₀ (c : Thread nD τ) none Set.univ (m := yM) (Finset.subset_univ _)) $$ Hy; iintro Hy
  iapply (wp_store 𝒱₀ (c : Thread nD τ) none Set.univ (m := yM) (r := Rect.unit (s := S8x256x256) ![6, 0, 0] S1x256x256.size inb_S8x256x256_S1x256x256_6_0_0) (Mk := Finset.univ) (Finset.subset_univ _)) $$ Hy; iintro Hy
  iapply (wp_load 𝒱₀ (c : Thread nD τ) none Set.univ (m := yM) (Finset.subset_univ _)) $$ Hy; iintro Hy
  iapply (wp_store 𝒱₀ (c : Thread nD τ) none Set.univ (m := yM) (r := Rect.unit (s := S8x256x256) ![7, 0, 0] S1x256x256.size inb_S8x256x256_S1x256x256_7_0_0) (Mk := Finset.univ) (Finset.subset_univ _)) $$ Hy; iintro Hy
  rw [← yAll_unfold c (xstg m c) (wstg m c) fy0]
  -- the barrier: every peer is inside the kernel, and its slot for this device is here
  iapply (bar_wait_step m K c (by decide) W) $$ [HcB HO HaB]
  · isplitr; · iapply (inv_at m K (c, none)); iexact Hrec
    isplitl [HcB]; · iexact HcB
    isplitl [HO]; · iexact HO
    isplitr; · iexact Hlev
    iexact HaB
  iintro ⟨HO, HaB, Hp0, Hp1, Hp2, Hp3, Hp4, Hp5, Hp6⟩
  unfold barPay
  icases Hp0 with ⟨%fd0, Hp0⟩
  icases Hp1 with ⟨%fd1, Hp1⟩
  icases Hp2 with ⟨%fd2, Hp2⟩
  icases Hp3 with ⟨%fd3, Hp3⟩
  icases Hp4 with ⟨%fd4, Hp4⟩
  icases Hp5 with ⟨%fd5, Hp5⟩
  icases Hp6 with ⟨%fd6, Hp6⟩
  rw [Osig_seven, add_zero]
  ihave Hy' := (Entails.of_eq ((yWhole_split c (yAll c (xstg m c) (wstg m c) fy0)).trans (bigSep_ring_fw c _))) $$ [Hy]
  · iexact Hy
  icases Hy' with ⟨Hyc, Hy0, Hy1, Hy2, Hy3, Hy4, Hy5, Hy6⟩
  -- the seven copies
  iapply (send_step m K c _ 0 (dev8_eq c) (yAll c (xstg m c) (wstg m c) fy0) fd0 _ (yAll_read c _ _ fy0 (fw c 0))) $$ [Hy0 Hp0 HO HtS0 HtR0]
  · isplitr; · iapply (inv_at m K (c, some (false, fw c 0))); iexact Hrec
    isplitr; · iapply (inv_at m K (fw c 0, some (true, c))); iexact Hrec
    isplitl [Hy0]; · iexact Hy0
    isplitl [Hp0]; · iexact Hp0
    isplitl [HO]; · iexact HO
    isplitl [HtS0]; · iexact HtS0
    isplitr; · iapply (reached_at m K (c, some (false, fw c 0))); iexact Hrec
    isplitl [HtR0]; · iexact HtR0
    iapply (reached_at m K (fw c 0, some (true, c))); iexact Hrec
  iintro ⟨HcS0, HO⟩
  iapply (send_step m K c _ 1 (dev9_eq c) (yAll c (xstg m c) (wstg m c) fy0) fd1 _ (yAll_read c _ _ fy0 (fw c 1))) $$ [Hy1 Hp1 HO HtS1 HtR1]
  · isplitr; · iapply (inv_at m K (c, some (false, fw c 1))); iexact Hrec
    isplitr; · iapply (inv_at m K (fw c 1, some (true, c))); iexact Hrec
    isplitl [Hy1]; · iexact Hy1
    isplitl [Hp1]; · iexact Hp1
    isplitl [HO]; · iexact HO
    isplitl [HtS1]; · iexact HtS1
    isplitr; · iapply (reached_at m K (c, some (false, fw c 1))); iexact Hrec
    isplitl [HtR1]; · iexact HtR1
    iapply (reached_at m K (fw c 1, some (true, c))); iexact Hrec
  iintro ⟨HcS1, HO⟩
  iapply (send_step m K c _ 2 (dev10_eq c) (yAll c (xstg m c) (wstg m c) fy0) fd2 _ (yAll_read c _ _ fy0 (fw c 2))) $$ [Hy2 Hp2 HO HtS2 HtR2]
  · isplitr; · iapply (inv_at m K (c, some (false, fw c 2))); iexact Hrec
    isplitr; · iapply (inv_at m K (fw c 2, some (true, c))); iexact Hrec
    isplitl [Hy2]; · iexact Hy2
    isplitl [Hp2]; · iexact Hp2
    isplitl [HO]; · iexact HO
    isplitl [HtS2]; · iexact HtS2
    isplitr; · iapply (reached_at m K (c, some (false, fw c 2))); iexact Hrec
    isplitl [HtR2]; · iexact HtR2
    iapply (reached_at m K (fw c 2, some (true, c))); iexact Hrec
  iintro ⟨HcS2, HO⟩
  iapply (send_step m K c _ 3 (dev11_eq c) (yAll c (xstg m c) (wstg m c) fy0) fd3 _ (yAll_read c _ _ fy0 (fw c 3))) $$ [Hy3 Hp3 HO HtS3 HtR3]
  · isplitr; · iapply (inv_at m K (c, some (false, fw c 3))); iexact Hrec
    isplitr; · iapply (inv_at m K (fw c 3, some (true, c))); iexact Hrec
    isplitl [Hy3]; · iexact Hy3
    isplitl [Hp3]; · iexact Hp3
    isplitl [HO]; · iexact HO
    isplitl [HtS3]; · iexact HtS3
    isplitr; · iapply (reached_at m K (c, some (false, fw c 3))); iexact Hrec
    isplitl [HtR3]; · iexact HtR3
    iapply (reached_at m K (fw c 3, some (true, c))); iexact Hrec
  iintro ⟨HcS3, HO⟩
  iapply (send_step m K c _ 4 (dev12_eq c) (yAll c (xstg m c) (wstg m c) fy0) fd4 _ (yAll_read c _ _ fy0 (fw c 4))) $$ [Hy4 Hp4 HO HtS4 HtR4]
  · isplitr; · iapply (inv_at m K (c, some (false, fw c 4))); iexact Hrec
    isplitr; · iapply (inv_at m K (fw c 4, some (true, c))); iexact Hrec
    isplitl [Hy4]; · iexact Hy4
    isplitl [Hp4]; · iexact Hp4
    isplitl [HO]; · iexact HO
    isplitl [HtS4]; · iexact HtS4
    isplitr; · iapply (reached_at m K (c, some (false, fw c 4))); iexact Hrec
    isplitl [HtR4]; · iexact HtR4
    iapply (reached_at m K (fw c 4, some (true, c))); iexact Hrec
  iintro ⟨HcS4, HO⟩
  iapply (send_step m K c _ 5 (dev13_eq c) (yAll c (xstg m c) (wstg m c) fy0) fd5 _ (yAll_read c _ _ fy0 (fw c 5))) $$ [Hy5 Hp5 HO HtS5 HtR5]
  · isplitr; · iapply (inv_at m K (c, some (false, fw c 5))); iexact Hrec
    isplitr; · iapply (inv_at m K (fw c 5, some (true, c))); iexact Hrec
    isplitl [Hy5]; · iexact Hy5
    isplitl [Hp5]; · iexact Hp5
    isplitl [HO]; · iexact HO
    isplitl [HtS5]; · iexact HtS5
    isplitr; · iapply (reached_at m K (c, some (false, fw c 5))); iexact Hrec
    isplitl [HtR5]; · iexact HtR5
    iapply (reached_at m K (fw c 5, some (true, c))); iexact Hrec
  iintro ⟨HcS5, HO⟩
  iapply (send_step m K c _ 6 (dev14_eq c) (yAll c (xstg m c) (wstg m c) fy0) fd6 _ (yAll_read c _ _ fy0 (fw c 6))) $$ [Hy6 Hp6 HO HtS6 HtR6]
  · isplitr; · iapply (inv_at m K (c, some (false, fw c 6))); iexact Hrec
    isplitr; · iapply (inv_at m K (fw c 6, some (true, c))); iexact Hrec
    isplitl [Hy6]; · iexact Hy6
    isplitl [Hp6]; · iexact Hp6
    isplitl [HO]; · iexact HO
    isplitl [HtS6]; · iexact HtS6
    isplitr; · iapply (reached_at m K (c, some (false, fw c 6))); iexact Hrec
    isplitl [HtR6]; · iexact HtR6
    iapply (reached_at m K (fw c 6, some (true, c))); iexact Hrec
  iintro ⟨HcS6, HO⟩
  -- the device's own chunk: its activation into its own row block
  unfold yPts
  iapply (wp_load 𝒱₀ (c : Thread nD τ) none Set.univ (m := yM) (S := (slotR c).set) (ySub _ _ c (off5_self c))) $$ Hyc; iintro Hyc
  rw [yRead_congr (c := c) _ _ c (off5_self c), yAll_read]
  iapply (wp_load 𝒱₀ (c : Thread nD τ) none Set.univ (m := oM) (Finset.subset_univ _)) $$ Hout; iintro Hout
  iapply (wp_store 𝒱₀ (c : Thread nD τ) none Set.univ (m := oM) (r := Rect.unit (s := S2048x256) (k0_off6 c) S256x256.size (k0_off6_inb c)) (Mk := Finset.univ) (Finset.subset_univ _)) $$ Hout; iintro Hout
  rw [oWrite_congr (c := c) _ _ c (off6_self c)]
  -- each landing awaited, its activation into its row block
  iapply (recv_wait_step m K c 0 (credit_any _) _ (Ocp_seven c) _) $$ [HcR0 HO HaR0]
  · isplitr; · iapply (inv_at m K (c, some (true, bk c 0))); iexact Hrec
    isplitl [HcR0]; · iexact HcR0
    isplitl [HO]; · iexact HO
    iexact HaR0
  iintro ⟨HO, HaR0, Hq0⟩
  unfold recvPay
  icases Hq0 with ⟨%gq0, %hgq0, Hq0⟩
  unfold rPts
  iapply (wp_load 𝒱₀ (c : Thread nD τ) none Set.univ (m := rM) (S := (slotR (bk c 0)).set) (rSub _ _ (bk c 0) (off9_at0 c))) $$ Hq0; iintro Hq0
  rw [rRead_congr (c := c) _ _ (bk c 0) (off9_at0 c), hgq0]
  iapply (wp_load 𝒱₀ (c : Thread nD τ) none Set.univ (m := oM) (Finset.subset_univ _)) $$ Hout; iintro Hout
  iapply (wp_store 𝒱₀ (c : Thread nD τ) none Set.univ (m := oM) (r := Rect.unit (s := S2048x256) (k0_off10 c 1#32) S256x256.size (k0_off10_inb c 0)) (Mk := Finset.univ) (Finset.subset_univ _)) $$ Hout; iintro Hout
  rw [oWrite_congr (c := c) _ _ (bk c 0) (off10_at0 c)]
  iapply (recv_wait_step m K c 1 (credit_any _) _ (Ocp_seven c) _) $$ [HcR1 HO HaR1]
  · isplitr; · iapply (inv_at m K (c, some (true, bk c 1))); iexact Hrec
    isplitl [HcR1]; · iexact HcR1
    isplitl [HO]; · iexact HO
    iexact HaR1
  iintro ⟨HO, HaR1, Hq1⟩
  unfold recvPay
  icases Hq1 with ⟨%gq1, %hgq1, Hq1⟩
  unfold rPts
  iapply (wp_load 𝒱₀ (c : Thread nD τ) none Set.univ (m := rM) (S := (slotR (bk c 1)).set) (rSub _ _ (bk c 1) (off9_at1 c))) $$ Hq1; iintro Hq1
  rw [rRead_congr (c := c) _ _ (bk c 1) (off9_at1 c), hgq1]
  iapply (wp_load 𝒱₀ (c : Thread nD τ) none Set.univ (m := oM) (Finset.subset_univ _)) $$ Hout; iintro Hout
  iapply (wp_store 𝒱₀ (c : Thread nD τ) none Set.univ (m := oM) (r := Rect.unit (s := S2048x256) (k0_off10 c 2#32) S256x256.size (k0_off10_inb c 1)) (Mk := Finset.univ) (Finset.subset_univ _)) $$ Hout; iintro Hout
  rw [oWrite_congr (c := c) _ _ (bk c 1) (off10_at1 c)]
  iapply (recv_wait_step m K c 2 (credit_any _) _ (Ocp_seven c) _) $$ [HcR2 HO HaR2]
  · isplitr; · iapply (inv_at m K (c, some (true, bk c 2))); iexact Hrec
    isplitl [HcR2]; · iexact HcR2
    isplitl [HO]; · iexact HO
    iexact HaR2
  iintro ⟨HO, HaR2, Hq2⟩
  unfold recvPay
  icases Hq2 with ⟨%gq2, %hgq2, Hq2⟩
  unfold rPts
  iapply (wp_load 𝒱₀ (c : Thread nD τ) none Set.univ (m := rM) (S := (slotR (bk c 2)).set) (rSub _ _ (bk c 2) (off9_at2 c))) $$ Hq2; iintro Hq2
  rw [rRead_congr (c := c) _ _ (bk c 2) (off9_at2 c), hgq2]
  iapply (wp_load 𝒱₀ (c : Thread nD τ) none Set.univ (m := oM) (Finset.subset_univ _)) $$ Hout; iintro Hout
  iapply (wp_store 𝒱₀ (c : Thread nD τ) none Set.univ (m := oM) (r := Rect.unit (s := S2048x256) (k0_off10 c 3#32) S256x256.size (k0_off10_inb c 2)) (Mk := Finset.univ) (Finset.subset_univ _)) $$ Hout; iintro Hout
  rw [oWrite_congr (c := c) _ _ (bk c 2) (off10_at2 c)]
  iapply (recv_wait_step m K c 3 (credit_any _) _ (Ocp_seven c) _) $$ [HcR3 HO HaR3]
  · isplitr; · iapply (inv_at m K (c, some (true, bk c 3))); iexact Hrec
    isplitl [HcR3]; · iexact HcR3
    isplitl [HO]; · iexact HO
    iexact HaR3
  iintro ⟨HO, HaR3, Hq3⟩
  unfold recvPay
  icases Hq3 with ⟨%gq3, %hgq3, Hq3⟩
  unfold rPts
  iapply (wp_load 𝒱₀ (c : Thread nD τ) none Set.univ (m := rM) (S := (slotR (bk c 3)).set) (rSub _ _ (bk c 3) (off9_at3 c))) $$ Hq3; iintro Hq3
  rw [rRead_congr (c := c) _ _ (bk c 3) (off9_at3 c), hgq3]
  iapply (wp_load 𝒱₀ (c : Thread nD τ) none Set.univ (m := oM) (Finset.subset_univ _)) $$ Hout; iintro Hout
  iapply (wp_store 𝒱₀ (c : Thread nD τ) none Set.univ (m := oM) (r := Rect.unit (s := S2048x256) (k0_off10 c 4#32) S256x256.size (k0_off10_inb c 3)) (Mk := Finset.univ) (Finset.subset_univ _)) $$ Hout; iintro Hout
  rw [oWrite_congr (c := c) _ _ (bk c 3) (off10_at3 c)]
  iapply (recv_wait_step m K c 4 (credit_any _) _ (Ocp_seven c) _) $$ [HcR4 HO HaR4]
  · isplitr; · iapply (inv_at m K (c, some (true, bk c 4))); iexact Hrec
    isplitl [HcR4]; · iexact HcR4
    isplitl [HO]; · iexact HO
    iexact HaR4
  iintro ⟨HO, HaR4, Hq4⟩
  unfold recvPay
  icases Hq4 with ⟨%gq4, %hgq4, Hq4⟩
  unfold rPts
  iapply (wp_load 𝒱₀ (c : Thread nD τ) none Set.univ (m := rM) (S := (slotR (bk c 4)).set) (rSub _ _ (bk c 4) (off9_at4 c))) $$ Hq4; iintro Hq4
  rw [rRead_congr (c := c) _ _ (bk c 4) (off9_at4 c), hgq4]
  iapply (wp_load 𝒱₀ (c : Thread nD τ) none Set.univ (m := oM) (Finset.subset_univ _)) $$ Hout; iintro Hout
  iapply (wp_store 𝒱₀ (c : Thread nD τ) none Set.univ (m := oM) (r := Rect.unit (s := S2048x256) (k0_off10 c 5#32) S256x256.size (k0_off10_inb c 4)) (Mk := Finset.univ) (Finset.subset_univ _)) $$ Hout; iintro Hout
  rw [oWrite_congr (c := c) _ _ (bk c 4) (off10_at4 c)]
  iapply (recv_wait_step m K c 5 (credit_any _) _ (Ocp_seven c) _) $$ [HcR5 HO HaR5]
  · isplitr; · iapply (inv_at m K (c, some (true, bk c 5))); iexact Hrec
    isplitl [HcR5]; · iexact HcR5
    isplitl [HO]; · iexact HO
    iexact HaR5
  iintro ⟨HO, HaR5, Hq5⟩
  unfold recvPay
  icases Hq5 with ⟨%gq5, %hgq5, Hq5⟩
  unfold rPts
  iapply (wp_load 𝒱₀ (c : Thread nD τ) none Set.univ (m := rM) (S := (slotR (bk c 5)).set) (rSub _ _ (bk c 5) (off9_at5 c))) $$ Hq5; iintro Hq5
  rw [rRead_congr (c := c) _ _ (bk c 5) (off9_at5 c), hgq5]
  iapply (wp_load 𝒱₀ (c : Thread nD τ) none Set.univ (m := oM) (Finset.subset_univ _)) $$ Hout; iintro Hout
  iapply (wp_store 𝒱₀ (c : Thread nD τ) none Set.univ (m := oM) (r := Rect.unit (s := S2048x256) (k0_off10 c 6#32) S256x256.size (k0_off10_inb c 5)) (Mk := Finset.univ) (Finset.subset_univ _)) $$ Hout; iintro Hout
  rw [oWrite_congr (c := c) _ _ (bk c 5) (off10_at5 c)]
  iapply (recv_wait_step m K c 6 (credit_any _) _ (Ocp_seven c) _) $$ [HcR6 HO HaR6]
  · isplitr; · iapply (inv_at m K (c, some (true, bk c 6))); iexact Hrec
    isplitl [HcR6]; · iexact HcR6
    isplitl [HO]; · iexact HO
    iexact HaR6
  iintro ⟨HO, HaR6, Hq6⟩
  unfold recvPay
  icases Hq6 with ⟨%gq6, %hgq6, Hq6⟩
  unfold rPts
  iapply (wp_load 𝒱₀ (c : Thread nD τ) none Set.univ (m := rM) (S := (slotR (bk c 6)).set) (rSub _ _ (bk c 6) (off9_at6 c))) $$ Hq6; iintro Hq6
  rw [rRead_congr (c := c) _ _ (bk c 6) (off9_at6 c), hgq6]
  iapply (wp_load 𝒱₀ (c : Thread nD τ) none Set.univ (m := oM) (Finset.subset_univ _)) $$ Hout; iintro Hout
  iapply (wp_store 𝒱₀ (c : Thread nD τ) none Set.univ (m := oM) (r := Rect.unit (s := S2048x256) (k0_off10 c 7#32) S256x256.size (k0_off10_inb c 6)) (Mk := Finset.univ) (Finset.subset_univ _)) $$ Hout; iintro Hout
  rw [oWrite_congr (c := c) _ _ (bk c 6) (off10_at6 c)]
  -- the departures awaited: the chunk slots whole again
  iapply (send_wait_step m K c 0 (credit_any _) _ rfl _) $$ [HcS0 HO HaS0]
  · isplitr; · iapply (inv_at m K (c, some (false, fw c 0))); iexact Hrec
    isplitl [HcS0]; · iexact HcS0
    isplitl [HO]; · iexact HO
    iexact HaS0
  iintro ⟨HO, HaS0, Hs0⟩
  iapply (send_wait_step m K c 1 (credit_any _) _ rfl _) $$ [HcS1 HO HaS1]
  · isplitr; · iapply (inv_at m K (c, some (false, fw c 1))); iexact Hrec
    isplitl [HcS1]; · iexact HcS1
    isplitl [HO]; · iexact HO
    iexact HaS1
  iintro ⟨HO, HaS1, Hs1⟩
  iapply (send_wait_step m K c 2 (credit_any _) _ rfl _) $$ [HcS2 HO HaS2]
  · isplitr; · iapply (inv_at m K (c, some (false, fw c 2))); iexact Hrec
    isplitl [HcS2]; · iexact HcS2
    isplitl [HO]; · iexact HO
    iexact HaS2
  iintro ⟨HO, HaS2, Hs2⟩
  iapply (send_wait_step m K c 3 (credit_any _) _ rfl _) $$ [HcS3 HO HaS3]
  · isplitr; · iapply (inv_at m K (c, some (false, fw c 3))); iexact Hrec
    isplitl [HcS3]; · iexact HcS3
    isplitl [HO]; · iexact HO
    iexact HaS3
  iintro ⟨HO, HaS3, Hs3⟩
  iapply (send_wait_step m K c 4 (credit_any _) _ rfl _) $$ [HcS4 HO HaS4]
  · isplitr; · iapply (inv_at m K (c, some (false, fw c 4))); iexact Hrec
    isplitl [HcS4]; · iexact HcS4
    isplitl [HO]; · iexact HO
    iexact HaS4
  iintro ⟨HO, HaS4, Hs4⟩
  iapply (send_wait_step m K c 5 (credit_any _) _ rfl _) $$ [HcS5 HO HaS5]
  · isplitr; · iapply (inv_at m K (c, some (false, fw c 5))); iexact Hrec
    isplitl [HcS5]; · iexact HcS5
    isplitl [HO]; · iexact HO
    iexact HaS5
  iintro ⟨HO, HaS5, Hs5⟩
  iapply (send_wait_step m K c 6 (credit_any _) _ rfl _) $$ [HcS6 HO HaS6]
  · isplitr; · iapply (inv_at m K (c, some (false, fw c 6))); iexact Hrec
    isplitl [HcS6]; · iexact HcS6
    isplitl [HO]; · iexact HO
    iexact HaS6
  iintro ⟨HO, HaS6, Hs6⟩
  -- the sixteen own cells close: their counters at zero are the device's again
  imod (Rounds.cell_close ER (sched m) (Set.mem_univ (K (c, some (false, fw c 0)))) (fun h => h) (R := 1) (duties_later m (sendCell c (fw c 0)))) $$ [HaS0] with HzS0
  · isplitr; · iapply (inv_at m K (c, some (false, fw c 0))); iexact Hrec
    iexact HaS0
  imod (Rounds.cell_close ER (sched m) (Set.mem_univ (K (c, some (true, bk c 0)))) (fun h => h) (R := 1) (duties_later m (recvCell c (bk c 0)))) $$ [HaR0] with HzR0
  · isplitr; · iapply (inv_at m K (c, some (true, bk c 0))); iexact Hrec
    iexact HaR0
  imod (Rounds.cell_close ER (sched m) (Set.mem_univ (K (c, some (false, fw c 1)))) (fun h => h) (R := 1) (duties_later m (sendCell c (fw c 1)))) $$ [HaS1] with HzS1
  · isplitr; · iapply (inv_at m K (c, some (false, fw c 1))); iexact Hrec
    iexact HaS1
  imod (Rounds.cell_close ER (sched m) (Set.mem_univ (K (c, some (true, bk c 1)))) (fun h => h) (R := 1) (duties_later m (recvCell c (bk c 1)))) $$ [HaR1] with HzR1
  · isplitr; · iapply (inv_at m K (c, some (true, bk c 1))); iexact Hrec
    iexact HaR1
  imod (Rounds.cell_close ER (sched m) (Set.mem_univ (K (c, some (false, fw c 2)))) (fun h => h) (R := 1) (duties_later m (sendCell c (fw c 2)))) $$ [HaS2] with HzS2
  · isplitr; · iapply (inv_at m K (c, some (false, fw c 2))); iexact Hrec
    iexact HaS2
  imod (Rounds.cell_close ER (sched m) (Set.mem_univ (K (c, some (true, bk c 2)))) (fun h => h) (R := 1) (duties_later m (recvCell c (bk c 2)))) $$ [HaR2] with HzR2
  · isplitr; · iapply (inv_at m K (c, some (true, bk c 2))); iexact Hrec
    iexact HaR2
  imod (Rounds.cell_close ER (sched m) (Set.mem_univ (K (c, some (false, fw c 3)))) (fun h => h) (R := 1) (duties_later m (sendCell c (fw c 3)))) $$ [HaS3] with HzS3
  · isplitr; · iapply (inv_at m K (c, some (false, fw c 3))); iexact Hrec
    iexact HaS3
  imod (Rounds.cell_close ER (sched m) (Set.mem_univ (K (c, some (true, bk c 3)))) (fun h => h) (R := 1) (duties_later m (recvCell c (bk c 3)))) $$ [HaR3] with HzR3
  · isplitr; · iapply (inv_at m K (c, some (true, bk c 3))); iexact Hrec
    iexact HaR3
  imod (Rounds.cell_close ER (sched m) (Set.mem_univ (K (c, some (false, fw c 4)))) (fun h => h) (R := 1) (duties_later m (sendCell c (fw c 4)))) $$ [HaS4] with HzS4
  · isplitr; · iapply (inv_at m K (c, some (false, fw c 4))); iexact Hrec
    iexact HaS4
  imod (Rounds.cell_close ER (sched m) (Set.mem_univ (K (c, some (true, bk c 4)))) (fun h => h) (R := 1) (duties_later m (recvCell c (bk c 4)))) $$ [HaR4] with HzR4
  · isplitr; · iapply (inv_at m K (c, some (true, bk c 4))); iexact Hrec
    iexact HaR4
  imod (Rounds.cell_close ER (sched m) (Set.mem_univ (K (c, some (false, fw c 5)))) (fun h => h) (R := 1) (duties_later m (sendCell c (fw c 5)))) $$ [HaS5] with HzS5
  · isplitr; · iapply (inv_at m K (c, some (false, fw c 5))); iexact Hrec
    iexact HaS5
  imod (Rounds.cell_close ER (sched m) (Set.mem_univ (K (c, some (true, bk c 5)))) (fun h => h) (R := 1) (duties_later m (recvCell c (bk c 5)))) $$ [HaR5] with HzR5
  · isplitr; · iapply (inv_at m K (c, some (true, bk c 5))); iexact Hrec
    iexact HaR5
  imod (Rounds.cell_close ER (sched m) (Set.mem_univ (K (c, some (false, fw c 6)))) (fun h => h) (R := 1) (duties_later m (sendCell c (fw c 6)))) $$ [HaS6] with HzS6
  · isplitr; · iapply (inv_at m K (c, some (false, fw c 6))); iexact Hrec
    iexact HaS6
  imod (Rounds.cell_close ER (sched m) (Set.mem_univ (K (c, some (true, bk c 6)))) (fun h => h) (R := 1) (duties_later m (recvCell c (bk c 6)))) $$ [HaR6] with HzR6
  · isplitr; · iapply (inv_at m K (c, some (true, bk c 6))); iexact Hrec
    iexact HaR6
  imod (Rounds.cell_close ER (sched m) (Set.mem_univ (K (c, some (false, c)))) (fun h => h) (R := 0) (fun r _ => duties_send_self m c r)) $$ [HaSc] with HzSc
  · isplitr; · iapply (inv_at m K (c, some (false, c))); iexact Hrec
    iexact HaSc
  imod (Rounds.cell_close ER (sched m) (Set.mem_univ (K (c, some (true, c)))) (fun h => h) (R := 0) (fun r _ => duties_recv_self m c r)) $$ [HaRc] with HzRc
  · isplitr; · iapply (inv_at m K (c, some (true, c))); iexact Hrec
    iexact HaRc
  rw [wp_ret]; imodintro
  iapply Hk
  unfold bodyPost Φ₁ Dat.owesAt Pipeline.owesWithin sendPay
  rw [show (dats m 0 c).owed t₀.succ = 0 from rfl]
  isplitl [Hyc Hs0 Hs1 Hs2 Hs3 Hs4 Hs5 Hs6 Hrc Hq0 Hq1 Hq2 Hq3 Hq4 Hq5 Hq6 HzSc HzS0 HzS1 HzS2 HzS3 HzS4 HzS5 HzS6 HzRc HzR0 HzR1 HzR2 HzR3 HzR4 HzR5 HzR6]
  · isplitl [Hyc Hs0 Hs1 Hs2 Hs3 Hs4 Hs5 Hs6]
    · iapply (join_y c)
      isplitl [Hyc]; · iexists _; unfold yPts; iexact Hyc
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hs6
    isplitl [Hrc Hq0 Hq1 Hq2 Hq3 Hq4 Hq5 Hq6]
    · iapply (join_r c)
      isplitl [Hrc]; · iexists fr0; unfold rPts; iexact Hrc
      isplitl [Hq0]; · iexists gq0; unfold rPts; iexact Hq0
      isplitl [Hq1]; · iexists gq1; unfold rPts; iexact Hq1
      isplitl [Hq2]; · iexists gq2; unfold rPts; iexact Hq2
      isplitl [Hq3]; · iexists gq3; unfold rPts; iexact Hq3
      isplitl [Hq4]; · iexists gq4; unfold rPts; iexact Hq4
      isplitl [Hq5]; · iexists gq5; unfold rPts; iexact Hq5
      iexists gq6; unfold rPts; iexact Hq6
    iapply (semVals_intro (F := F) c)
    isplitl [HzSc HzS0 HzS1 HzS2 HzS3 HzS4 HzS5 HzS6]
    · isplitl [HzSc]; · iexact HzSc
      isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      iexact HzS6
    · isplitl [HzRc]; · iexact HzRc
      isplitl [HzR0]; · iexact HzR0
      isplitl [HzR1]; · iexact HzR1
      isplitl [HzR2]; · iexact HzR2
      isplitl [HzR3]; · iexact HzR3
      isplitl [HzR4]; · iexact HzR4
      isplitl [HzR5]; · iexact HzR5
      iexact HzR6
  isplitl [HO]
  · iexists _
    isplitr [HO]
    rotate_left
    · iexact HO
    · ipureintro; exact fun _ _ => Or.inl trivial
  isplitl [Hx]; · iexists _; isplitr; · (ipureintro; rfl)
                  iexact Hx
  isplitl [Hw]; · iexists _; isplitr; · (ipureintro; rfl)
                  iexact Hw
  iexists _; isplitr
  · ipureintro; exact oAll_eq m c g2
  rw [← oAll_unfold m c g2]
  iexact Hout

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- The library's body obligation on device c. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) cc0_scratch2 cc0_scratch3) (fun _ => bodyPost m c)
  unfold bodyPre' Φ₀ start
  iintro ⟨⟨⟨⟨%K, Hg⟩, Hrest⟩, Hy, Hr⟩, Ho, Hx, Hw, Hout⟩
  iapply (sound_body m K c fun _ => bodyPost m c)
  unfold bodyPre
  isplitr []
  · isplitl [Hg Hrest Hy Hr]
    · isplitl [Hg]; · iexact Hg
      icases Hrest with ⟨H1, H2, H3⟩
      isplitl [H1]; · iexact H1
      isplitl [H2]; · iexact H2
      isplitl [H3]; · iexact H3
      isplitl [Hy]; · iexact Hy
      iexact Hr
    isplitl [Ho]; · iexact Ho
    isplitl [Hx]; · iexact Hx
    isplitl [Hw]; · iexact Hw
    iexact Hout
  · iintro H; iexact H

end Cert.KernelIdeal.A2A

end
-- ==== Proof.A2AStepsW.lean ====
/-
  The pieces of one device's run of the all-to-all body: what a copy lands, the slots of the two scratch buffers, the
  steps of the protocol at a symbolic place of the ring, and what the chunk buffer and the result hold after their
  stores.
-/
import proofs.«900437_g7700000000000438_dist_gemm_a2a_m2048_k2048_n2048_f32_gelu_v7x_i8_1_alg».proof.Proof.A2AGhostW
import proofs.«900437_g7700000000000438_dist_gemm_a2a_m2048_k2048_n2048_f32_gelu_v7x_i8_1_alg».proof.Proof.LibCanonPieces

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Slots as the body's memrefs name them -/

/-- What a copy lands, read back at the landing slot, is the source slot as it stood. -/
theorem copy_read {c c' : Dev nD} (off1 off2 : Fin 3 → Nat) (p1 : ∀ a, off1 a + S1x256x256.size a ≤ S8x256x256.size a) (p2 : ∀ a, off2 a + S1x256x256.size a ≤ S8x256x256.size a)
    (fs : Buf (Elt F) ((c : Thread nD τ).loc cc0_scratch0)) (fd : Buf (Elt F) ((c' : Thread nD τ).loc cc0_scratch1)) :
    rM.view.readAt (Elt F) (Rect.unit (s := S8x256x256) off2 S1x256x256.size p2).toLoadRect
      ((((rM.slice (Rect.unit (s := S8x256x256) off2 S1x256x256.size p2) (fun _ => rfl)).squeeze S256x256 squeezes_S1x256x256_S256x256 : Memref sig .tc .vmem S256x256 .bf16).view).write (Elt F) fd
        (((yM.slice (Rect.unit (s := S8x256x256) off1 S1x256x256.size p1) (fun _ => rfl)).squeeze S256x256 squeezes_S1x256x256_S256x256 : Memref sig .tc .vmem S256x256 .bf16).view.read (Elt F) fs) Finset.univ)
    = yM.view.readAt (Elt F) (Rect.unit (s := S8x256x256) off1 S1x256x256.size p1).toLoadRect fs := by
  funext x
  unfold View.readAt
  simp only [Memref.view_whole, View.read_whole]
  have e2 : (Rect.unit (s := S8x256x256) off2 S1x256x256.size p2).idx x
      = (((View.whole cc0_scratch1 : View sig .tc _ _ _).slice (Rect.unit off2 S1x256x256.size p2)).reshape S256x256 squeezes_S1x256x256_S256x256.numel_eq).emb
          ((Shape.reshapeEquiv squeezes_S1x256x256_S256x256.numel_eq).symm x) := by
    simp [View.emb_reshape, View.emb_slice]; rfl
  rw [e2, View.write_emb_of_mem _ _ (Finset.mem_univ _), View.read_apply]
  simp [View.emb_reshape, View.emb_slice]
  rfl

/-- The same at slots named by device numbers. -/
theorem copy_read_slots {c c' : Dev nD} (off1 off2 : Fin 3 → Nat) (p1 : ∀ a, off1 a + S1x256x256.size a ≤ S8x256x256.size a) (p2 : ∀ a, off2 a + S1x256x256.size a ≤ S8x256x256.size a)
    (j1 j2 : Dev nD) (h1 : off1 = ![j1.val, 0, 0]) (h2 : off2 = ![j2.val, 0, 0])
    (fs : Buf (Elt F) ((c : Thread nD τ).loc cc0_scratch0)) (fd : Buf (Elt F) ((c' : Thread nD τ).loc cc0_scratch1)) :
    rM.view.readAt (Elt F) (slotR j2).toLoadRect
      ((((rM.slice (Rect.unit (s := S8x256x256) off2 S1x256x256.size p2) (fun _ => rfl)).squeeze S256x256 squeezes_S1x256x256_S256x256 : Memref sig .tc .vmem S256x256 .bf16).view).write (Elt F) fd
        (((yM.slice (Rect.unit (s := S8x256x256) off1 S1x256x256.size p1) (fun _ => rfl)).squeeze S256x256 squeezes_S1x256x256_S256x256 : Memref sig .tc .vmem S256x256 .bf16).view.read (Elt F) fs) Finset.univ)
    = yM.view.readAt (Elt F) (slotR j1).toLoadRect fs := by
  subst h1 h2
  exact copy_read _ _ p1 p2 fs fd

/-- A squeezed slot's elements are the slot's. -/
theorem ySlot_set (off : Fin 3 → Nat) (p : ∀ a, off a + S1x256x256.size a ≤ S8x256x256.size a) (j : Dev nD) (h : off = ![j.val, 0, 0]) :
    ((yM.slice (Rect.unit (s := S8x256x256) off S1x256x256.size p) (fun _ => rfl)).squeeze S256x256 squeezes_S1x256x256_S256x256 : Memref sig .tc .vmem S256x256 .bf16).view.set = (slotR j).set := by
  subst h
  simp only [Memref.view_squeeze, Memref.view_slice, View.set_reshape, Memref.view_whole, View.set_slice_whole]
  rfl
theorem rSlot_set (off : Fin 3 → Nat) (p : ∀ a, off a + S1x256x256.size a ≤ S8x256x256.size a) (j : Dev nD) (h : off = ![j.val, 0, 0]) :
    ((rM.slice (Rect.unit (s := S8x256x256) off S1x256x256.size p) (fun _ => rfl)).squeeze S256x256 squeezes_S1x256x256_S256x256 : Memref sig .tc .vmem S256x256 .bf16).view.set = (slotR j).set := by
  subst h
  simp only [Memref.view_squeeze, Memref.view_slice, View.set_reshape, Memref.view_whole, View.set_slice_whole]
  rfl

/-- The r-th copy's source (slot c + r + 1 of the chunk buffer) and every copy's destination (slot c of the peer's
    landing buffer), as the body spells them. -/
abbrev srcP (c : Dev nD) (r : Fin 7) : Memref sig .tc .vmem S256x256 .bf16 :=
  (yM.slice (Rect.unit (s := S8x256x256) (k0_off4 c (BitVec.ofNat 32 (1 + r.val))) S1x256x256.size (k0_off4_inb c r)) (fun _ => rfl)).squeeze S256x256 squeezes_S1x256x256_S256x256
abbrev dstP (c : Dev nD) : Memref sig .tc .vmem S256x256 .bf16 :=
  (rM.slice (Rect.unit (s := S8x256x256) (k0_off3 c) S1x256x256.size (k0_off3_inb c)) (fun _ => rfl)).squeeze S256x256 squeezes_S1x256x256_S256x256

theorem off4_fw (c : Dev nD) (r : Fin 7) : k0_off4 c (BitVec.ofNat 32 (1 + r.val)) = ![(fw c r).val, 0, 0] := k0_off4_eq c r
theorem off3_self (c : Dev nD) : k0_off3 c = ![c.val, 0, 0] := k0_off3_eq c
theorem off5_self (c : Dev nD) : k0_off5 c = ![c.val, 0, 0] := k0_off5_eq c
theorem off8_bk (c : Dev nD) (r : Fin 7) : k0_off8 c (BitVec.ofNat 32 (1 + r.val)) = ![(bk c r).val, 0, 0] := k0_off8_eq c r
theorem off9_bk (c : Dev nD) (r : Fin 7) : k0_off9 c (BitVec.ofNat 32 (1 + r.val)) = ![(bk c r).val, 0, 0] := k0_off9_eq c r

theorem srcP_set (c : Dev nD) (r : Fin 7) : (srcP c r).view.set = (slotR (fw c r)).set := ySlot_set _ _ _ (off4_fw c r)
theorem dstP_set (c : Dev nD) : (dstP c).view.set = (slotR c).set := rSlot_set _ _ _ (off3_self c)

/-! ## Round the ring, one by one -/

theorem bigSep_ring_fw (c : Dev nD) {M : Type} [URA M] (Φ : Dev nD → sProp M) :
    bigSep Finset.univ Φ = iprop(Φ c ∗ Φ (fw c 0) ∗ Φ (fw c 1) ∗ Φ (fw c 2) ∗ Φ (fw c 3) ∗ Φ (fw c 4) ∗ Φ (fw c 5) ∗ Φ (fw c 6)) := by
  rw [bigSep_univ_at _ c, erase_eq_map, bigSep_map, bigSep_fin7]; rfl
theorem bigSep_ring_bk (c : Dev nD) {M : Type} [URA M] (Φ : Dev nD → sProp M) :
    bigSep Finset.univ Φ = iprop(Φ c ∗ Φ (bk c 0) ∗ Φ (bk c 1) ∗ Φ (bk c 2) ∗ Φ (bk c 3) ∗ Φ (bk c 4) ∗ Φ (bk c 5) ∗ Φ (bk c 6)) := by
  rw [bigSep_univ_at _ c, erase_eq_map_bk, bigSep_map, bigSep_fin7]; rfl

theorem univ_KC3 : (Finset.univ : Finset KC) = insert none (Finset.univ.map (Function.Embedding.some : KO ↪ KC)) := by decide
theorem bigSep_cells3 {M : Type} [URA M] (Φ : KC → sProp M) :
    bigSep Finset.univ Φ = iprop(Φ none ∗ (bigSep Finset.univ fun t : Dev nD => Φ (some (false, t))) ∗ bigSep Finset.univ fun s : Dev nD => Φ (some (true, s))) := by
  rw [univ_KC3, bigSep_insert (by decide), bigSep_map, bigSep_univ_prod, bigSep_univ_eq_bigSepL [false, true] (by decide) (by decide), bigSepL_cons_cons, bigSepL_singleton]
  rfl

/-! ## The steps of the protocol, each at a symbolic place r of the ring -/

/-- The r-th barrier unit, to device c + r + 1: with it goes the slot of c's landing buffer that device will write. -/
theorem sig_step (K : Dev nD × KC → ℕ) (c n : Dev nD) (r : Fin 7) (hn : n = fw c r) {k' : ℕ} (hk' : 1 = k')
    {α : Type} {Q : α → sProp 𝕄} {k : PUnit → Prog (TpuEff nD τ sig (Elt F) Λ₀ .tc) α}
    (f : Buf (Elt F) ((c : Thread nD τ).loc cc0_scratch1)) (W : Waits sig Unit) :
    iprop(cellInv ER (sched m) (K (fw c r, none)) (barCell (fw c r)) ∗ owes (c : Thread nD τ) (Ocp c 0 + Osig c r.val) W
        ∗ dutyTok ER (barCell (fw c r)) 0 c ∗ rPts c (fw c r) f ∗ reached ER (barCell (fw c r)) 0)
      ⊢ iprop((owes (c : Thread nD τ) (Ocp c 0 + Osig c (r.val + 1)) W -∗ wp frame (wpE' (defs₀ (F := F)) 𝒱₀ (c : Thread nD τ) none PendingWaitsCtx.empty) Set.univ (k ⟨⟩) Q)
          -∗ wp frame (wpE' (defs₀ (F := F)) 𝒱₀ (c : Thread nD τ) none PendingWaitsCtx.empty) Set.univ (.op (.semSignal (n : Thread nD τ) barS k') k) Q) := by
  subst hn; subst hk'
  refine (sep_mono_right (sep_mono_right (sep_mono_right (sep_mono_left ?_)))).trans
    (Rounds.wp_signal 𝒱₀ ER (sched m) (c : Thread nD τ) none (dst := (fw c r : Thread nD τ)) (κ := K (fw c r, none)) (d := c)
      (by rw [duties_bar]; exact Finset.mem_erase.mpr ⟨ne_fw c r, Finset.mem_univ _⟩) (amount_bar m (fw c r) c) () (Ocp c 0 + Osig c (r.val + 1))
      (by rw [Osig_step c r, add_assoc]))
  rw [payload_bar]; unfold barPay
  iintro H; iexists f; iexact H

/-- The barrier wait for all seven units: every peer's slot for this device comes with it. -/
theorem bar_wait_step (K : Dev nD × KC → ℕ) (c : Dev nD) {k' : ℕ} (hk' : 7 = k')
    {α : Type} {Q : α → sProp 𝕄} {k : PUnit → Prog (TpuEff nD τ sig (Elt F) Λ₀ .tc) α} (W : Waits sig Unit) :
    iprop(cellInv ER (sched m) (K (c, none)) (barCell c) ∗ cred (tallyAt (barCell c) () 7) ∗ owes (c : Thread nD τ) (Ocp c 0 + Osig c 7) W
        ∗ levAts L lv ∗ atPos ER (barCell c) 0 ∅ 0)
      ⊢ iprop(((owes (c : Thread nD τ) (Ocp c 0 + Osig c 7) (insert (SemLoc.reg barS, ()) W) ∗ atPos ER (barCell c) 1 ∅ 0
              ∗ (barPay (F := F) (fw c 0) c ∗ barPay (F := F) (fw c 1) c ∗ barPay (F := F) (fw c 2) c ∗ barPay (F := F) (fw c 3) c ∗ barPay (F := F) (fw c 4) c ∗ barPay (F := F) (fw c 5) c ∗ barPay (F := F) (fw c 6) c))
            -∗ wp frame (wpE' (defs₀ (F := F)) 𝒱₀ (c : Thread nD τ) none PendingWaitsCtx.empty) Set.univ (k ⟨⟩) Q)
          -∗ wp frame (wpE' (defs₀ (F := F)) 𝒱₀ (c : Thread nD τ) none PendingWaitsCtx.empty) Set.univ (.op (.semWait barS k') k) Q) := by
  subst hk'
  iintro ⟨#HI, Hc, HO, #Hlev, Hat⟩ Hk
  iapply (Rounds.wp_wait_rest_token 𝒱₀ ER (sched m) (c : Thread nD τ) none (κ := K (c, none))
      (wpE_semWait_eq 𝒱₀ (c : Thread nD τ) none Set.univ) (Set.mem_univ _) () (O := Ocp c 0 + Osig c 7) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  iapply Hk
  isplitl [HO]; · iexact HO
  isplitl [Hat]; · iexact Hat
  iapply (Entails.of_eq (rest_bar m c)); iexact Hpay

/-- The r-th copy: chunk c + r + 1 leaves for slot c of that device's landing buffer. -/
theorem send_step (K : Dev nD × KC → ℕ) (c n : Dev nD) (r : Fin 7) (hn : n = fw c r)
    {hsc : (dstP c : Memref sig (Dev.tc n : Thread nD τ).2.kind .vmem S256x256 .bf16).view.ref.isScScratch = false}
    {hsrc : (srcP c r).view.WordExact} {hdst : (dstP c).view.WordExact}
    {hsem : DmaTarget.Typed .vmem (.dma (recvS c)) (.remote (Dev.tc n : Thread nD τ) (dstP c) (.dma (sendS (fw c r))) hsc)}
    {α : Type} {Q : α → sProp 𝕄} {k : PUnit → Prog (TpuEff nD τ sig (Elt F) Λ₀ .tc) α}
    (fs : Buf (Elt F) ((c : Thread nD τ).loc cc0_scratch0)) (fd : Buf (Elt F) ((fw c r : Thread nD τ).loc cc0_scratch1))
    (W : Waits sig Unit)
    (hfs : yM.view.readAt (Elt F) (slotR (fw c r)).toLoadRect fs = chunkOf m c (fw c r)) :
    iprop(cellInv ER (sched m) (K (c, some (false, fw c r))) (sendCell c (fw c r)) ∗ cellInv ER (sched m) (K (fw c r, some (true, c))) (recvCell (fw c r) c)
        ∗ yPts c (fw c r) fs ∗ rPts (fw c r) c fd
        ∗ owes (c : Thread nD τ) (Ocp c r.val) W
        ∗ dutyTok ER (sendCell c (fw c r)) 0 c ∗ reached ER (sendCell c (fw c r)) 0
        ∗ dutyTok ER (recvCell (fw c r) c) 0 c ∗ reached ER (recvCell (fw c r) c) 0)
      ⊢ iprop(((cred (tallyAt (sendCell c (fw c r)) () N) ∗ owes (c : Thread nD τ) (Ocp c (r.val + 1)) W)
            -∗ wp frame (wpE' (defs₀ (F := F)) 𝒱₀ (c : Thread nD τ) none PendingWaitsCtx.empty) Set.univ (k ⟨⟩) Q)
          -∗ wp frame (wpE' (defs₀ (F := F)) 𝒱₀ (c : Thread nD τ) none PendingWaitsCtx.empty) Set.univ
              (.op (.enqueueDma (srcP c r) (.remote (Dev.tc n : Thread nD τ) (dstP c) (.dma (sendS (fw c r))) hsc) (.dma (recvS c)) hsrc hdst hsem) k) Q) := by
  subst hn
  unfold yPts rPts
  rw [← srcP_set c r, ← dstP_set c]
  exact Rounds.wp_send_pointsTo 𝒱₀ ER (sched m) (c : Thread nD τ) none (κ₁ := K (c, some (false, fw c r))) (κ₂ := K (fw c r, some (true, c)))
    (r₁ := 0) (r₂ := 0) (d₁ := c) (d₂ := c) (fs := fs) (fd := fd) (src := srcP c r) (dst := dstP c) (q := fullShare) (c' := (fw c r : Thread nD τ))
    (by rw [duties_send m c _ (fw_ne c r)]; exact Finset.mem_singleton_self _) (by rw [duties_recv m (fw c r) c (ne_fw c r)]; exact Finset.mem_singleton_self _)
    () () N rfl (amount_send m c _ c) (amount_recv m _ c c) (Ocp c (r.val + 1)) (Ocp_step c r) (W := W)
    (by rw [payload_send, srcP_set]; unfold sendPay yPts; iintro H; iexists fs; iexact H)
    (by
      rw [payload_recv, dstP_set]; unfold recvPay rPts
      iintro H; iexists _
      isplitr
      · ipureintro
        exact (copy_read_slots _ _ (k0_off4_inb c r) (k0_off3_inb c) (fw c r) c (off4_fw c r) (off3_self c) fs fd).trans hfs
      · iexact H)

/-- The wait for peer c + 7 - r's landing: its chunk for this device, in its slot. -/
theorem recv_wait_step (K : Dev nD × KC → ℕ) (c : Dev nD) (r : Fin 7)
    {sp' : Space} {s' : Shape} {e' : EltTy} {src : Memref sig Kind.tc sp' s' e'} {κ' : Kind} {sp : Space} {s : Shape} {e : EltTy} {dst : Memref sig κ' sp s e}
    {hsrc : src.view.WordExact} {hdst : dst.view.WordExact} (hN : dst.view.dmaCredit = N)
    {α : Type} {Q : α → sProp 𝕄} {k : PUnit → Prog (TpuEff nD τ sig (Elt F) Λ₀ .tc) α} (O : CellTallies nD τ sig Unit) (hO : O = 0) (W : Waits sig Unit) :
    iprop(cellInv ER (sched m) (K (c, some (true, bk c r))) (recvCell c (bk c r)) ∗ cred (tallyAt (recvCell c (bk c r)) () N)
        ∗ owes (c : Thread nD τ) O W ∗ atPos ER (recvCell c (bk c r)) 0 ∅ 0)
      ⊢ iprop(((owes (c : Thread nD τ) 0 (insert (SemLoc.dma (recvS (bk c r)), ()) W) ∗ atPos ER (recvCell c (bk c r)) 1 ∅ 0 ∗ recvPay m c (bk c r))
            -∗ wp frame (wpE' (defs₀ (F := F)) 𝒱₀ (c : Thread nD τ) none PendingWaitsCtx.empty) Set.univ (k ⟨⟩) Q)
          -∗ wp frame (wpE' (defs₀ (F := F)) 𝒱₀ (c : Thread nD τ) none PendingWaitsCtx.empty) Set.univ (.op (.waitDma2 (recvS (bk c r)) src dst hsrc hdst) k) Q) := by
  subst hO
  iintro ⟨#HI, Hc, HO, Hat⟩ Hk
  iapply (Rounds.wp_wait_rest_token 𝒱₀ ER (sched m) (c : Thread nD τ) none (κ := K (c, some (true, bk c r)))
      (wpE_waitDma2_eq 𝒱₀ (c : Thread nD τ) none Set.univ) (Set.mem_univ _) () (O := 0) (W := W) (R := 0) (m := 0) (T := ∅)
      (by rw [Nat.zero_add, hN, expect_recv m c _ (bk_ne c r)])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_recv m c _ (bk_ne c r))); iexact Hpay

/-- The wait for the departure of chunk c + r + 1: its slot whole again. -/
theorem send_wait_step (K : Dev nD × KC → ℕ) (c : Dev nD) (r : Fin 7)
    {sp' : Space} {s' : Shape} {e' : EltTy} {src : Memref sig Kind.tc sp' s' e'} {κ' : Kind} {sp : Space} {s : Shape} {e : EltTy} {dst : Memref sig κ' sp s e}
    {hsrc : src.view.WordExact} {hdst : dst.view.WordExact} (hN : dst.view.dmaCredit = N)
    {α : Type} {Q : α → sProp 𝕄} {k : PUnit → Prog (TpuEff nD τ sig (Elt F) Λ₀ .tc) α} (O : CellTallies nD τ sig Unit) (hO : O = 0) (W : Waits sig Unit) :
    iprop(cellInv ER (sched m) (K (c, some (false, fw c r))) (sendCell c (fw c r)) ∗ cred (tallyAt (sendCell c (fw c r)) () N)
        ∗ owes (c : Thread nD τ) O W ∗ atPos ER (sendCell c (fw c r)) 0 ∅ 0)
      ⊢ iprop(((owes (c : Thread nD τ) 0 (insert (SemLoc.dma (sendS (fw c r)), ()) W) ∗ atPos ER (sendCell c (fw c r)) 1 ∅ 0 ∗ sendPay (F := F) c (fw c r))
            -∗ wp frame (wpE' (defs₀ (F := F)) 𝒱₀ (c : Thread nD τ) none PendingWaitsCtx.empty) Set.univ (k ⟨⟩) Q)
          -∗ wp frame (wpE' (defs₀ (F := F)) 𝒱₀ (c : Thread nD τ) none PendingWaitsCtx.empty) Set.univ (.op (.waitDma2 (sendS (fw c r)) src dst hsrc hdst) k) Q) := by
  subst hO
  iintro ⟨#HI, Hc, HO, Hat⟩ Hk
  iapply (Rounds.wp_wait_rest_token 𝒱₀ ER (sched m) (c : Thread nD τ) none (κ := K (c, some (false, fw c r)))
      (wpE_waitDma2_eq 𝒱₀ (c : Thread nD τ) none Set.univ) (Set.mem_univ _) () (O := 0) (W := W) (R := 0) (m := 0) (T := ∅)
      (by rw [Nat.zero_add, hN, expect_send m c _ (fw_ne c r)])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_send m c _ (fw_ne c r))); iexact Hpay

/-! ## The scratch buffers by slots -/

theorem slots_disjoint : ∀ j ∈ (Finset.univ : Finset (Dev nD)), ∀ j' ∈ (Finset.univ : Finset (Dev nD)), j ≠ j' → Disjoint (slotR j).set (slotR j').set := by
  intro j _ j' _ h
  unfold slotR
  refine Rect.unit_disjoint (0 : Fin 3) ?_
  have : j.val ≠ j'.val := fun e => h (Fin.ext e)
  show j.val + 1 ≤ j'.val ∨ j'.val + 1 ≤ j.val
  omega

theorem slots_cover : (Finset.univ : Finset (Dev nD)).biUnion (fun j => (slotR j).set) = Finset.univ := by
  ext i
  simp only [Finset.mem_biUnion, Finset.mem_univ, true_and, iff_true]
  refine ⟨⟨(i 0).val, (i 0).isLt⟩, ?_⟩
  unfold slotR; rw [Rect.mem_set_unit]
  intro a
  have h1 : (i 1).val < 256 := (i 1).isLt
  have h2 : (i 2).val < 256 := (i 2).isLt
  fin_cases a
  · exact ⟨Nat.le_refl _, Nat.lt_succ_self _⟩
  · exact ⟨Nat.zero_le _, by show (i 1).val < 0 + 256; omega⟩
  · exact ⟨Nat.zero_le _, by show (i 2).val < 0 + 256; omega⟩

theorem split_slots {ℓ : Loc nD τ sig} (Ks : Dev nD → Finset (Idx ℓ))
    (hd : ∀ j ∈ (Finset.univ : Finset (Dev nD)), ∀ j' ∈ (Finset.univ : Finset (Dev nD)), j ≠ j' → Disjoint (Ks j) (Ks j'))
    (hc : (Finset.univ : Finset (Dev nD)).biUnion Ks = Finset.univ) (f : Buf (Elt F) ℓ) :
    (ℓ ↦{fullShare} f : sProp 𝕄) = bigSep Finset.univ fun j : Dev nD => (ℓ ↦[Ks j]{fullShare} f : sProp 𝕄) := by
  have h : ((ℓ ↦[(Finset.univ : Finset (Dev nD)).biUnion Ks]{fullShare} f : sProp 𝕄) = _) := pointsTo_biUnion Finset.univ Ks hd
  rw [hc] at h
  exact h

theorem yWhole_split (c : Dev nD) (f : Buf (Elt F) ((c : Thread nD τ).loc cc0_scratch0)) :
    ((((c : Thread nD τ).loc cc0_scratch0) ↦{fullShare} f : sProp 𝕄)) = bigSep Finset.univ fun j : Dev nD => yPts c j f :=
  split_slots (ℓ := (c : Thread nD τ).loc cc0_scratch0) (fun j => (slotR j).set) slots_disjoint slots_cover f
theorem rWhole_split (c : Dev nD) (f : Buf (Elt F) ((c : Thread nD τ).loc cc0_scratch1)) :
    ((((c : Thread nD τ).loc cc0_scratch1) ↦{fullShare} f : sProp 𝕄)) = bigSep Finset.univ fun j : Dev nD => rPts c j f :=
  split_slots (ℓ := (c : Thread nD τ).loc cc0_scratch1) (fun j => (slotR j).set) slots_disjoint slots_cover f

/-! ## The devices the body addresses -/

theorem dev1_eq (c : Dev nD) : (⟨k0_dev1 c, k0_dev1_lt c⟩ : Dev nD) = fw c 0 := Fin.ext (k0_dev1_eq c)
theorem dev2_eq (c : Dev nD) : (⟨k0_dev2 c, k0_dev2_lt c⟩ : Dev nD) = fw c 1 := Fin.ext (k0_dev2_eq c)
theorem dev3_eq (c : Dev nD) : (⟨k0_dev3 c, k0_dev3_lt c⟩ : Dev nD) = fw c 2 := Fin.ext (k0_dev3_eq c)
theorem dev4_eq (c : Dev nD) : (⟨k0_dev4 c, k0_dev4_lt c⟩ : Dev nD) = fw c 3 := Fin.ext (k0_dev4_eq c)
theorem dev5_eq (c : Dev nD) : (⟨k0_dev5 c, k0_dev5_lt c⟩ : Dev nD) = fw c 4 := Fin.ext (k0_dev5_eq c)
theorem dev6_eq (c : Dev nD) : (⟨k0_dev6 c, k0_dev6_lt c⟩ : Dev nD) = fw c 5 := Fin.ext (k0_dev6_eq c)
theorem dev7_eq (c : Dev nD) : (⟨k0_dev7 c, k0_dev7_lt c⟩ : Dev nD) = fw c 6 := Fin.ext (k0_dev7_eq c)
theorem dev8_eq (c : Dev nD) : (⟨k0_dev8 c, k0_dev8_lt c⟩ : Dev nD) = fw c 0 := Fin.ext (k0_dev8_eq c)
theorem dev9_eq (c : Dev nD) : (⟨k0_dev9 c, k0_dev9_lt c⟩ : Dev nD) = fw c 1 := Fin.ext (k0_dev9_eq c)
theorem dev10_eq (c : Dev nD) : (⟨k0_dev10 c, k0_dev10_lt c⟩ : Dev nD) = fw c 2 := Fin.ext (k0_dev10_eq c)
theorem dev11_eq (c : Dev nD) : (⟨k0_dev11 c, k0_dev11_lt c⟩ : Dev nD) = fw c 3 := Fin.ext (k0_dev11_eq c)
theorem dev12_eq (c : Dev nD) : (⟨k0_dev12 c, k0_dev12_lt c⟩ : Dev nD) = fw c 4 := Fin.ext (k0_dev12_eq c)
theorem dev13_eq (c : Dev nD) : (⟨k0_dev13 c, k0_dev13_lt c⟩ : Dev nD) = fw c 5 := Fin.ext (k0_dev13_eq c)
theorem dev14_eq (c : Dev nD) : (⟨k0_dev14 c, k0_dev14_lt c⟩ : Dev nD) = fw c 6 := Fin.ext (k0_dev14_eq c)

theorem inv_at0 (K : Dev nD × KC → ℕ) (ck : Dev nD × KC) :
    (bigSep Finset.univ fun ck : Dev nD × KC => (cellInv ER (sched m) (K ck) (kcell ck) : sProp 𝕄)) ⊢ cellInv ER (sched m) (K ck) (kcell ck) :=
  bigSep_elim (Finset.mem_univ ck)
theorem reached_at0 (ck : Dev nD × KC) :
    (bigSep Finset.univ fun ck : Dev nD × KC => (reached ER (kcell ck) 0 : sProp 𝕄)) ⊢ reached ER (kcell ck) 0 :=
  bigSep_elim (Finset.mem_univ ck)
theorem inv_at (K : Dev nD × KC → ℕ) (ck : Dev nD × KC) : (records (F := F) m K) ⊢ cellInv ER (sched m) (K ck) (kcell ck) := by
  unfold records; iintro ⟨H, -⟩
  iapply (inv_at0 m K ck); iexact H
theorem reached_at (K : Dev nD × KC → ℕ) (ck : Dev nD × KC) : (records (F := F) m K) ⊢ reached ER (kcell ck) 0 := by
  unfold records; iintro ⟨-, H⟩
  iapply (reached_at0 (F := F) ck); iexact H

/-! ## What the scratch buffers and the result hold -/

theorem hz2 : (![0, 0] : Fin 2 → Nat) = fun _ => 0 := funext fun a => by fin_cases a <;> rfl
theorem read_x (f : (cc0_stg0_0 : Ref sig .tc).ty.Contents (Elt F)) :
    (Memref.whole cc0_stg0_0 : Memref sig .tc .vmem S256x2048 .f32).view.readAt (Elt F) (Rect.unit (s := S256x2048) ![0, 0] S256x2048.size inb_S256x2048_S256x2048_0_0).toLoadRect f = f :=
  Memref.readAt_unit_zero (Elt F) cc0_stg0_0 hz2 _ f
theorem read_w (f : (cc0_stg1_0 : Ref sig .tc).ty.Contents (Elt F)) :
    (Memref.whole cc0_stg1_0 : Memref sig .tc .vmem S2048x2048 .f32).view.readAt (Elt F) (Rect.unit (s := S2048x2048) ![0, 0] S2048x2048.size inb_S2048x2048_S2048x2048_0_0).toLoadRect f = f :=
  Memref.readAt_unit_zero (Elt F) cc0_stg1_0 hz2 _ f

/-- The eight stores of the product's chunks, last first. -/
def yPiece (x : Vec F S256x2048 .f32) (w : Vec F S2048x2048 .f32) (j : Dev nD) : View.Piece (Elt F) S8x256x256 .bf16 := ⟨slotR j, ychunk x w j⟩
def yOrder : List (Dev nD) := [7, 6, 5, 4, 3, 2, 1, 0]
/-- The chunk buffer after the eight stores, over whatever it held. -/
def yAll (c : Dev nD) (x : Vec F S256x2048 .f32) (w : Vec F S2048x2048 .f32) (f0 : Buf (Elt F) ((c : Thread nD τ).loc cc0_scratch0)) :
    Buf (Elt F) ((c : Thread nD τ).loc cc0_scratch0) :=
  yM.view.writes (Elt F) f0 (yOrder.map (yPiece x w))

theorem slots_disjoint' (j j' : Dev nD) (h : j ≠ j') : Disjoint (slotR j).set (slotR j').set :=
  slots_disjoint j (Finset.mem_univ _) j' (Finset.mem_univ _) h
theorem mem_yOrder (j : Dev nD) : j ∈ yOrder := by revert j; decide

theorem yAll_cover (x : Vec F S256x2048 .f32) (w : Vec F S2048x2048 .f32) (j : Dev nD) (k : (slotR j).shape.Idx) :
    ∃ p ∈ yOrder.map (yPiece x w), (slotR j).idx k ∈ p.1.set := ⟨yPiece x w j, List.mem_map_of_mem (mem_yOrder j), (slotR j).idx_mem k⟩
theorem yAll_canon (x : Vec F S256x2048 .f32) (w : Vec F S2048x2048 .f32) (j : Dev nD) (k : (slotR j).shape.Idx) :
    View.canon (yOrder.map (yPiece x w)) ((slotR j).emb k) = ychunk x w j k :=
  View.canon_map_of_disjoint (yPiece x w) (fun a b h => slots_disjoint' a b h) yOrder j (mem_yOrder j) k
theorem yAll_reads (c : Dev nD) (x : Vec F S256x2048 .f32) (w : Vec F S2048x2048 .f32) (f0 : Buf (Elt F) ((c : Thread nD τ).loc cc0_scratch0)) (j : Dev nD) (k : (slotR j).shape.Idx) :
    yM.view.read (Elt F) (yAll c x w f0) ((slotR j).idx k) = View.canon (yOrder.map (yPiece x w)) ((slotR j).idx k) :=
  View.read_writes_apply_eq_canon (Val := Elt F) yM.view f0 ((slotR j).idx k) (yOrder.map (yPiece x w)) (yAll_cover x w j k)

/-- Slot j of the chunk buffer then reads chunk j. -/
theorem yAll_read (c : Dev nD) (x : Vec F S256x2048 .f32) (w : Vec F S2048x2048 .f32) (f0 : Buf (Elt F) ((c : Thread nD τ).loc cc0_scratch0)) (j : Dev nD) :
    yM.view.readAt (Elt F) (slotR j).toLoadRect (yAll c x w f0) = ychunk x w j := by
  funext k
  exact (yAll_reads c x w f0 j k).trans (yAll_canon x w j k)

/-- A load through a slot named by its offsets is the load through the slot named by its number. -/
theorem yRead_congr {c : Dev nD} (off : Fin 3 → Nat) (p : ∀ a, off a + S1x256x256.size a ≤ S8x256x256.size a) (j : Dev nD) (h : off = ![j.val, 0, 0])
    (g : Buf (Elt F) ((c : Thread nD τ).loc cc0_scratch0)) :
    yM.view.readAt (Elt F) (Rect.unit (s := S8x256x256) off S1x256x256.size p).toLoadRect g = yM.view.readAt (Elt F) (slotR j).toLoadRect g := by
  subst h; rfl
theorem rRead_congr {c : Dev nD} (off : Fin 3 → Nat) (p : ∀ a, off a + S1x256x256.size a ≤ S8x256x256.size a) (j : Dev nD) (h : off = ![j.val, 0, 0])
    (g : Buf (Elt F) ((c : Thread nD τ).loc cc0_scratch1)) :
    rM.view.readAt (Elt F) (Rect.unit (s := S8x256x256) off S1x256x256.size p).toLoadRect g = rM.view.readAt (Elt F) (slotR j).toLoadRect g := by
  subst h; rfl

/-- The activation, as each of the eight stores into the result spells it. -/
theorem pay11_eq (v : Vec F S1x256x256 .bf16) : k0_pay11 v = gelu v := rfl
theorem pay12_eq (v : Vec F S1x256x256 .bf16) : k0_pay12 v = gelu v := rfl
theorem pay16_eq (v : Vec F S1x256x256 .bf16) : k0_pay16 (k0_pay13 v) (k0_pay14 v) (k0_pay15 (F := F)) = gelu v := rfl
theorem pay21_eq (v : Vec F S1x256x256 .bf16) : k0_pay21 (k0_pay18 v) (k0_pay19 v) (k0_pay20 (F := F)) = gelu v := rfl
theorem pay22_eq (v : Vec F S1x256x256 .bf16) : k0_pay22 v = gelu v := rfl
theorem pay23_eq (v : Vec F S1x256x256 .bf16) : k0_pay23 v = gelu v := rfl
theorem pay24_eq (v : Vec F S1x256x256 .bf16) : k0_pay24 v = gelu v := rfl
theorem pay25_eq (v : Vec F S1x256x256 .bf16) : k0_pay25 v = gelu v := rfl

abbrev oM : Memref sig .tc .vmem S2048x256 .f32 := Memref.whole cc0_stg2_0
theorem row_inb (s : Dev nD) : ∀ a, (![256 * s.val, 0] : Fin 2 → Nat) a + S256x256.size a ≤ S2048x256.size a := by revert s; decide
/-- Row block s of the result: rows [256 s, 256 s + 256). -/
def rowR (s : Dev nD) : Rect S2048x256 := Rect.unit (s := S2048x256) ![256 * s.val, 0] S256x256.size (row_inb s)
def oPiece (c s : Dev nD) : View.Piece (Elt F) S2048x256 .f32 := ⟨rowR s, gelu (chunkOf m s c)⟩
/-- The order of the eight stores into the result, last first. -/
def oOrder (c : Dev nD) : List (Dev nD) := [bk c 6, bk c 5, bk c 4, bk c 3, bk c 2, bk c 1, bk c 0, c]
def oAll (c : Dev nD) (g : Buf (Elt F) ((c : Thread nD τ).loc cc0_stg2_0)) : Buf (Elt F) ((c : Thread nD τ).loc cc0_stg2_0) :=
  oM.view.writes (Elt F) g ((oOrder c).map (oPiece m c))

theorem rows_disjoint (a b : Dev nD) (h : a ≠ b) : Disjoint (rowR a).set (rowR b).set := by
  unfold rowR
  refine Rect.unit_disjoint (0 : Fin 2) ?_
  have : a.val ≠ b.val := fun e => h (Fin.ext e)
  show 256 * a.val + 256 ≤ 256 * b.val ∨ 256 * b.val + 256 ≤ 256 * a.val
  omega

theorem idx_row (i : S2048x256.Idx) : (rowR (blkOf i)).idx (locOf i) = i := by
  funext a
  refine Fin.ext ?_
  fin_cases a
  · show 256 * ((i 0).val / 256) + 1 * ((i 0).val % 256) = (i 0).val
    omega
  · show 0 + 1 * (i 1).val = (i 1).val
    omega

theorem mem_oOrder (c s : Dev nD) : s ∈ oOrder c := by revert c s; decide

theorem oAll_cover (c : Dev nD) (i : S2048x256.Idx) : ∃ p ∈ (oOrder c).map (oPiece m c), i ∈ p.1.set := by
  refine ⟨oPiece m c (blkOf i), List.mem_map_of_mem (mem_oOrder c (blkOf i)), ?_⟩
  have h := (rowR (blkOf i)).idx_mem (locOf i)
  rw [idx_row i] at h
  exact h
theorem oAll_canon (c : Dev nD) (i : S2048x256.Idx) : View.canon ((oOrder c).map (oPiece m c)) i = gelu (chunkOf m (blkOf i) c) (locOf i) := by
  have h := View.canon_map_of_disjoint (oPiece m c) (fun a b h => rows_disjoint a b h) (oOrder c) (blkOf i) (mem_oOrder c (blkOf i)) (locOf i)
  rw [show (oPiece m c (blkOf i)).1.emb (locOf i) = i from idx_row i] at h
  exact h
theorem oAll_reads (c : Dev nD) (g : Buf (Elt F) ((c : Thread nD τ).loc cc0_stg2_0)) (i : S2048x256.Idx) :
    oM.view.read (Elt F) (oAll m c g) i = View.canon ((oOrder c).map (oPiece m c)) i :=
  View.read_writes_apply_eq_canon (Val := Elt F) oM.view g i ((oOrder c).map (oPiece m c)) (oAll_cover m c i)

/-- The eight stores fill the result: row block s with the activation of the chunk from s. -/
theorem oAll_at (c : Dev nD) (g : Buf (Elt F) ((c : Thread nD τ).loc cc0_stg2_0)) (i : S2048x256.Idx) :
    oAll m c g i = gelu (chunkOf m (blkOf i) c) (locOf i) := by
  have h := (oAll_reads m c g i).trans (oAll_canon m c i)
  exact (congrFun (View.read_whole (Val := Elt F) cc0_stg2_0 (oAll m c g)) i).symm.trans h
theorem oAll_eq (c : Dev nD) (g : Buf (Elt F) ((c : Thread nD τ).loc cc0_stg2_0)) : oAll m c g = outAt m c :=
  funext fun (i : S2048x256.Idx) => oAll_at m c g i

/-- A store through a row block named by its offsets is the store through the block named by its number. -/
theorem oWrite_congr {c : Dev nD} (off : Fin 2 → Nat) (p : ∀ a, off a + S256x256.size a ≤ S2048x256.size a) (s : Dev nD) (h : off = ![256 * s.val, 0])
    (g : Buf (Elt F) ((c : Thread nD τ).loc cc0_stg2_0)) (w : FVec F S256x256 .f32) :
    ((oM.access (Rect.unit (s := S2048x256) off S256x256.size p) : View sig .tc _ _ _)).write (Elt F) g w Finset.univ
      = (oM.view.slice (rowR s)).write (Elt F) g w Finset.univ := by
  subst h; rfl

theorem off6_self (c : Dev nD) : k0_off6 c = ![256 * c.val, 0] := k0_off6_eq c
theorem off10_bk (c : Dev nD) (r : Fin 7) : k0_off10 c (BitVec.ofNat 32 (1 + r.val)) = ![256 * (bk c r).val, 0] := k0_off10_eq c r

/-! ## The semaphores as the body spells them, place by place -/

theorem sendSem_at0 (c : Dev nD) : ((cc0_scratch2.slice (Rect.unit (s := S8) (k0_off1 c 1#32) S1.size (k0_off1_inb c 0))).squeeze S_ squeezes_S1_S_).sem = sendS (fw c 0) := sendSem_eq c 0
theorem recvSem_at0 (c : Dev nD) : ((cc0_scratch3.slice (Rect.unit (s := S8) (k0_off7 c 1#32) S1.size (k0_off7_inb c 0))).squeeze S_ squeezes_S1_S_).sem = recvS (bk c 0) := recvSem_eq c 0
theorem sendSem_at1 (c : Dev nD) : ((cc0_scratch2.slice (Rect.unit (s := S8) (k0_off1 c 2#32) S1.size (k0_off1_inb c 1))).squeeze S_ squeezes_S1_S_).sem = sendS (fw c 1) := sendSem_eq c 1
theorem recvSem_at1 (c : Dev nD) : ((cc0_scratch3.slice (Rect.unit (s := S8) (k0_off7 c 2#32) S1.size (k0_off7_inb c 1))).squeeze S_ squeezes_S1_S_).sem = recvS (bk c 1) := recvSem_eq c 1
theorem sendSem_at2 (c : Dev nD) : ((cc0_scratch2.slice (Rect.unit (s := S8) (k0_off1 c 3#32) S1.size (k0_off1_inb c 2))).squeeze S_ squeezes_S1_S_).sem = sendS (fw c 2) := sendSem_eq c 2
theorem recvSem_at2 (c : Dev nD) : ((cc0_scratch3.slice (Rect.unit (s := S8) (k0_off7 c 3#32) S1.size (k0_off7_inb c 2))).squeeze S_ squeezes_S1_S_).sem = recvS (bk c 2) := recvSem_eq c 2
theorem sendSem_at3 (c : Dev nD) : ((cc0_scratch2.slice (Rect.unit (s := S8) (k0_off1 c 4#32) S1.size (k0_off1_inb c 3))).squeeze S_ squeezes_S1_S_).sem = sendS (fw c 3) := sendSem_eq c 3
theorem recvSem_at3 (c : Dev nD) : ((cc0_scratch3.slice (Rect.unit (s := S8) (k0_off7 c 4#32) S1.size (k0_off7_inb c 3))).squeeze S_ squeezes_S1_S_).sem = recvS (bk c 3) := recvSem_eq c 3
theorem sendSem_at4 (c : Dev nD) : ((cc0_scratch2.slice (Rect.unit (s := S8) (k0_off1 c 5#32) S1.size (k0_off1_inb c 4))).squeeze S_ squeezes_S1_S_).sem = sendS (fw c 4) := sendSem_eq c 4
theorem recvSem_at4 (c : Dev nD) : ((cc0_scratch3.slice (Rect.unit (s := S8) (k0_off7 c 5#32) S1.size (k0_off7_inb c 4))).squeeze S_ squeezes_S1_S_).sem = recvS (bk c 4) := recvSem_eq c 4
theorem sendSem_at5 (c : Dev nD) : ((cc0_scratch2.slice (Rect.unit (s := S8) (k0_off1 c 6#32) S1.size (k0_off1_inb c 5))).squeeze S_ squeezes_S1_S_).sem = sendS (fw c 5) := sendSem_eq c 5
theorem recvSem_at5 (c : Dev nD) : ((cc0_scratch3.slice (Rect.unit (s := S8) (k0_off7 c 6#32) S1.size (k0_off7_inb c 5))).squeeze S_ squeezes_S1_S_).sem = recvS (bk c 5) := recvSem_eq c 5
theorem sendSem_at6 (c : Dev nD) : ((cc0_scratch2.slice (Rect.unit (s := S8) (k0_off1 c 7#32) S1.size (k0_off1_inb c 6))).squeeze S_ squeezes_S1_S_).sem = sendS (fw c 6) := sendSem_eq c 6
theorem recvSem_at6 (c : Dev nD) : ((cc0_scratch3.slice (Rect.unit (s := S8) (k0_off7 c 7#32) S1.size (k0_off7_inb c 6))).squeeze S_ squeezes_S1_S_).sem = recvS (bk c 6) := recvSem_eq c 6

/-- A load through a slot named by its offsets touches that slot only. -/
theorem ySub (off : Fin 3 → Nat) (p : ∀ a, off a + S1x256x256.size a ≤ S8x256x256.size a) (j : Dev nD) (h : off = ![j.val, 0, 0]) :
    yM.view.setOn (Rect.unit (s := S8x256x256) off S1x256x256.size p).toLoadRect.set ⊆ (slotR j).set := by
  subst h
  intro i hi
  simp only [View.setOn, Finset.mem_map] at hi
  obtain ⟨a, ha, rfl⟩ := hi
  exact ha
theorem rSub (off : Fin 3 → Nat) (p : ∀ a, off a + S1x256x256.size a ≤ S8x256x256.size a) (j : Dev nD) (h : off = ![j.val, 0, 0]) :
    rM.view.setOn (Rect.unit (s := S8x256x256) off S1x256x256.size p).toLoadRect.set ⊆ (slotR j).set := by
  subst h
  intro i hi
  simp only [View.setOn, Finset.mem_map] at hi
  obtain ⟨a, ha, rfl⟩ := hi
  exact ha

end Cert.Kernel.A2A

end
-- ==== Proof.A2AJoinW.lean ====
import proofs.«900437_g7700000000000438_dist_gemm_a2a_m2048_k2048_n2048_f32_gelu_v7x_i8_1_alg».proof.Proof.A2AGhostW

/-! The eight slots of a scratch buffer, each held at some contents, are the buffer whole at some contents: the
    slots are the rectangles `[j, j + 1) × 256 × 256`, pairwise disjoint along the leading axis, and every index
    lies in the slot its leading coordinate names. -/

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Two different slots share no index: they are apart on the leading axis. -/
theorem join_slots_disjoint (j j' : Dev nD) (h : j ≠ j') : Disjoint (slotR j).set (slotR j').set := by
  unfold slotR
  refine Rect.unit_disjoint (0 : Fin 3) ?_
  show j.val + 1 ≤ j'.val ∨ j'.val + 1 ≤ j.val
  have hne : j.val ≠ j'.val := fun e => h (Fin.ext e)
  omega

/-- Every index lies in the slot its leading coordinate names. -/
theorem join_slots_cover : (Finset.univ : Finset (Dev nD)).biUnion (fun j => (slotR j).set) = Finset.univ := by
  ext i
  simp only [Finset.mem_biUnion, Finset.mem_univ, true_and, iff_true]
  refine ⟨⟨(i 0).val, (i 0).isLt⟩, ?_⟩
  unfold slotR
  rw [Rect.mem_set_unit]
  intro a
  have h1 : (i 1).val < 256 := (i 1).isLt
  have h2 : (i 2).val < 256 := (i 2).isLt
  match a with
  | ⟨0, _⟩ => show (i 0).val ≤ (i 0).val ∧ (i 0).val < (i 0).val + 1; omega
  | ⟨1, _⟩ => show 0 ≤ (i 1).val ∧ (i 1).val < 0 + 256; omega
  | ⟨2, _⟩ => show 0 ≤ (i 2).val ∧ (i 2).val < 0 + 256; omega

/-- Over one scratch buffer: every slot at some contents is the whole at some contents. -/
theorem join_slots (ℓ : Loc nD τ sig) (K : Dev nD → Finset (Idx ℓ))
    (hd : ∀ j j', j ≠ j' → Disjoint (K j) (K j')) (hc : (Finset.univ : Finset (Dev nD)).biUnion K = Finset.univ)
    [Nonempty (Buf (Elt F) ℓ)] :
    bigSep Finset.univ (fun j : Dev nD => iprop(∃ f : Buf (Elt F) ℓ, ℓ ↦[K j]{fullShare} f))
      ⊢ (iprop(∃ g : Buf (Elt F) ℓ, ℓ ↦{fullShare} g) : sProp 𝕄) := by
  iintro H
  ihave H' := (BI.bigSep_exists_pi Finset.univ (fun (j : Dev nD) (f : Buf (Elt F) ℓ) => (ℓ ↦[K j]{fullShare} f : sProp 𝕄))) $$ H
  icases H' with ⟨%fs, H⟩
  ihave HJ := (pointsTo_biUnion_join Finset.univ K fs (fs 0) (fun j _ j' _ h => hd j j' h)) $$ H
  icases HJ with ⟨%g, -, Hg⟩
  iexists g
  rw [hc]
  iexact Hg

theorem join_y (c : Dev nD) :
    iprop((∃ f, yPts (F := F) c c f) ∗ (∃ f, yPts (F := F) c (fw c 0) f) ∗ (∃ f, yPts (F := F) c (fw c 1) f) ∗ (∃ f, yPts (F := F) c (fw c 2) f) ∗ (∃ f, yPts (F := F) c (fw c 3) f) ∗ (∃ f, yPts (F := F) c (fw c 4) f) ∗ (∃ f, yPts (F := F) c (fw c 5) f) ∗ (∃ f, yPts (F := F) c (fw c 6) f))
      ⊢ (iprop(∃ f, yWhole (F := F) c f) : sProp 𝕄) := by
  have hchain : iprop((∃ f, yPts (F := F) c c f) ∗ (∃ f, yPts (F := F) c (fw c 0) f) ∗ (∃ f, yPts (F := F) c (fw c 1) f) ∗ (∃ f, yPts (F := F) c (fw c 2) f) ∗ (∃ f, yPts (F := F) c (fw c 3) f) ∗ (∃ f, yPts (F := F) c (fw c 4) f) ∗ (∃ f, yPts (F := F) c (fw c 5) f) ∗ (∃ f, yPts (F := F) c (fw c 6) f))
      = (bigSep Finset.univ (fun j : Dev nD => iprop(∃ f, yPts (F := F) c j f)) : sProp 𝕄) := by
    rw [bigSep_univ_at _ c, erase_eq_map, bigSep_map, bigSep_fin7]; rfl
  rw [hchain]
  exact join_slots (F := F) ((c : Thread nD τ).loc cc0_scratch0) (fun j => (slotR j).set) join_slots_disjoint join_slots_cover

theorem join_r (c : Dev nD) :
    iprop((∃ f, rPts (F := F) c c f) ∗ (∃ f, rPts (F := F) c (bk c 0) f) ∗ (∃ f, rPts (F := F) c (bk c 1) f) ∗ (∃ f, rPts (F := F) c (bk c 2) f) ∗ (∃ f, rPts (F := F) c (bk c 3) f) ∗ (∃ f, rPts (F := F) c (bk c 4) f) ∗ (∃ f, rPts (F := F) c (bk c 5) f) ∗ (∃ f, rPts (F := F) c (bk c 6) f))
      ⊢ (iprop(∃ f, rWhole (F := F) c f) : sProp 𝕄) := by
  have hchain : iprop((∃ f, rPts (F := F) c c f) ∗ (∃ f, rPts (F := F) c (bk c 0) f) ∗ (∃ f, rPts (F := F) c (bk c 1) f) ∗ (∃ f, rPts (F := F) c (bk c 2) f) ∗ (∃ f, rPts (F := F) c (bk c 3) f) ∗ (∃ f, rPts (F := F) c (bk c 4) f) ∗ (∃ f, rPts (F := F) c (bk c 5) f) ∗ (∃ f, rPts (F := F) c (bk c 6) f))
      = (bigSep Finset.univ (fun j : Dev nD => iprop(∃ f, rPts (F := F) c j f)) : sProp 𝕄) := by
    rw [bigSep_univ_at _ c, erase_eq_map_bk, bigSep_map, bigSep_fin7]; rfl
  rw [hchain]
  exact join_slots (F := F) ((c : Thread nD τ).loc cc0_scratch1) (fun j => (slotR j).set) join_slots_disjoint join_slots_cover

end Cert.Kernel.A2A

end
-- ==== Proof.A2ABodyW.lean ====
/-
  One device's run of the kernel body: the seven barrier units out, the product cut into its chunk slots, the barrier
  wait, the seven copies out, the own chunk's activation, each landing awaited and its activation written to its row
  block, the departures awaited, the cells closed, the scratch buffers whole again.
-/
import proofs.«900437_g7700000000000438_dist_gemm_a2a_m2048_k2048_n2048_f32_gelu_v7x_i8_1_alg».proof.Proof.A2AStepsW
import proofs.«900437_g7700000000000438_dist_gemm_a2a_m2048_k2048_n2048_f32_gelu_v7x_i8_1_alg».proof.Proof.A2AJoinW

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The body -/

theorem yAll_intro (c : Dev nD) (x : Vec F S256x2048 .f32) (w : Vec F S2048x2048 .f32) (f0 : Buf (Elt F) ((c : Thread nD τ).loc cc0_scratch0)) :
    ((((c : Thread nD τ).loc cc0_scratch0) ↦{fullShare} yAll c x w f0 : sProp 𝕄)) ⊢ (((c : Thread nD τ).loc cc0_scratch0) ↦{fullShare} yAll c x w f0) := BI.Entails.refl _
/-- The chunk buffer after its eight stores, store by store. -/
theorem yAll_unfold (c : Dev nD) (x : Vec F S256x2048 .f32) (w : Vec F S2048x2048 .f32) (f0 : Buf (Elt F) ((c : Thread nD τ).loc cc0_scratch0)) :
    yAll c x w f0 = (View.write (Elt F) (yM.access (Rect.unit (s := S8x256x256) ![7, 0, 0] S1x256x256.size inb_S8x256x256_S1x256x256_7_0_0)) (View.write (Elt F) (yM.access (Rect.unit (s := S8x256x256) ![6, 0, 0] S1x256x256.size inb_S8x256x256_S1x256x256_6_0_0)) (View.write (Elt F) (yM.access (Rect.unit (s := S8x256x256) ![5, 0, 0] S1x256x256.size inb_S8x256x256_S1x256x256_5_0_0)) (View.write (Elt F) (yM.access (Rect.unit (s := S8x256x256) ![4, 0, 0] S1x256x256.size inb_S8x256x256_S1x256x256_4_0_0)) (View.write (Elt F) (yM.access (Rect.unit (s := S8x256x256) ![3, 0, 0] S1x256x256.size inb_S8x256x256_S1x256x256_3_0_0)) (View.write (Elt F) (yM.access (Rect.unit (s := S8x256x256) ![2, 0, 0] S1x256x256.size inb_S8x256x256_S1x256x256_2_0_0)) (View.write (Elt F) (yM.access (Rect.unit (s := S8x256x256) ![1, 0, 0] S1x256x256.size inb_S8x256x256_S1x256x256_1_0_0)) (View.write (Elt F) (yM.access (Rect.unit (s := S8x256x256) ![0, 0, 0] S1x256x256.size inb_S8x256x256_S1x256x256_0_0_0)) f0 (k0_pay2 x w) Finset.univ) (k0_pay3 x w) Finset.univ) (k0_pay4 x w) Finset.univ) (k0_pay6 (k0_pay5 x w)) Finset.univ) (k0_pay7 (k0_pay1 x w)) Finset.univ) (k0_pay8 (k0_pay1 x w)) Finset.univ) (k0_pay9 (k0_pay1 x w)) Finset.univ) (k0_pay10 (k0_pay1 x w)) Finset.univ) := by
  unfold yAll yOrder
  simp only [List.map, View.writes_cons, View.writes_nil]
  rfl

/-- The result after its eight stores, store by store. -/
theorem oAll_unfold (c : Dev nD) (g : Buf (Elt F) ((c : Thread nD τ).loc cc0_stg2_0)) :
    oAll m c g = (View.write (Elt F) (oM.view.slice (rowR (bk c 6))) (View.write (Elt F) (oM.view.slice (rowR (bk c 5))) (View.write (Elt F) (oM.view.slice (rowR (bk c 4))) (View.write (Elt F) (oM.view.slice (rowR (bk c 3))) (View.write (Elt F) (oM.view.slice (rowR (bk c 2))) (View.write (Elt F) (oM.view.slice (rowR (bk c 1))) (View.write (Elt F) (oM.view.slice (rowR (bk c 0))) (View.write (Elt F) (oM.view.slice (rowR c)) g (k0_pay11 (ychunk (xstg m c) (wstg m c) c)) Finset.univ) (k0_pay12 (chunkOf m (bk c 0) c)) Finset.univ) (k0_pay16 (k0_pay13 (chunkOf m (bk c 1) c)) (k0_pay14 (chunkOf m (bk c 1) c)) (k0_pay15 (F := F))) Finset.univ) (k0_pay21 (k0_pay18 (chunkOf m (bk c 2) c)) (k0_pay19 (chunkOf m (bk c 2) c)) (k0_pay20 (F := F))) Finset.univ) (k0_pay22 (chunkOf m (bk c 3) c)) Finset.univ) (k0_pay23 (chunkOf m (bk c 4) c)) Finset.univ) (k0_pay24 (chunkOf m (bk c 5) c)) Finset.univ) (k0_pay25 (chunkOf m (bk c 6) c)) Finset.univ) := by
  unfold oAll oOrder
  simp only [List.map, View.writes_cons, View.writes_nil]
  rfl

/-- Every 256 × 256 slot of either scratch buffer counts the same on a DMA semaphore. -/
theorem credit_any {sp : Space} (v : View sig .tc sp S256x256 .bf16) : v.dmaCredit = N := by
  unfold View.dmaCredit N
  rfl

theorem off10_at0 (c : Dev nD) : k0_off10 c 1#32 = ![256 * (bk c 0).val, 0] := off10_bk c 0
theorem off9_at0 (c : Dev nD) : k0_off9 c 1#32 = ![(bk c 0).val, 0, 0] := off9_bk c 0
theorem off10_at1 (c : Dev nD) : k0_off10 c 2#32 = ![256 * (bk c 1).val, 0] := off10_bk c 1
theorem off9_at1 (c : Dev nD) : k0_off9 c 2#32 = ![(bk c 1).val, 0, 0] := off9_bk c 1
theorem off10_at2 (c : Dev nD) : k0_off10 c 3#32 = ![256 * (bk c 2).val, 0] := off10_bk c 2
theorem off9_at2 (c : Dev nD) : k0_off9 c 3#32 = ![(bk c 2).val, 0, 0] := off9_bk c 2
theorem off10_at3 (c : Dev nD) : k0_off10 c 4#32 = ![256 * (bk c 3).val, 0] := off10_bk c 3
theorem off9_at3 (c : Dev nD) : k0_off9 c 4#32 = ![(bk c 3).val, 0, 0] := off9_bk c 3
theorem off10_at4 (c : Dev nD) : k0_off10 c 5#32 = ![256 * (bk c 4).val, 0] := off10_bk c 4
theorem off9_at4 (c : Dev nD) : k0_off9 c 5#32 = ![(bk c 4).val, 0, 0] := off9_bk c 4
theorem off10_at5 (c : Dev nD) : k0_off10 c 6#32 = ![256 * (bk c 5).val, 0] := off10_bk c 5
theorem off9_at5 (c : Dev nD) : k0_off9 c 6#32 = ![(bk c 5).val, 0, 0] := off9_bk c 5
theorem off10_at6 (c : Dev nD) : k0_off10 c 7#32 = ![256 * (bk c 6).val, 0] := off10_bk c 6
theorem off9_at6 (c : Dev nD) : k0_off9 c 7#32 = ![(bk c 6).val, 0, 0] := off9_bk c 6

/-- The sixteen own counters at zero, listed round the ring. -/
theorem semVals_intro (c : Dev nD) :
    (iprop((semVal (kcell (c, some (false, c))) 0 ∗ semVal (kcell (c, some (false, fw c 0))) 0 ∗ semVal (kcell (c, some (false, fw c 1))) 0 ∗ semVal (kcell (c, some (false, fw c 2))) 0
          ∗ semVal (kcell (c, some (false, fw c 3))) 0 ∗ semVal (kcell (c, some (false, fw c 4))) 0 ∗ semVal (kcell (c, some (false, fw c 5))) 0 ∗ semVal (kcell (c, some (false, fw c 6))) 0)
        ∗ (semVal (kcell (c, some (true, c))) 0 ∗ semVal (kcell (c, some (true, bk c 0))) 0 ∗ semVal (kcell (c, some (true, bk c 1))) 0 ∗ semVal (kcell (c, some (true, bk c 2))) 0
          ∗ semVal (kcell (c, some (true, bk c 3))) 0 ∗ semVal (kcell (c, some (true, bk c 4))) 0 ∗ semVal (kcell (c, some (true, bk c 5))) 0 ∗ semVal (kcell (c, some (true, bk c 6))) 0)) : sProp 𝕄)
      ⊢ bigSep Finset.univ fun k : KO => (semVal (kcell (c, some k)) 0 : sProp 𝕄) := by
  rw [bigSep_univ_prod, bigSep_univ_eq_bigSepL [false, true] (by decide) (by decide), bigSepL_cons_cons, bigSepL_singleton,
    bigSep_ring_fw c (fun t : Dev nD => (semVal (kcell (c, some (false, t))) 0 : sProp 𝕄)), bigSep_ring_bk c (fun s : Dev nD => (semVal (kcell (c, some (true, s))) 0 : sProp 𝕄))]
  exact BI.Entails.refl _

theorem oAll_intro (c : Dev nD) (g : Buf (Elt F) ((c : Thread nD τ).loc cc0_stg2_0)) :
    ((((c : Thread nD τ).loc cc0_stg2_0) ↦{fullShare} oAll m c g : sProp 𝕄)) ⊢ (((c : Thread nD τ).loc cc0_stg2_0) ↦{fullShare} oAll m c g) := BI.Entails.refl _

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × KC → ℕ) (c : Dev nD) : sProp 𝕄 :=
  iprop((ghost m K c ∗ cred (tallyAt (barCell c) () 7) ∗ (bigSep Finset.univ fun r : Fin 7 => cred (tallyAt (recvCell c (bk c r)) () N)) ∗ levAts L lv
      ∗ (∃ f, yWhole (F := F) c f) ∗ (∃ f, rWhole (F := F) c f))
    ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

def bodyPost (c : Dev nD) : sProp 𝕄 :=
  iprop(Φ₁ (F := F) c ∗ (dats m 0 c).owesAt () t₀.succ ∗ stg c cc0_stg0_0 (xstg m c) ∗ stg c cc0_stg1_0 (wstg m c) ∗ stg c cc0_stg2_0 (outAt m c))

set_option maxHeartbeats 6400000 in
set_option maxRecDepth 65536 in
theorem sound_body (K : Dev nD × KC → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) cc0_scratch2 cc0_scratch3) Kt := by
  simp only [cc0_body_eq_skeleton]
  unfold cc0_body_skel
  simp only [k0_part13_eq_skeleton]
  unfold k0_part13_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel k0_part10_skel k0_part11_skel k0_part12_skel
  simp only [semSignalWord, semWaitWord, Prog.lift, Prog.bind_op, Prog.bind_ret, Prog.pure_eq_ret, wp_deviceId]
  simp only [dev1_eq c, dev2_eq c, dev3_eq c, dev4_eq c, dev5_eq c, dev6_eq c, dev7_eq c, dev8_eq c, dev9_eq c, dev10_eq c, dev11_eq c, dev12_eq c, dev13_eq c, dev14_eq c,
    sendSem_at0 c, recvSem_at0 c, sendSem_at1 c, recvSem_at1 c, sendSem_at2 c, recvSem_at2 c, sendSem_at3 c, recvSem_at3 c, sendSem_at4 c, recvSem_at4 c, sendSem_at5 c, recvSem_at5 c, sendSem_at6 c, recvSem_at6 c, recvOwn_eq c]
  unfold bodyPre ghost linear payToks yWhole rWhole
  rw [bigSep_cells3, bigSep_ring_fw c (fun t : Dev nD => (atPos ER (kcell (c, some (false, t))) 0 ∅ 0 : sProp 𝕄)),
    bigSep_ring_bk c (fun s : Dev nD => (atPos ER (kcell (c, some (true, s))) 0 ∅ 0 : sProp 𝕄)), bigSep_fin7, bigSep_fin7]
  iintro ⟨⟨⟨⟨#Hrec, Hat, Htok⟩, HcB, HcR, #Hlev, ⟨%fy0, Hy⟩, ⟨%fr0, Hr⟩⟩, Ho, ⟨%d0, %g0, %hg0, Hx⟩, ⟨%d1, %g1, %hg1, Hw⟩, ⟨%d2, %g2, %hg2, Hout⟩⟩, Hk⟩
  icases Hat with ⟨HaB, ⟨HaSc, HaS0, HaS1, HaS2, HaS3, HaS4, HaS5, HaS6⟩, ⟨HaRc, HaR0, HaR1, HaR2, HaR3, HaR4, HaR5, HaR6⟩⟩
  icases Htok with ⟨⟨HtB0, HtR0, HtS0⟩, ⟨HtB1, HtR1, HtS1⟩, ⟨HtB2, HtR2, HtS2⟩, ⟨HtB3, HtR3, HtS3⟩, ⟨HtB4, HtR4, HtS4⟩, ⟨HtB5, HtR5, HtS5⟩, ⟨HtB6, HtR6, HtS6⟩⟩
  icases HcR with ⟨HcR0, HcR1, HcR2, HcR3, HcR4, HcR5, HcR6⟩
  ihave Hr' := (Entails.of_eq ((rWhole_split c fr0).trans (bigSep_ring_fw c _))) $$ Hr
  icases Hr' with ⟨Hrc, Hr0, Hr1, Hr2, Hr3, Hr4, Hr5, Hr6⟩
  unfold Dat.owesAt Pipeline.owesWithin
  icases Ho with ⟨%W, %hW, HO⟩
  rw [show (dats m 0 c).owed t₀.castSucc = Ocp c 0 + Osig c (0 : Fin 7).val from rfl]
  -- the seven barrier units, each with the slot its receiver will write
  iapply (sig_step m K c _ 0 rfl (by decide) fr0 W) $$ [HO HtB0 Hr0]
  · isplitr; · iapply (inv_at m K (fw c 0, none)); iexact Hrec
    isplitl [HO]; · iexact HO
    isplitl [HtB0]; · iexact HtB0
    isplitl [Hr0]; · iexact Hr0
    iapply (reached_at m K (fw c 0, none)); iexact Hrec
  iintro HO
  iapply (sig_step m K c _ 1 rfl (by decide) fr0 W) $$ [HO HtB1 Hr1]
  · isplitr; · iapply (inv_at m K (fw c 1, none)); iexact Hrec
    isplitl [HO]; · iexact HO
    isplitl [HtB1]; · iexact HtB1
    isplitl [Hr1]; · iexact Hr1
    iapply (reached_at m K (fw c 1, none)); iexact Hrec
  iintro HO
  iapply (sig_step m K c _ 2 rfl (by decide) fr0 W) $$ [HO HtB2 Hr2]
  · isplitr; · iapply (inv_at m K (fw c 2, none)); iexact Hrec
    isplitl [HO]; · iexact HO
    isplitl [HtB2]; · iexact HtB2
    isplitl [Hr2]; · iexact Hr2
    iapply (reached_at m K (fw c 2, none)); iexact Hrec
  iintro HO
  iapply (sig_step m K c _ 3 rfl (by decide) fr0 W) $$ [HO HtB3 Hr3]
  · isplitr; · iapply (inv_at m K (fw c 3, none)); iexact Hrec
    isplitl [HO]; · iexact HO
    isplitl [HtB3]; · iexact HtB3
    isplitl [Hr3]; · iexact Hr3
    iapply (reached_at m K (fw c 3, none)); iexact Hrec
  iintro HO
  iapply (sig_step m K c _ 4 rfl (by decide) fr0 W) $$ [HO HtB4 Hr4]
  · isplitr; · iapply (inv_at m K (fw c 4, none)); iexact Hrec
    isplitl [HO]; · iexact HO
    isplitl [HtB4]; · iexact HtB4
    isplitl [Hr4]; · iexact Hr4
    iapply (reached_at m K (fw c 4, none)); iexact Hrec
  iintro HO
  iapply (sig_step m K c _ 5 rfl (by decide) fr0 W) $$ [HO HtB5 Hr5]
  · isplitr; · iapply (inv_at m K (fw c 5, none)); iexact Hrec
    isplitl [HO]; · iexact HO
    isplitl [HtB5]; · iexact HtB5
    isplitl [Hr5]; · iexact Hr5
    iapply (reached_at m K (fw c 5, none)); iexact Hrec
  iintro HO
  iapply (sig_step m K c _ 6 rfl (by decide) fr0 W) $$ [HO HtB6 Hr6]
  · isplitr; · iapply (inv_at m K (fw c 6, none)); iexact Hrec
    isplitl [HO]; · iexact HO
    isplitl [HtB6]; · iexact HtB6
    isplitl [Hr6]; · iexact Hr6
    iapply (reached_at m K (fw c 6, none)); iexact Hrec
  iintro HO
  -- the block of x and the copy of w
  have hx : g0 = xstg m c := by rw [hg0]; unfold Dat.before; rw [if_pos (fetch0_0 t₀)]; rfl
  have hw : g1 = wstg m c := by rw [hg1]; unfold Dat.before; rw [if_pos (fetch0_1 t₀)]; rfl
  subst hx hw
  iapply (wp_load 𝒱₀ (c : Thread nD τ) none Set.univ (m := (Memref.whole cc0_stg0_0 : Memref sig .tc .vmem S256x2048 .f32)) (Finset.subset_univ _)) $$ Hx; iintro Hx
  rw [read_x]
  iapply (wp_load 𝒱₀ (c : Thread nD τ) none Set.univ (m := (Memref.whole cc0_stg1_0 : Memref sig .tc .vmem S2048x2048 .f32)) (Finset.subset_univ _)) $$ Hw; iintro Hw
  rw [read_w]
  -- the product's eight chunks into their slots
  iapply (wp_load 𝒱₀ (c : Thread nD τ) none Set.univ (m := yM) (Finset.subset_univ _)) $$ Hy; iintro Hy
  iapply (wp_store 𝒱₀ (c : Thread nD τ) none Set.univ (m := yM) (r := Rect.unit (s := S8x256x256) ![0, 0, 0] S1x256x256.size inb_S8x256x256_S1x256x256_0_0_0) (Mk := Finset.univ) (Finset.subset_univ _)) $$ Hy; iintro Hy
  iapply (wp_load 𝒱₀ (c : Thread nD τ) none Set.univ (m := yM) (Finset.subset_univ _)) $$ Hy; iintro Hy
  iapply (wp_store 𝒱₀ (c : Thread nD τ) none Set.univ (m := yM) (r := Rect.unit (s := S8x256x256) ![1, 0, 0] S1x256x256.size inb_S8x256x256_S1x256x256_1_0_0) (Mk := Finset.univ) (Finset.subset_univ _)) $$ Hy; iintro Hy
  iapply (wp_load 𝒱₀ (c : Thread nD τ) none Set.univ (m := yM) (Finset.subset_univ _)) $$ Hy; iintro Hy
  iapply (wp_store 𝒱₀ (c : Thread nD τ) none Set.univ (m := yM) (r := Rect.unit (s := S8x256x256) ![2, 0, 0] S1x256x256.size inb_S8x256x256_S1x256x256_2_0_0) (Mk := Finset.univ) (Finset.subset_univ _)) $$ Hy; iintro Hy
  iapply (wp_load 𝒱₀ (c : Thread nD τ) none Set.univ (m := yM) (Finset.subset_univ _)) $$ Hy; iintro Hy
  iapply (wp_store 𝒱₀ (c : Thread nD τ) none Set.univ (m := yM) (r := Rect.unit (s := S8x256x256) ![3, 0, 0] S1x256x256.size inb_S8x256x256_S1x256x256_3_0_0) (Mk := Finset.univ) (Finset.subset_univ _)) $$ Hy; iintro Hy
  iapply (wp_load 𝒱₀ (c : Thread nD τ) none Set.univ (m := yM) (Finset.subset_univ _)) $$ Hy; iintro Hy
  iapply (wp_store 𝒱₀ (c : Thread nD τ) none Set.univ (m := yM) (r := Rect.unit (s := S8x256x256) ![4, 0, 0] S1x256x256.size inb_S8x256x256_S1x256x256_4_0_0) (Mk := Finset.univ) (Finset.subset_univ _)) $$ Hy; iintro Hy
  iapply (wp_load 𝒱₀ (c : Thread nD τ) none Set.univ (m := yM) (Finset.subset_univ _)) $$ Hy; iintro Hy
  iapply (wp_store 𝒱₀ (c : Thread nD τ) none Set.univ (m := yM) (r := Rect.unit (s := S8x256x256) ![5, 0, 0] S1x256x256.size inb_S8x256x256_S1x256x256_5_0_0) (Mk := Finset.univ) (Finset.subset_univ _)) $$ Hy; iintro Hy
  iapply (wp_load 𝒱₀ (c : Thread nD τ) none Set.univ (m := yM) (Finset.subset_univ _)) $$ Hy; iintro Hy
  iapply (wp_store 𝒱₀ (c : Thread nD τ) none Set.univ (m := yM) (r := Rect.unit (s := S8x256x256) ![6, 0, 0] S1x256x256.size inb_S8x256x256_S1x256x256_6_0_0) (Mk := Finset.univ) (Finset.subset_univ _)) $$ Hy; iintro Hy
  iapply (wp_load 𝒱₀ (c : Thread nD τ) none Set.univ (m := yM) (Finset.subset_univ _)) $$ Hy; iintro Hy
  iapply (wp_store 𝒱₀ (c : Thread nD τ) none Set.univ (m := yM) (r := Rect.unit (s := S8x256x256) ![7, 0, 0] S1x256x256.size inb_S8x256x256_S1x256x256_7_0_0) (Mk := Finset.univ) (Finset.subset_univ _)) $$ Hy; iintro Hy
  rw [← yAll_unfold c (xstg m c) (wstg m c) fy0]
  -- the barrier: every peer is inside the kernel, and its slot for this device is here
  iapply (bar_wait_step m K c (by decide) W) $$ [HcB HO HaB]
  · isplitr; · iapply (inv_at m K (c, none)); iexact Hrec
    isplitl [HcB]; · iexact HcB
    isplitl [HO]; · iexact HO
    isplitr; · iexact Hlev
    iexact HaB
  iintro ⟨HO, HaB, Hp0, Hp1, Hp2, Hp3, Hp4, Hp5, Hp6⟩
  unfold barPay
  icases Hp0 with ⟨%fd0, Hp0⟩
  icases Hp1 with ⟨%fd1, Hp1⟩
  icases Hp2 with ⟨%fd2, Hp2⟩
  icases Hp3 with ⟨%fd3, Hp3⟩
  icases Hp4 with ⟨%fd4, Hp4⟩
  icases Hp5 with ⟨%fd5, Hp5⟩
  icases Hp6 with ⟨%fd6, Hp6⟩
  rw [Osig_seven, add_zero]
  ihave Hy' := (Entails.of_eq ((yWhole_split c (yAll c (xstg m c) (wstg m c) fy0)).trans (bigSep_ring_fw c _))) $$ [Hy]
  · iexact Hy
  icases Hy' with ⟨Hyc, Hy0, Hy1, Hy2, Hy3, Hy4, Hy5, Hy6⟩
  -- the seven copies
  iapply (send_step m K c _ 0 (dev8_eq c) (yAll c (xstg m c) (wstg m c) fy0) fd0 _ (yAll_read c _ _ fy0 (fw c 0))) $$ [Hy0 Hp0 HO HtS0 HtR0]
  · isplitr; · iapply (inv_at m K (c, some (false, fw c 0))); iexact Hrec
    isplitr; · iapply (inv_at m K (fw c 0, some (true, c))); iexact Hrec
    isplitl [Hy0]; · iexact Hy0
    isplitl [Hp0]; · iexact Hp0
    isplitl [HO]; · iexact HO
    isplitl [HtS0]; · iexact HtS0
    isplitr; · iapply (reached_at m K (c, some (false, fw c 0))); iexact Hrec
    isplitl [HtR0]; · iexact HtR0
    iapply (reached_at m K (fw c 0, some (true, c))); iexact Hrec
  iintro ⟨HcS0, HO⟩
  iapply (send_step m K c _ 1 (dev9_eq c) (yAll c (xstg m c) (wstg m c) fy0) fd1 _ (yAll_read c _ _ fy0 (fw c 1))) $$ [Hy1 Hp1 HO HtS1 HtR1]
  · isplitr; · iapply (inv_at m K (c, some (false, fw c 1))); iexact Hrec
    isplitr; · iapply (inv_at m K (fw c 1, some (true, c))); iexact Hrec
    isplitl [Hy1]; · iexact Hy1
    isplitl [Hp1]; · iexact Hp1
    isplitl [HO]; · iexact HO
    isplitl [HtS1]; · iexact HtS1
    isplitr; · iapply (reached_at m K (c, some (false, fw c 1))); iexact Hrec
    isplitl [HtR1]; · iexact HtR1
    iapply (reached_at m K (fw c 1, some (true, c))); iexact Hrec
  iintro ⟨HcS1, HO⟩
  iapply (send_step m K c _ 2 (dev10_eq c) (yAll c (xstg m c) (wstg m c) fy0) fd2 _ (yAll_read c _ _ fy0 (fw c 2))) $$ [Hy2 Hp2 HO HtS2 HtR2]
  · isplitr; · iapply (inv_at m K (c, some (false, fw c 2))); iexact Hrec
    isplitr; · iapply (inv_at m K (fw c 2, some (true, c))); iexact Hrec
    isplitl [Hy2]; · iexact Hy2
    isplitl [Hp2]; · iexact Hp2
    isplitl [HO]; · iexact HO
    isplitl [HtS2]; · iexact HtS2
    isplitr; · iapply (reached_at m K (c, some (false, fw c 2))); iexact Hrec
    isplitl [HtR2]; · iexact HtR2
    iapply (reached_at m K (fw c 2, some (true, c))); iexact Hrec
  iintro ⟨HcS2, HO⟩
  iapply (send_step m K c _ 3 (dev11_eq c) (yAll c (xstg m c) (wstg m c) fy0) fd3 _ (yAll_read c _ _ fy0 (fw c 3))) $$ [Hy3 Hp3 HO HtS3 HtR3]
  · isplitr; · iapply (inv_at m K (c, some (false, fw c 3))); iexact Hrec
    isplitr; · iapply (inv_at m K (fw c 3, some (true, c))); iexact Hrec
    isplitl [Hy3]; · iexact Hy3
    isplitl [Hp3]; · iexact Hp3
    isplitl [HO]; · iexact HO
    isplitl [HtS3]; · iexact HtS3
    isplitr; · iapply (reached_at m K (c, some (false, fw c 3))); iexact Hrec
    isplitl [HtR3]; · iexact HtR3
    iapply (reached_at m K (fw c 3, some (true, c))); iexact Hrec
  iintro ⟨HcS3, HO⟩
  iapply (send_step m K c _ 4 (dev12_eq c) (yAll c (xstg m c) (wstg m c) fy0) fd4 _ (yAll_read c _ _ fy0 (fw c 4))) $$ [Hy4 Hp4 HO HtS4 HtR4]
  · isplitr; · iapply (inv_at m K (c, some (false, fw c 4))); iexact Hrec
    isplitr; · iapply (inv_at m K (fw c 4, some (true, c))); iexact Hrec
    isplitl [Hy4]; · iexact Hy4
    isplitl [Hp4]; · iexact Hp4
    isplitl [HO]; · iexact HO
    isplitl [HtS4]; · iexact HtS4
    isplitr; · iapply (reached_at m K (c, some (false, fw c 4))); iexact Hrec
    isplitl [HtR4]; · iexact HtR4
    iapply (reached_at m K (fw c 4, some (true, c))); iexact Hrec
  iintro ⟨HcS4, HO⟩
  iapply (send_step m K c _ 5 (dev13_eq c) (yAll c (xstg m c) (wstg m c) fy0) fd5 _ (yAll_read c _ _ fy0 (fw c 5))) $$ [Hy5 Hp5 HO HtS5 HtR5]
  · isplitr; · iapply (inv_at m K (c, some (false, fw c 5))); iexact Hrec
    isplitr; · iapply (inv_at m K (fw c 5, some (true, c))); iexact Hrec
    isplitl [Hy5]; · iexact Hy5
    isplitl [Hp5]; · iexact Hp5
    isplitl [HO]; · iexact HO
    isplitl [HtS5]; · iexact HtS5
    isplitr; · iapply (reached_at m K (c, some (false, fw c 5))); iexact Hrec
    isplitl [HtR5]; · iexact HtR5
    iapply (reached_at m K (fw c 5, some (true, c))); iexact Hrec
  iintro ⟨HcS5, HO⟩
  iapply (send_step m K c _ 6 (dev14_eq c) (yAll c (xstg m c) (wstg m c) fy0) fd6 _ (yAll_read c _ _ fy0 (fw c 6))) $$ [Hy6 Hp6 HO HtS6 HtR6]
  · isplitr; · iapply (inv_at m K (c, some (false, fw c 6))); iexact Hrec
    isplitr; · iapply (inv_at m K (fw c 6, some (true, c))); iexact Hrec
    isplitl [Hy6]; · iexact Hy6
    isplitl [Hp6]; · iexact Hp6
    isplitl [HO]; · iexact HO
    isplitl [HtS6]; · iexact HtS6
    isplitr; · iapply (reached_at m K (c, some (false, fw c 6))); iexact Hrec
    isplitl [HtR6]; · iexact HtR6
    iapply (reached_at m K (fw c 6, some (true, c))); iexact Hrec
  iintro ⟨HcS6, HO⟩
  -- the device's own chunk: its activation into its own row block
  unfold yPts
  iapply (wp_load 𝒱₀ (c : Thread nD τ) none Set.univ (m := yM) (S := (slotR c).set) (ySub _ _ c (off5_self c))) $$ Hyc; iintro Hyc
  rw [yRead_congr (c := c) _ _ c (off5_self c), yAll_read]
  iapply (wp_load 𝒱₀ (c : Thread nD τ) none Set.univ (m := oM) (Finset.subset_univ _)) $$ Hout; iintro Hout
  iapply (wp_store 𝒱₀ (c : Thread nD τ) none Set.univ (m := oM) (r := Rect.unit (s := S2048x256) (k0_off6 c) S256x256.size (k0_off6_inb c)) (Mk := Finset.univ) (Finset.subset_univ _)) $$ Hout; iintro Hout
  rw [oWrite_congr (c := c) _ _ c (off6_self c)]
  -- each landing awaited, its activation into its row block
  iapply (recv_wait_step m K c 0 (credit_any _) _ (Ocp_seven c) _) $$ [HcR0 HO HaR0]
  · isplitr; · iapply (inv_at m K (c, some (true, bk c 0))); iexact Hrec
    isplitl [HcR0]; · iexact HcR0
    isplitl [HO]; · iexact HO
    iexact HaR0
  iintro ⟨HO, HaR0, Hq0⟩
  unfold recvPay
  icases Hq0 with ⟨%gq0, %hgq0, Hq0⟩
  unfold rPts
  iapply (wp_load 𝒱₀ (c : Thread nD τ) none Set.univ (m := rM) (S := (slotR (bk c 0)).set) (rSub _ _ (bk c 0) (off9_at0 c))) $$ Hq0; iintro Hq0
  rw [rRead_congr (c := c) _ _ (bk c 0) (off9_at0 c), hgq0]
  iapply (wp_load 𝒱₀ (c : Thread nD τ) none Set.univ (m := oM) (Finset.subset_univ _)) $$ Hout; iintro Hout
  iapply (wp_store 𝒱₀ (c : Thread nD τ) none Set.univ (m := oM) (r := Rect.unit (s := S2048x256) (k0_off10 c 1#32) S256x256.size (k0_off10_inb c 0)) (Mk := Finset.univ) (Finset.subset_univ _)) $$ Hout; iintro Hout
  rw [oWrite_congr (c := c) _ _ (bk c 0) (off10_at0 c)]
  iapply (recv_wait_step m K c 1 (credit_any _) _ (Ocp_seven c) _) $$ [HcR1 HO HaR1]
  · isplitr; · iapply (inv_at m K (c, some (true, bk c 1))); iexact Hrec
    isplitl [HcR1]; · iexact HcR1
    isplitl [HO]; · iexact HO
    iexact HaR1
  iintro ⟨HO, HaR1, Hq1⟩
  unfold recvPay
  icases Hq1 with ⟨%gq1, %hgq1, Hq1⟩
  unfold rPts
  iapply (wp_load 𝒱₀ (c : Thread nD τ) none Set.univ (m := rM) (S := (slotR (bk c 1)).set) (rSub _ _ (bk c 1) (off9_at1 c))) $$ Hq1; iintro Hq1
  rw [rRead_congr (c := c) _ _ (bk c 1) (off9_at1 c), hgq1]
  iapply (wp_load 𝒱₀ (c : Thread nD τ) none Set.univ (m := oM) (Finset.subset_univ _)) $$ Hout; iintro Hout
  iapply (wp_store 𝒱₀ (c : Thread nD τ) none Set.univ (m := oM) (r := Rect.unit (s := S2048x256) (k0_off10 c 2#32) S256x256.size (k0_off10_inb c 1)) (Mk := Finset.univ) (Finset.subset_univ _)) $$ Hout; iintro Hout
  rw [oWrite_congr (c := c) _ _ (bk c 1) (off10_at1 c)]
  iapply (recv_wait_step m K c 2 (credit_any _) _ (Ocp_seven c) _) $$ [HcR2 HO HaR2]
  · isplitr; · iapply (inv_at m K (c, some (true, bk c 2))); iexact Hrec
    isplitl [HcR2]; · iexact HcR2
    isplitl [HO]; · iexact HO
    iexact HaR2
  iintro ⟨HO, HaR2, Hq2⟩
  unfold recvPay
  icases Hq2 with ⟨%gq2, %hgq2, Hq2⟩
  unfold rPts
  iapply (wp_load 𝒱₀ (c : Thread nD τ) none Set.univ (m := rM) (S := (slotR (bk c 2)).set) (rSub _ _ (bk c 2) (off9_at2 c))) $$ Hq2; iintro Hq2
  rw [rRead_congr (c := c) _ _ (bk c 2) (off9_at2 c), hgq2]
  iapply (wp_load 𝒱₀ (c : Thread nD τ) none Set.univ (m := oM) (Finset.subset_univ _)) $$ Hout; iintro Hout
  iapply (wp_store 𝒱₀ (c : Thread nD τ) none Set.univ (m := oM) (r := Rect.unit (s := S2048x256) (k0_off10 c 3#32) S256x256.size (k0_off10_inb c 2)) (Mk := Finset.univ) (Finset.subset_univ _)) $$ Hout; iintro Hout
  rw [oWrite_congr (c := c) _ _ (bk c 2) (off10_at2 c)]
  iapply (recv_wait_step m K c 3 (credit_any _) _ (Ocp_seven c) _) $$ [HcR3 HO HaR3]
  · isplitr; · iapply (inv_at m K (c, some (true, bk c 3))); iexact Hrec
    isplitl [HcR3]; · iexact HcR3
    isplitl [HO]; · iexact HO
    iexact HaR3
  iintro ⟨HO, HaR3, Hq3⟩
  unfold recvPay
  icases Hq3 with ⟨%gq3, %hgq3, Hq3⟩
  unfold rPts
  iapply (wp_load 𝒱₀ (c : Thread nD τ) none Set.univ (m := rM) (S := (slotR (bk c 3)).set) (rSub _ _ (bk c 3) (off9_at3 c))) $$ Hq3; iintro Hq3
  rw [rRead_congr (c := c) _ _ (bk c 3) (off9_at3 c), hgq3]
  iapply (wp_load 𝒱₀ (c : Thread nD τ) none Set.univ (m := oM) (Finset.subset_univ _)) $$ Hout; iintro Hout
  iapply (wp_store 𝒱₀ (c : Thread nD τ) none Set.univ (m := oM) (r := Rect.unit (s := S2048x256) (k0_off10 c 4#32) S256x256.size (k0_off10_inb c 3)) (Mk := Finset.univ) (Finset.subset_univ _)) $$ Hout; iintro Hout
  rw [oWrite_congr (c := c) _ _ (bk c 3) (off10_at3 c)]
  iapply (recv_wait_step m K c 4 (credit_any _) _ (Ocp_seven c) _) $$ [HcR4 HO HaR4]
  · isplitr; · iapply (inv_at m K (c, some (true, bk c 4))); iexact Hrec
    isplitl [HcR4]; · iexact HcR4
    isplitl [HO]; · iexact HO
    iexact HaR4
  iintro ⟨HO, HaR4, Hq4⟩
  unfold recvPay
  icases Hq4 with ⟨%gq4, %hgq4, Hq4⟩
  unfold rPts
  iapply (wp_load 𝒱₀ (c : Thread nD τ) none Set.univ (m := rM) (S := (slotR (bk c 4)).set) (rSub _ _ (bk c 4) (off9_at4 c))) $$ Hq4; iintro Hq4
  rw [rRead_congr (c := c) _ _ (bk c 4) (off9_at4 c), hgq4]
  iapply (wp_load 𝒱₀ (c : Thread nD τ) none Set.univ (m := oM) (Finset.subset_univ _)) $$ Hout; iintro Hout
  iapply (wp_store 𝒱₀ (c : Thread nD τ) none Set.univ (m := oM) (r := Rect.unit (s := S2048x256) (k0_off10 c 5#32) S256x256.size (k0_off10_inb c 4)) (Mk := Finset.univ) (Finset.subset_univ _)) $$ Hout; iintro Hout
  rw [oWrite_congr (c := c) _ _ (bk c 4) (off10_at4 c)]
  iapply (recv_wait_step m K c 5 (credit_any _) _ (Ocp_seven c) _) $$ [HcR5 HO HaR5]
  · isplitr; · iapply (inv_at m K (c, some (true, bk c 5))); iexact Hrec
    isplitl [HcR5]; · iexact HcR5
    isplitl [HO]; · iexact HO
    iexact HaR5
  iintro ⟨HO, HaR5, Hq5⟩
  unfold recvPay
  icases Hq5 with ⟨%gq5, %hgq5, Hq5⟩
  unfold rPts
  iapply (wp_load 𝒱₀ (c : Thread nD τ) none Set.univ (m := rM) (S := (slotR (bk c 5)).set) (rSub _ _ (bk c 5) (off9_at5 c))) $$ Hq5; iintro Hq5
  rw [rRead_congr (c := c) _ _ (bk c 5) (off9_at5 c), hgq5]
  iapply (wp_load 𝒱₀ (c : Thread nD τ) none Set.univ (m := oM) (Finset.subset_univ _)) $$ Hout; iintro Hout
  iapply (wp_store 𝒱₀ (c : Thread nD τ) none Set.univ (m := oM) (r := Rect.unit (s := S2048x256) (k0_off10 c 6#32) S256x256.size (k0_off10_inb c 5)) (Mk := Finset.univ) (Finset.subset_univ _)) $$ Hout; iintro Hout
  rw [oWrite_congr (c := c) _ _ (bk c 5) (off10_at5 c)]
  iapply (recv_wait_step m K c 6 (credit_any _) _ (Ocp_seven c) _) $$ [HcR6 HO HaR6]
  · isplitr; · iapply (inv_at m K (c, some (true, bk c 6))); iexact Hrec
    isplitl [HcR6]; · iexact HcR6
    isplitl [HO]; · iexact HO
    iexact HaR6
  iintro ⟨HO, HaR6, Hq6⟩
  unfold recvPay
  icases Hq6 with ⟨%gq6, %hgq6, Hq6⟩
  unfold rPts
  iapply (wp_load 𝒱₀ (c : Thread nD τ) none Set.univ (m := rM) (S := (slotR (bk c 6)).set) (rSub _ _ (bk c 6) (off9_at6 c))) $$ Hq6; iintro Hq6
  rw [rRead_congr (c := c) _ _ (bk c 6) (off9_at6 c), hgq6]
  iapply (wp_load 𝒱₀ (c : Thread nD τ) none Set.univ (m := oM) (Finset.subset_univ _)) $$ Hout; iintro Hout
  iapply (wp_store 𝒱₀ (c : Thread nD τ) none Set.univ (m := oM) (r := Rect.unit (s := S2048x256) (k0_off10 c 7#32) S256x256.size (k0_off10_inb c 6)) (Mk := Finset.univ) (Finset.subset_univ _)) $$ Hout; iintro Hout
  rw [oWrite_congr (c := c) _ _ (bk c 6) (off10_at6 c)]
  -- the departures awaited: the chunk slots whole again
  iapply (send_wait_step m K c 0 (credit_any _) _ rfl _) $$ [HcS0 HO HaS0]
  · isplitr; · iapply (inv_at m K (c, some (false, fw c 0))); iexact Hrec
    isplitl [HcS0]; · iexact HcS0
    isplitl [HO]; · iexact HO
    iexact HaS0
  iintro ⟨HO, HaS0, Hs0⟩
  iapply (send_wait_step m K c 1 (credit_any _) _ rfl _) $$ [HcS1 HO HaS1]
  · isplitr; · iapply (inv_at m K (c, some (false, fw c 1))); iexact Hrec
    isplitl [HcS1]; · iexact HcS1
    isplitl [HO]; · iexact HO
    iexact HaS1
  iintro ⟨HO, HaS1, Hs1⟩
  iapply (send_wait_step m K c 2 (credit_any _) _ rfl _) $$ [HcS2 HO HaS2]
  · isplitr; · iapply (inv_at m K (c, some (false, fw c 2))); iexact Hrec
    isplitl [HcS2]; · iexact HcS2
    isplitl [HO]; · iexact HO
    iexact HaS2
  iintro ⟨HO, HaS2, Hs2⟩
  iapply (send_wait_step m K c 3 (credit_any _) _ rfl _) $$ [HcS3 HO HaS3]
  · isplitr; · iapply (inv_at m K (c, some (false, fw c 3))); iexact Hrec
    isplitl [HcS3]; · iexact HcS3
    isplitl [HO]; · iexact HO
    iexact HaS3
  iintro ⟨HO, HaS3, Hs3⟩
  iapply (send_wait_step m K c 4 (credit_any _) _ rfl _) $$ [HcS4 HO HaS4]
  · isplitr; · iapply (inv_at m K (c, some (false, fw c 4))); iexact Hrec
    isplitl [HcS4]; · iexact HcS4
    isplitl [HO]; · iexact HO
    iexact HaS4
  iintro ⟨HO, HaS4, Hs4⟩
  iapply (send_wait_step m K c 5 (credit_any _) _ rfl _) $$ [HcS5 HO HaS5]
  · isplitr; · iapply (inv_at m K (c, some (false, fw c 5))); iexact Hrec
    isplitl [HcS5]; · iexact HcS5
    isplitl [HO]; · iexact HO
    iexact HaS5
  iintro ⟨HO, HaS5, Hs5⟩
  iapply (send_wait_step m K c 6 (credit_any _) _ rfl _) $$ [HcS6 HO HaS6]
  · isplitr; · iapply (inv_at m K (c, some (false, fw c 6))); iexact Hrec
    isplitl [HcS6]; · iexact HcS6
    isplitl [HO]; · iexact HO
    iexact HaS6
  iintro ⟨HO, HaS6, Hs6⟩
  -- the sixteen own cells close: their counters at zero are the device's again
  imod (Rounds.cell_close ER (sched m) (Set.mem_univ (K (c, some (false, fw c 0)))) (fun h => h) (R := 1) (duties_later m (sendCell c (fw c 0)))) $$ [HaS0] with HzS0
  · isplitr; · iapply (inv_at m K (c, some (false, fw c 0))); iexact Hrec
    iexact HaS0
  imod (Rounds.cell_close ER (sched m) (Set.mem_univ (K (c, some (true, bk c 0)))) (fun h => h) (R := 1) (duties_later m (recvCell c (bk c 0)))) $$ [HaR0] with HzR0
  · isplitr; · iapply (inv_at m K (c, some (true, bk c 0))); iexact Hrec
    iexact HaR0
  imod (Rounds.cell_close ER (sched m) (Set.mem_univ (K (c, some (false, fw c 1)))) (fun h => h) (R := 1) (duties_later m (sendCell c (fw c 1)))) $$ [HaS1] with HzS1
  · isplitr; · iapply (inv_at m K (c, some (false, fw c 1))); iexact Hrec
    iexact HaS1
  imod (Rounds.cell_close ER (sched m) (Set.mem_univ (K (c, some (true, bk c 1)))) (fun h => h) (R := 1) (duties_later m (recvCell c (bk c 1)))) $$ [HaR1] with HzR1
  · isplitr; · iapply (inv_at m K (c, some (true, bk c 1))); iexact Hrec
    iexact HaR1
  imod (Rounds.cell_close ER (sched m) (Set.mem_univ (K (c, some (false, fw c 2)))) (fun h => h) (R := 1) (duties_later m (sendCell c (fw c 2)))) $$ [HaS2] with HzS2
  · isplitr; · iapply (inv_at m K (c, some (false, fw c 2))); iexact Hrec
    iexact HaS2
  imod (Rounds.cell_close ER (sched m) (Set.mem_univ (K (c, some (true, bk c 2)))) (fun h => h) (R := 1) (duties_later m (recvCell c (bk c 2)))) $$ [HaR2] with HzR2
  · isplitr; · iapply (inv_at m K (c, some (true, bk c 2))); iexact Hrec
    iexact HaR2
  imod (Rounds.cell_close ER (sched m) (Set.mem_univ (K (c, some (false, fw c 3)))) (fun h => h) (R := 1) (duties_later m (sendCell c (fw c 3)))) $$ [HaS3] with HzS3
  · isplitr; · iapply (inv_at m K (c, some (false, fw c 3))); iexact Hrec
    iexact HaS3
  imod (Rounds.cell_close ER (sched m) (Set.mem_univ (K (c, some (true, bk c 3)))) (fun h => h) (R := 1) (duties_later m (recvCell c (bk c 3)))) $$ [HaR3] with HzR3
  · isplitr; · iapply (inv_at m K (c, some (true, bk c 3))); iexact Hrec
    iexact HaR3
  imod (Rounds.cell_close ER (sched m) (Set.mem_univ (K (c, some (false, fw c 4)))) (fun h => h) (R := 1) (duties_later m (sendCell c (fw c 4)))) $$ [HaS4] with HzS4
  · isplitr; · iapply (inv_at m K (c, some (false, fw c 4))); iexact Hrec
    iexact HaS4
  imod (Rounds.cell_close ER (sched m) (Set.mem_univ (K (c, some (true, bk c 4)))) (fun h => h) (R := 1) (duties_later m (recvCell c (bk c 4)))) $$ [HaR4] with HzR4
  · isplitr; · iapply (inv_at m K (c, some (true, bk c 4))); iexact Hrec
    iexact HaR4
  imod (Rounds.cell_close ER (sched m) (Set.mem_univ (K (c, some (false, fw c 5)))) (fun h => h) (R := 1) (duties_later m (sendCell c (fw c 5)))) $$ [HaS5] with HzS5
  · isplitr; · iapply (inv_at m K (c, some (false, fw c 5))); iexact Hrec
    iexact HaS5
  imod (Rounds.cell_close ER (sched m) (Set.mem_univ (K (c, some (true, bk c 5)))) (fun h => h) (R := 1) (duties_later m (recvCell c (bk c 5)))) $$ [HaR5] with HzR5
  · isplitr; · iapply (inv_at m K (c, some (true, bk c 5))); iexact Hrec
    iexact HaR5
  imod (Rounds.cell_close ER (sched m) (Set.mem_univ (K (c, some (false, fw c 6)))) (fun h => h) (R := 1) (duties_later m (sendCell c (fw c 6)))) $$ [HaS6] with HzS6
  · isplitr; · iapply (inv_at m K (c, some (false, fw c 6))); iexact Hrec
    iexact HaS6
  imod (Rounds.cell_close ER (sched m) (Set.mem_univ (K (c, some (true, bk c 6)))) (fun h => h) (R := 1) (duties_later m (recvCell c (bk c 6)))) $$ [HaR6] with HzR6
  · isplitr; · iapply (inv_at m K (c, some (true, bk c 6))); iexact Hrec
    iexact HaR6
  imod (Rounds.cell_close ER (sched m) (Set.mem_univ (K (c, some (false, c)))) (fun h => h) (R := 0) (fun r _ => duties_send_self m c r)) $$ [HaSc] with HzSc
  · isplitr; · iapply (inv_at m K (c, some (false, c))); iexact Hrec
    iexact HaSc
  imod (Rounds.cell_close ER (sched m) (Set.mem_univ (K (c, some (true, c)))) (fun h => h) (R := 0) (fun r _ => duties_recv_self m c r)) $$ [HaRc] with HzRc
  · isplitr; · iapply (inv_at m K (c, some (true, c))); iexact Hrec
    iexact HaRc
  rw [wp_ret]; imodintro
  iapply Hk
  unfold bodyPost Φ₁ Dat.owesAt Pipeline.owesWithin sendPay
  rw [show (dats m 0 c).owed t₀.succ = 0 from rfl]
  isplitl [Hyc Hs0 Hs1 Hs2 Hs3 Hs4 Hs5 Hs6 Hrc Hq0 Hq1 Hq2 Hq3 Hq4 Hq5 Hq6 HzSc HzS0 HzS1 HzS2 HzS3 HzS4 HzS5 HzS6 HzRc HzR0 HzR1 HzR2 HzR3 HzR4 HzR5 HzR6]
  · isplitl [Hyc Hs0 Hs1 Hs2 Hs3 Hs4 Hs5 Hs6]
    · iapply (join_y c)
      isplitl [Hyc]; · iexists _; unfold yPts; iexact Hyc
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hs6
    isplitl [Hrc Hq0 Hq1 Hq2 Hq3 Hq4 Hq5 Hq6]
    · iapply (join_r c)
      isplitl [Hrc]; · iexists fr0; unfold rPts; iexact Hrc
      isplitl [Hq0]; · iexists gq0; unfold rPts; iexact Hq0
      isplitl [Hq1]; · iexists gq1; unfold rPts; iexact Hq1
      isplitl [Hq2]; · iexists gq2; unfold rPts; iexact Hq2
      isplitl [Hq3]; · iexists gq3; unfold rPts; iexact Hq3
      isplitl [Hq4]; · iexists gq4; unfold rPts; iexact Hq4
      isplitl [Hq5]; · iexists gq5; unfold rPts; iexact Hq5
      iexists gq6; unfold rPts; iexact Hq6
    iapply (semVals_intro (F := F) c)
    isplitl [HzSc HzS0 HzS1 HzS2 HzS3 HzS4 HzS5 HzS6]
    · isplitl [HzSc]; · iexact HzSc
      isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      iexact HzS6
    · isplitl [HzRc]; · iexact HzRc
      isplitl [HzR0]; · iexact HzR0
      isplitl [HzR1]; · iexact HzR1
      isplitl [HzR2]; · iexact HzR2
      isplitl [HzR3]; · iexact HzR3
      isplitl [HzR4]; · iexact HzR4
      isplitl [HzR5]; · iexact HzR5
      iexact HzR6
  isplitl [HO]
  · iexists _
    isplitr [HO]
    rotate_left
    · iexact HO
    · ipureintro; exact fun _ _ => Or.inl trivial
  isplitl [Hx]; · iexists _; isplitr; · (ipureintro; rfl)
                  iexact Hx
  isplitl [Hw]; · iexists _; isplitr; · (ipureintro; rfl)
                  iexact Hw
  iexists _; isplitr
  · ipureintro; exact oAll_eq m c g2
  rw [← oAll_unfold m c g2]
  iexact Hout

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- The library's body obligation on device c. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) cc0_scratch2 cc0_scratch3) (fun _ => bodyPost m c)
  unfold bodyPre' Φ₀ start
  iintro ⟨⟨⟨⟨%K, Hg⟩, Hrest⟩, Hy, Hr⟩, Ho, Hx, Hw, Hout⟩
  iapply (sound_body m K c fun _ => bodyPost m c)
  unfold bodyPre
  isplitr []
  · isplitl [Hg Hrest Hy Hr]
    · isplitl [Hg]; · iexact Hg
      icases Hrest with ⟨H1, H2, H3⟩
      isplitl [H1]; · iexact H1
      isplitl [H2]; · iexact H2
      isplitl [H3]; · iexact H3
      isplitl [Hy]; · iexact Hy
      iexact Hr
    isplitl [Ho]; · iexact Ho
    isplitl [Hx]; · iexact Hx
    isplitl [Hw]; · iexact Hw
    iexact Hout
  · iintro H; iexact H

end Cert.Kernel.A2A

end
-- ==== Proof.lean ====
/- The five conjuncts of `Cert.Claim` for the all-to-all of matrix-product chunks.

   Eight devices. Device `c` holds rows `[256 c, 256 c + 256)` of `X` and a copy of `W`. It multiplies them, cuts the
   product into eight 256-column chunks, and sends chunk `t` to device `t`; it applies the activation
   `0.5 y (1 + tanh (0.7978845608 (y + 0.044715 y y y)))` to the chunk it receives from device `s` and writes it to rows
   `[256 s, 256 s + 256)` of its result, so that its result is columns `[256 c, 256 c + 256)` of the activation of `X W`.

   The exchange: every device first tells each peer, on that peer's barrier semaphore, that it is inside the kernel,
   which hands the peer the slot of its landing buffer the peer will write; it waits for its seven units, starts its
   seven copies, and waits for each landing before it reads that slot. Each semaphore is a cell with one round; a
   device owes each peer one barrier unit and one landing, waits on its barrier owing only landings, and on its
   landings owing nothing, which orders the waits. Every cell's invariant is allocated for all devices at once.

   The frames (of the kernel as printed, of its reading on the extended reals, of the reference) say each program runs
   to the end and leaves its arguments unchanged; the first two are the one run of @main read at the argument arrays,
   at the two instances. The reading on the extended reals rewrote nothing. The algebraic claim: on the extended reals the
   product payload at `(p, j)` is the sum over `k` of `x (p, k) w (k, j)`, narrowing a chunk to bf16 and widening it back
   is the identity, and the kernel's `((0.044715 y) y) y` is the reference's `0.044715 ((y y) y)` by associativity of the
   product; so device `c`'s result at row `256 s + p`, column `q` is the reference's result at row `256 s + p`, column
   `256 c + q`. -/
import proofs.«900437_g7700000000000438_dist_gemm_a2a_m2048_k2048_n2048_f32_gelu_v7x_i8_1_alg».proof.Defs
import proofs.«900437_g7700000000000438_dist_gemm_a2a_m2048_k2048_n2048_f32_gelu_v7x_i8_1_alg».proof.Proof.Gen.Kernel
import proofs.«900437_g7700000000000438_dist_gemm_a2a_m2048_k2048_n2048_f32_gelu_v7x_i8_1_alg».proof.Proof.Gen.Kernel.Skeleton
import proofs.«900437_g7700000000000438_dist_gemm_a2a_m2048_k2048_n2048_f32_gelu_v7x_i8_1_alg».proof.Proof.Gen.Kernel.Launch
import proofs.«900437_g7700000000000438_dist_gemm_a2a_m2048_k2048_n2048_f32_gelu_v7x_i8_1_alg».proof.Proof.Gen.Kernel.Points
import proofs.«900437_g7700000000000438_dist_gemm_a2a_m2048_k2048_n2048_f32_gelu_v7x_i8_1_alg».proof.Proof.Gen.Kernel.Frame
import proofs.«900437_g7700000000000438_dist_gemm_a2a_m2048_k2048_n2048_f32_gelu_v7x_i8_1_alg».proof.Proof.Gen.KernelIdeal
import proofs.«900437_g7700000000000438_dist_gemm_a2a_m2048_k2048_n2048_f32_gelu_v7x_i8_1_alg».proof.Proof.Gen.KernelIdeal.Skeleton
import proofs.«900437_g7700000000000438_dist_gemm_a2a_m2048_k2048_n2048_f32_gelu_v7x_i8_1_alg».proof.Proof.Gen.KernelIdeal.Launch
import proofs.«900437_g7700000000000438_dist_gemm_a2a_m2048_k2048_n2048_f32_gelu_v7x_i8_1_alg».proof.Proof.Gen.KernelIdeal.Points
import proofs.«900437_g7700000000000438_dist_gemm_a2a_m2048_k2048_n2048_f32_gelu_v7x_i8_1_alg».proof.Proof.Gen.KernelIdeal.Frame
import proofs.«900437_g7700000000000438_dist_gemm_a2a_m2048_k2048_n2048_f32_gelu_v7x_i8_1_alg».proof.Proof.Gen.ReferenceIdeal
import proofs.«900437_g7700000000000438_dist_gemm_a2a_m2048_k2048_n2048_f32_gelu_v7x_i8_1_alg».proof.Proof.Gen.ReferenceIdeal.Run
import proofs.«900437_g7700000000000438_dist_gemm_a2a_m2048_k2048_n2048_f32_gelu_v7x_i8_1_alg».proof.Proof.Gen.ReferenceIdeal.Read
import proofs.«900437_g7700000000000438_dist_gemm_a2a_m2048_k2048_n2048_f32_gelu_v7x_i8_1_alg».proof.Proof.Gen.Pre_finite_inputs_Kernel
import proofs.«900437_g7700000000000438_dist_gemm_a2a_m2048_k2048_n2048_f32_gelu_v7x_i8_1_alg».proof.Proof.Gen.Pre_finite_inputs_ReferenceIdeal
import proofs.«900437_g7700000000000438_dist_gemm_a2a_m2048_k2048_n2048_f32_gelu_v7x_i8_1_alg».proof.Proof.A2AClaims
import proofs.«900437_g7700000000000438_dist_gemm_a2a_m2048_k2048_n2048_f32_gelu_v7x_i8_1_alg».proof.Proof.A2AClaimsW
import proofs.«900437_g7700000000000438_dist_gemm_a2a_m2048_k2048_n2048_f32_gelu_v7x_i8_1_alg».proof.Proof.A2ABody
import proofs.«900437_g7700000000000438_dist_gemm_a2a_m2048_k2048_n2048_f32_gelu_v7x_i8_1_alg».proof.Proof.A2ABodyW
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs_Kernel.Gen.facts, Cert.Pre_finite_inputs_ReferenceIdeal.Gen.facts,
    Cert.Kernel.A2AClaims.frame_Kernel (fun m c => Cert.Kernel.A2A.body_obligation m c),
    Cert.KernelIdeal.A2AClaims.frame_KernelIdeal (fun m c => Cert.KernelIdeal.A2A.body_obligation m c),
    Cert.KernelIdeal.A2AClaims.frame_ReferenceIdeal,
    trivial,
    Cert.KernelIdeal.A2AClaims.algebraic (fun m c => Cert.KernelIdeal.A2A.body_obligation m c)⟩

end Cert.Proof

end
